-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg2 : IVec S1600000 32) (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_c_14 : IVec S_ 32 := constantI S_ 32 0#32
  let main_v39 : IVec S1600000 32 := broadcastInDim S1600000 ![] bcast_S_S1600000 main_c_14
  let main_v40 : IVec S1600000 1 := cmpi .sge main_arg2 main_v39
  let main_c_15 : IVec S_ 32 := constantI S_ 32 100000#32
  let main_v41 : IVec S1600000 32 := broadcastInDim S1600000 ![] bcast_S_S1600000 main_c_15
  let main_v42 : IVec S1600000 1 := cmpi .slt main_arg2 main_v41
  let main_v43 : IVec S1600000 1 := andi main_v40 main_v42
  let main_c_16 : IVec S_ 1 := constantI S_ 1 1#1
  let main_v44 : IVec S_ 1 := (fun x v => Host.reduce IntOp.andi x v reducesTo_S1600000_S_d0 h_S_) main_v43 main_c_16
  let main_v45 : IVec S_ 1 := andi main_v38 main_v44
  main_v45

def fn_part1 {F : FTy → Type} [FloatOps F] (main_arg2 : IVec S1600000 32) (main_arg6 : FVec F S64x64 .f32) (main_arg7 : FVec F S64 .f32) (main_arg8 : FVec F S64x64 .f32) (main_arg9 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg8
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg2 main_arg9 main_v33

def fn {F : FTy → Type} [FloatOps F] (main_arg0 : FVec F S100000x64 .f32) (main_arg1 : FVec F S100000 .f32) (main_arg2 : IVec S1600000 32) (main_arg3 : IVec S1600000 32) (main_arg4 : FVec F S64x64 .f32) (main_arg5 : FVec F S64 .f32) (main_arg6 : FVec F S64x64 .f32) (main_arg7 : FVec F S64 .f32) (main_arg8 : FVec F S64x64 .f32) (main_arg9 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg6 main_arg7 main_arg8 main_arg9 main_v13 main_v16
-- ==== Kernel.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S10000x64 : Shape := ⟨2, ![10000, 64]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 181
  | .vmem => 36
  | .smem => 0
  | _ => 0

abbrev hbmTy0_0 (i : Nat) : BufTy := match i % 128 with
  | 0 => ⟨S100000x64, .f32⟩
  | 1 => ⟨S100000, .f32⟩
  | 2 => ⟨S1600000, .i32⟩
  | 3 => ⟨S1600000, .i32⟩
  | 4 => ⟨S64x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S100000x64, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1, .i32⟩
  | 20 => ⟨S_, .i32⟩
  | 21 => ⟨S1600000x1, .i32⟩
  | 22 => ⟨S1600000x1, .i1⟩
  | 23 => ⟨S1x1, .i32⟩
  | 24 => ⟨S1600000x1, .i32⟩
  | 25 => ⟨S1600000x1, .i1⟩
  | 26 => ⟨S1600000x1, .i1⟩
  | 27 => ⟨S_, .i1⟩
  | 28 => ⟨S1600000, .i1⟩
  | 29 => ⟨S1600000, .f32⟩
  | 30 => ⟨S_, .f32⟩
  | 31 => ⟨S1600000, .f32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1, .i32⟩
  | 42 => ⟨S_, .i32⟩
  | 43 => ⟨S1600000x1, .i32⟩
  | 44 => ⟨S1600000x1, .i1⟩
  | 45 => ⟨S1x1, .i32⟩
  | 46 => ⟨S1600000x1, .i32⟩
  | 47 => ⟨S1600000x1, .i1⟩
  | 48 => ⟨S1600000x1, .i1⟩
  | 49 => ⟨S_, .i1⟩
  | 50 => ⟨S1600000, .i1⟩
  | 51 => ⟨S1600000x64, .f32⟩
  | 52 => ⟨S1600000x64, .i1⟩
  | 53 => ⟨S_, .f32⟩
  | 54 => ⟨S1600000x64, .f32⟩
  | 55 => ⟨S1600000x64, .f32⟩
  | 56 => ⟨S1600000x1, .f32⟩
  | 57 => ⟨S1600000x64, .f32⟩
  | 58 => ⟨S1600000x64, .f32⟩
  | 59 => ⟨S_, .f32⟩
  | 60 => ⟨S100000x64, .f32⟩
  | 61 => ⟨S1600000x1, .i32⟩
  | 62 => ⟨S100000x64, .f32⟩
  | 63 => ⟨S100000x1, .f32⟩
  | 64 => ⟨S100000x64, .f32⟩
  | 65 => ⟨S1x64, .f32⟩
  | 66 => ⟨S100000x64, .f32⟩
  | 67 => ⟨S100000x64, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1, .i32⟩
  | 77 => ⟨S_, .i32⟩
  | 78 => ⟨S1600000x1, .i32⟩
  | 79 => ⟨S1600000x1, .i1⟩
  | 80 => ⟨S1x1, .i32⟩
  | 81 => ⟨S1600000x1, .i32⟩
  | 82 => ⟨S1600000x1, .i1⟩
  | 83 => ⟨S1600000x1, .i1⟩
  | 84 => ⟨S_, .i1⟩
  | 85 => ⟨S1600000, .i1⟩
  | 86 => ⟨S1600000, .f32⟩
  | 87 => ⟨S_, .f32⟩
  | 88 => ⟨S1600000, .f32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1, .i32⟩
  | 99 => ⟨S_, .i32⟩
  | 100 => ⟨S1600000x1, .i32⟩
  | 101 => ⟨S1600000x1, .i1⟩
  | 102 => ⟨S1x1, .i32⟩
  | 103 => ⟨S1600000x1, .i32⟩
  | 104 => ⟨S1600000x1, .i1⟩
  | 105 => ⟨S1600000x1, .i1⟩
  | 106 => ⟨S_, .i1⟩
  | 107 => ⟨S1600000, .i1⟩
  | 108 => ⟨S1600000x64, .f32⟩
  | 109 => ⟨S1600000x64, .i1⟩
  | 110 => ⟨S_, .f32⟩
  | 111 => ⟨S1600000x64, .f32⟩
  | 112 => ⟨S1600000x64, .f32⟩
  | 113 => ⟨S1600000x1, .f32⟩
  | 114 => ⟨S1600000x64, .f32⟩
  | 115 => ⟨S1600000x64, .f32⟩
  | 116 => ⟨S_, .f32⟩
  | 117 => ⟨S100000x64, .f32⟩
  | 118 => ⟨S1600000x1, .i32⟩
  | 119 => ⟨S100000x64, .f32⟩
  | 120 => ⟨S100000x1, .f32⟩
  | 121 => ⟨S100000x64, .f32⟩
  | 122 => ⟨S1x64, .f32⟩
  | 123 => ⟨S100000x64, .f32⟩
  | 124 => ⟨S100000x64, .f32⟩
  | 125 => ⟨S_, .i32⟩
  | 126 => ⟨S1600000, .i32⟩
  | 127 => ⟨S1600000, .i1⟩
  | _ => ⟨S100000x64, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1, .i32⟩
  | 6 => ⟨S_, .i32⟩
  | 7 => ⟨S1600000x1, .i32⟩
  | 8 => ⟨S1600000x1, .i1⟩
  | 9 => ⟨S1x1, .i32⟩
  | 10 => ⟨S1600000x1, .i32⟩
  | 11 => ⟨S1600000x1, .i1⟩
  | 12 => ⟨S1600000x1, .i1⟩
  | 13 => ⟨S_, .i1⟩
  | 14 => ⟨S1600000, .i1⟩
  | 15 => ⟨S1600000, .f32⟩
  | 16 => ⟨S_, .f32⟩
  | 17 => ⟨S1600000, .f32⟩
  | 18 => ⟨S1600000, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1, .i32⟩
  | 28 => ⟨S_, .i32⟩
  | 29 => ⟨S1600000x1, .i32⟩
  | 30 => ⟨S1600000x1, .i1⟩
  | 31 => ⟨S1x1, .i32⟩
  | 32 => ⟨S1600000x1, .i32⟩
  | 33 => ⟨S1600000x1, .i1⟩
  | 34 => ⟨S1600000x1, .i1⟩
  | 35 => ⟨S_, .i1⟩
  | 36 => ⟨S1600000, .i1⟩
  | 37 => ⟨S1600000x64, .f32⟩
  | 38 => ⟨S1600000x64, .i1⟩
  | 39 => ⟨S_, .f32⟩
  | 40 => ⟨S1600000x64, .f32⟩
  | 41 => ⟨S1600000x64, .f32⟩
  | 42 => ⟨S1600000x1, .f32⟩
  | 43 => ⟨S1600000x64, .f32⟩
  | 44 => ⟨S1600000x64, .f32⟩
  | 45 => ⟨S_, .f32⟩
  | 46 => ⟨S100000x64, .f32⟩
  | 47 => ⟨S1600000x1, .i32⟩
  | 48 => ⟨S100000x64, .f32⟩
  | 49 => ⟨S100000x1, .f32⟩
  | 50 => ⟨S100000x64, .f32⟩
  | 51 => ⟨S1x64, .f32⟩
  | 52 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S64x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S1x64, .f32⟩
  | .local _ .vmem, ⟨22, _⟩ => ⟨S10000x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S64x64, .f32⟩
  | .local _ .vmem, ⟨27, _⟩ => ⟨S10000x64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .f32⟩
  | .local _ .vmem, ⟨33, _⟩ => ⟨S1x64, .f32⟩
  | .local _ .vmem, ⟨34, _⟩ => ⟨S10000x64, .f32⟩
  | .local _ .vmem, ⟨35, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_cst : Ref sig .tc := ⟨.hbm, 30, rfl⟩
abbrev main_call0_v14 : Ref sig .tc := ⟨.hbm, 31, rfl⟩
abbrev main_v1 : Ref sig .tc := ⟨.hbm, 32, rfl⟩
abbrev main_call1_c : Ref sig .tc := ⟨.hbm, 33, rfl⟩
abbrev main_call1_v0 : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_c_1 : Ref sig .tc := ⟨.hbm, 41, rfl⟩
abbrev main_call1_c_2 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_v9 : Ref sig .tc := ⟨.hbm, 46, rfl⟩
abbrev main_call1_v10 : Ref sig .tc := ⟨.hbm, 47, rfl⟩
abbrev main_call1_v11 : Ref sig .tc := ⟨.hbm, 48, rfl⟩
abbrev main_call1_c_3 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_call1_cst : Ref sig .tc := ⟨.hbm, 53, rfl⟩
abbrev main_call1_v15 : Ref sig .tc := ⟨.hbm, 54, rfl⟩
abbrev main_v2 : Ref sig .tc := ⟨.hbm, 55, rfl⟩
abbrev main_v3 : Ref sig .tc := ⟨.hbm, 56, rfl⟩
abbrev main_v4 : Ref sig .tc := ⟨.hbm, 57, rfl⟩
abbrev main_v5 : Ref sig .tc := ⟨.hbm, 58, rfl⟩
abbrev main_cst : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_cst : Ref sig .tc := ⟨.hbm, 87, rfl⟩
abbrev main_call2_v14 : Ref sig .tc := ⟨.hbm, 88, rfl⟩
abbrev main_v14 : Ref sig .tc := ⟨.hbm, 89, rfl⟩
abbrev main_call3_c : Ref sig .tc := ⟨.hbm, 90, rfl⟩
abbrev main_call3_v0 : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_c_1 : Ref sig .tc := ⟨.hbm, 98, rfl⟩
abbrev main_call3_c_2 : Ref sig .tc := ⟨.hbm, 99, rfl⟩
abbrev main_call3_v6 : Ref sig .tc := ⟨.hbm, 100, rfl⟩
abbrev main_call3_v7 : Ref sig .tc := ⟨.hbm, 101, rfl⟩
abbrev main_call3_v8 : Ref sig .tc := ⟨.hbm, 102, rfl⟩
abbrev main_call3_v9 : Ref sig .tc := ⟨.hbm, 103, rfl⟩
abbrev main_call3_v10 : Ref sig .tc := ⟨.hbm, 104, rfl⟩
abbrev main_call3_v11 : Ref sig .tc := ⟨.hbm, 105, rfl⟩
abbrev main_call3_c_3 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_call3_cst : Ref sig .tc := ⟨.hbm, 110, rfl⟩
abbrev main_call3_v15 : Ref sig .tc := ⟨.hbm, 111, rfl⟩
abbrev main_v15 : Ref sig .tc := ⟨.hbm, 112, rfl⟩
abbrev main_v16 : Ref sig .tc := ⟨.hbm, 113, rfl⟩
abbrev main_v17 : Ref sig .tc := ⟨.hbm, 114, rfl⟩
abbrev main_v18 : Ref sig .tc := ⟨.hbm, 115, rfl⟩
abbrev main_cst_0 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_cst : Ref sig .tc := ⟨.hbm, 144, rfl⟩
abbrev main_call4_v14 : Ref sig .tc := ⟨.hbm, 145, rfl⟩
abbrev main_v27 : Ref sig .tc := ⟨.hbm, 146, rfl⟩
abbrev main_call5_c : Ref sig .tc := ⟨.hbm, 147, rfl⟩
abbrev main_call5_v0 : Ref sig .tc := ⟨.hbm, 148, rfl⟩
abbrev main_call5_v1 : Ref sig .tc := ⟨.hbm, 149, rfl⟩
abbrev main_call5_c_0 : Ref sig .tc := ⟨.hbm, 150, rfl⟩
abbrev main_call5_v2 : Ref sig .tc := ⟨.hbm, 151, rfl⟩
abbrev main_call5_v3 : Ref sig .tc := ⟨.hbm, 152, rfl⟩
abbrev main_call5_v4 : Ref sig .tc := ⟨.hbm, 153, rfl⟩
abbrev main_call5_v5 : Ref sig .tc := ⟨.hbm, 154, rfl⟩
abbrev main_call5_c_1 : Ref sig .tc := ⟨.hbm, 155, rfl⟩
abbrev main_call5_c_2 : Ref sig .tc := ⟨.hbm, 156, rfl⟩
abbrev main_call5_v6 : Ref sig .tc := ⟨.hbm, 157, rfl⟩
abbrev main_call5_v7 : Ref sig .tc := ⟨.hbm, 158, rfl⟩
abbrev main_call5_v8 : Ref sig .tc := ⟨.hbm, 159, rfl⟩
abbrev main_call5_v9 : Ref sig .tc := ⟨.hbm, 160, rfl⟩
abbrev main_call5_v10 : Ref sig .tc := ⟨.hbm, 161, rfl⟩
abbrev main_call5_v11 : Ref sig .tc := ⟨.hbm, 162, rfl⟩
abbrev main_call5_c_3 : Ref sig .tc := ⟨.hbm, 163, rfl⟩
abbrev main_call5_v12 : Ref sig .tc := ⟨.hbm, 164, rfl⟩
abbrev main_call5_v13 : Ref sig .tc := ⟨.hbm, 165, rfl⟩
abbrev main_call5_v14 : Ref sig .tc := ⟨.hbm, 166, rfl⟩
abbrev main_call5_cst : Ref sig .tc := ⟨.hbm, 167, rfl⟩
abbrev main_call5_v15 : Ref sig .tc := ⟨.hbm, 168, rfl⟩
abbrev main_v28 : Ref sig .tc := ⟨.hbm, 169, rfl⟩
abbrev main_v29 : Ref sig .tc := ⟨.hbm, 170, rfl⟩
abbrev main_v30 : Ref sig .tc := ⟨.hbm, 171, rfl⟩
abbrev main_v31 : Ref sig .tc := ⟨.hbm, 172, rfl⟩
abbrev main_cst_1 : Ref sig .tc := ⟨.hbm, 173, rfl⟩
abbrev main_v32 : Ref sig .tc := ⟨.hbm, 174, rfl⟩
abbrev main_v33 : Ref sig .tc := ⟨.hbm, 175, rfl⟩
abbrev main_v34 : Ref sig .tc := ⟨.hbm, 176, rfl⟩
abbrev main_v35 : Ref sig .tc := ⟨.hbm, 177, rfl⟩
abbrev main_v36 : Ref sig .tc := ⟨.hbm, 178, rfl⟩
abbrev main_v37 : Ref sig .tc := ⟨.hbm, 179, rfl⟩
abbrev main_v38 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg2_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem2_1 : DmaSem sig := 28
abbrev cc5_sem0_0 : DmaSem sig := 29
abbrev cc5_sem0_1 : DmaSem sig := 30
abbrev cc5_sem1_0 : DmaSem sig := 31
abbrev cc5_sem1_1 : DmaSem sig := 32
abbrev cc5_sem2_0 : DmaSem sig := 33
abbrev cc5_sem3_0 : DmaSem sig := 34
abbrev cc5_sem3_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S10000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S10000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  dot_S10000x64_S64x64_S10000x64_1_0_0_1_n_n_wf : DotDims.WF S10000x64 S64x64 S10000x64 [1] [0] [0] [1] [] []
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S100000x64.size a
  hwx3_1 : ∀ i : grid3.Coords, EltTy.bits .f32 = 32 ∨ (Rect.block (s := S100000x64) S10000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S100000x64.size a
  hwx3_3 : ∀ i : grid3.Coords, EltTy.bits .f32 = 32 ∨ (Rect.block (s := S100000x64) S10000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x64.size a ≤ S100000x64.size a
  hwx5_1 : ∀ i : grid5.Coords, EltTy.bits .f32 = 32 ∨ (Rect.block (s := S100000x64) S10000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x64.size a ≤ S100000x64.size a
  hwx5_3 : ∀ i : grid5.Coords, EltTy.bits .f32 = 32 ∨ (Rect.block (s := S100000x64) S10000x64.size (cc5_transform_3 i) (hinb5_3 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v8) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v13) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v21) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S10000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v24) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v25) S10000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v25) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v26) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v34) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S10000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v37) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v38) S10000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x64 : Shape := ⟨2, ![100000, 64]⟩
abbrev S100000 : Shape := ⟨1, ![100000]⟩
abbrev S1600000 : Shape := ⟨1, ![1600000]⟩
abbrev S64x64 : Shape := ⟨2, ![64, 64]⟩
abbrev S64 : Shape := ⟨1, ![64]⟩
abbrev S100000x1 : Shape := ⟨2, ![100000, 1]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩

abbrev nBuf : Space → Nat
  | .hbm => 127
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S100000x1, .f32⟩
  | .hbm, ⟨11, _⟩ => ⟨S100000x64, .f32⟩
  | .hbm, ⟨12, _⟩ => ⟨S100000x64, .f32⟩
  | .hbm, ⟨13, _⟩ => ⟨S100000x64, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1, .i32⟩
  | .hbm, ⟨23, _⟩ => ⟨S_, .i32⟩
  | .hbm, ⟨24, _⟩ => ⟨S1600000x1, .i32⟩
  | .hbm, ⟨25, _⟩ => ⟨S1600000x1, .i1⟩
  | .hbm, ⟨26, _⟩ => ⟨S1x1, .i32⟩
  | .hbm, ⟨27, _⟩ => ⟨S1600000x1, .i32⟩
  | .hbm, ⟨28, _⟩ => ⟨S1600000x1, .i1⟩
  | .hbm, ⟨29, _⟩ => ⟨S1600000x1, .i1⟩
  | .hbm, ⟨30, _⟩ => ⟨S_, .i1⟩
  | .hbm, ⟨31, _⟩ => ⟨S1600000, .i1⟩
  | .hbm, ⟨32, _⟩ => ⟨S1600000x64, .f32⟩
  | .hbm, ⟨33, _⟩ => ⟨S1600000x64, .i1⟩
  | .hbm, ⟨34, _⟩ => ⟨S_, .f32⟩
  | .hbm, ⟨35, _⟩ => ⟨S1600000x64, .f32⟩
  | .hbm, ⟨36, _⟩ => ⟨S1600000x64, .f32⟩
  | .hbm, ⟨37, _⟩ => ⟨S_, .f32⟩
  | .hbm, ⟨38, _⟩ => ⟨S100000x64, .f32⟩
  | .hbm, ⟨39, _⟩ => ⟨S1600000x1, .i32⟩
  | .hbm, ⟨40, _⟩ => ⟨S100000x64, .f32⟩
  | .hbm, ⟨41, _⟩ => ⟨S100000x1, .f32⟩
  | .hbm, ⟨42, _⟩ => ⟨S100000x64, .f32⟩
  | .hbm, ⟨43, _⟩ => ⟨S100000x64, .f32⟩
  | .hbm, ⟨44, _⟩ => ⟨S1x64, .f32⟩
  | .hbm, ⟨45, _⟩ => ⟨S100000x64, .f32⟩
  | .hbm, ⟨46, _⟩ => ⟨S100000x64, .f32⟩
  | .hbm, ⟨47, _⟩ => ⟨S_, .f32⟩
  | .hbm, ⟨48, _⟩ => ⟨S100000x64, .f32⟩
  | .hbm, ⟨49, _⟩ => ⟨S100000x64, .f32⟩
  | .hbm, ⟨50, _⟩ => ⟨S100000x1, .f32⟩
  | .hbm, ⟨51, _⟩ => ⟨S100000x64, .f32⟩
  | .hbm, ⟨52, _⟩ => ⟨S100000x64, .f32⟩
  | .hbm, ⟨53, _⟩ => ⟨S100000x64, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1, .i32⟩
  | .hbm, ⟨63, _⟩ => ⟨S_, .i32⟩
  | .hbm, ⟨64, _⟩ => ⟨S1600000x1, .i32⟩
  | .hbm, ⟨65, _⟩ => ⟨S1600000x1, .i1⟩
  | .hbm, ⟨66, _⟩ => ⟨S1x1, .i32⟩
  | .hbm, ⟨67, _⟩ => ⟨S1600000x1, .i32⟩
  | .hbm, ⟨68, _⟩ => ⟨S1600000x1, .i1⟩
  | .hbm, ⟨69, _⟩ => ⟨S1600000x1, .i1⟩
  | .hbm, ⟨70, _⟩ => ⟨S_, .i1⟩
  | .hbm, ⟨71, _⟩ => ⟨S1600000, .i1⟩
  | .hbm, ⟨72, _⟩ => ⟨S1600000x64, .f32⟩
  | .hbm, ⟨73, _⟩ => ⟨S1600000x64, .i1⟩
  | .hbm, ⟨74, _⟩ => ⟨S_, .f32⟩
  | .hbm, ⟨75, _⟩ => ⟨S1600000x64, .f32⟩
  | .hbm, ⟨76, _⟩ => ⟨S1600000x64, .f32⟩
  | .hbm, ⟨77, _⟩ => ⟨S_, .f32⟩
  | .hbm, ⟨78, _⟩ => ⟨S100000x64, .f32⟩
  | .hbm, ⟨79, _⟩ => ⟨S1600000x1, .i32⟩
  | .hbm, ⟨80, _⟩ => ⟨S100000x64, .f32⟩
  | .hbm, ⟨81, _⟩ => ⟨S100000x1, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S100000x64, .f32⟩
  | .hbm, ⟨89, _⟩ => ⟨S100000x64, .f32⟩
  | .hbm, ⟨90, _⟩ => ⟨S100000x1, .f32⟩
  | .hbm, ⟨91, _⟩ => ⟨S100000x64, .f32⟩
  | .hbm, ⟨92, _⟩ => ⟨S100000x64, .f32⟩
  | .hbm, ⟨93, _⟩ => ⟨S100000x64, .f32⟩
  | .hbm, ⟨94, _⟩ => ⟨S_, .i32⟩
  | .hbm, ⟨95, _⟩ => ⟨S1600000, .i32⟩
  | .hbm, ⟨96, _⟩ => ⟨S1600000, .i1⟩
  | .hbm, ⟨97, _⟩ => ⟨S_, .i32⟩
  | .hbm, ⟨98, _⟩ => ⟨S1600000, .i32⟩
  | .hbm, ⟨99, _⟩ => ⟨S1600000, .i32⟩
  | .hbm, ⟨100, _⟩ => ⟨S1600000, .i32⟩
  | .hbm, ⟨101, _⟩ => ⟨S1600000x1, .i32⟩
  | .hbm, ⟨102, _⟩ => ⟨S1, .i32⟩
  | .hbm, ⟨103, _⟩ => ⟨S_, .i32⟩
  | .hbm, ⟨104, _⟩ => ⟨S1600000x1, .i32⟩
  | .hbm, ⟨105, _⟩ => ⟨S1600000x1, .i1⟩
  | .hbm, ⟨106, _⟩ => ⟨S1x1, .i32⟩
  | .hbm, ⟨107, _⟩ => ⟨S1600000x1, .i32⟩
  | .hbm, ⟨108, _⟩ => ⟨S1600000x1, .i1⟩
  | .hbm, ⟨109, _⟩ => ⟨S1600000x1, .i1⟩
  | .hbm, ⟨110, _⟩ => ⟨S_, .i1⟩
  | .hbm, ⟨111, _⟩ => ⟨S1600000, .i1⟩
  | .hbm, ⟨112, _⟩ => ⟨S1600000x64, .f32⟩
  | .hbm, ⟨113, _⟩ => ⟨S1600000x64, .i1⟩
  | .hbm, ⟨114, _⟩ => ⟨S_, .f32⟩
  | .hbm, ⟨115, _⟩ => ⟨S1600000x64, .f32⟩
  | .hbm, ⟨116, _⟩ => ⟨S1600000x64, .f32⟩
  | .hbm, ⟨117, _⟩ => ⟨S_, .f32⟩
  | .hbm, ⟨118, _⟩ => ⟨S100000x64, .f32⟩
  | .hbm, ⟨119, _⟩ => ⟨S1600000x1, .i32⟩
  | .hbm, ⟨120, _⟩ => ⟨S100000x64, .f32⟩
  | .hbm, ⟨121, _⟩ => ⟨S100000x1, .f32⟩
  | .hbm, ⟨122, _⟩ => ⟨S100000x64, .f32⟩
  | .hbm, ⟨123, _⟩ => ⟨S100000x64, .f32⟩
  | .hbm, ⟨124, _⟩ => ⟨S1x64, .f32⟩
  | .hbm, ⟨125, _⟩ => ⟨S100000x64, .f32⟩
  | .hbm, ⟨126, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_cst : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call1_cst : Ref sig .tc := ⟨.hbm, 47, rfl⟩
abbrev main_call1_v0 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_call2_c : Ref sig .tc := ⟨.hbm, 54, rfl⟩
abbrev main_call2_v0 : Ref sig .tc := ⟨.hbm, 55, rfl⟩
abbrev main_call2_v1 : Ref sig .tc := ⟨.hbm, 56, rfl⟩
abbrev main_call2_c_0 : Ref sig .tc := ⟨.hbm, 57, rfl⟩
abbrev main_call2_v2 : Ref sig .tc := ⟨.hbm, 58, rfl⟩
abbrev main_call2_v3 : Ref sig .tc := ⟨.hbm, 59, rfl⟩
abbrev main_call2_v4 : Ref sig .tc := ⟨.hbm, 60, rfl⟩
abbrev main_call2_v5 : Ref sig .tc := ⟨.hbm, 61, rfl⟩
abbrev main_call2_c_1 : Ref sig .tc := ⟨.hbm, 62, rfl⟩
abbrev main_call2_c_2 : Ref sig .tc := ⟨.hbm, 63, rfl⟩
abbrev main_call2_v6 : Ref sig .tc := ⟨.hbm, 64, rfl⟩
abbrev main_call2_v7 : Ref sig .tc := ⟨.hbm, 65, rfl⟩
abbrev main_call2_v8 : Ref sig .tc := ⟨.hbm, 66, rfl⟩
abbrev main_call2_v9 : Ref sig .tc := ⟨.hbm, 67, rfl⟩
abbrev main_call2_v10 : Ref sig .tc := ⟨.hbm, 68, rfl⟩
abbrev main_call2_v11 : Ref sig .tc := ⟨.hbm, 69, rfl⟩
abbrev main_call2_c_3 : Ref sig .tc := ⟨.hbm, 70, rfl⟩
abbrev main_call2_v12 : Ref sig .tc := ⟨.hbm, 71, rfl⟩
abbrev main_call2_v13 : Ref sig .tc := ⟨.hbm, 72, rfl⟩
abbrev main_call2_v14 : Ref sig .tc := ⟨.hbm, 73, rfl⟩
abbrev main_call2_cst : Ref sig .tc := ⟨.hbm, 74, rfl⟩
abbrev main_call2_v15 : Ref sig .tc := ⟨.hbm, 75, rfl⟩
abbrev main_v19 : Ref sig .tc := ⟨.hbm, 76, rfl⟩
abbrev main_cst_0 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_call3_cst : Ref sig .tc := ⟨.hbm, 87, rfl⟩
abbrev main_call3_v0 : Ref sig .tc := ⟨.hbm, 88, rfl⟩
abbrev main_v29 : Ref sig .tc := ⟨.hbm, 89, rfl⟩
abbrev main_v30 : Ref sig .tc := ⟨.hbm, 90, rfl⟩
abbrev main_v31 : Ref sig .tc := ⟨.hbm, 91, rfl⟩
abbrev main_v32 : Ref sig .tc := ⟨.hbm, 92, rfl⟩
abbrev main_v33 : Ref sig .tc := ⟨.hbm, 93, rfl⟩
abbrev main_call4_c : Ref sig .tc := ⟨.hbm, 94, rfl⟩
abbrev main_call4_v0 : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_v5 : Ref sig .tc := ⟨.hbm, 101, rfl⟩
abbrev main_call4_c_1 : Ref sig .tc := ⟨.hbm, 102, rfl⟩
abbrev main_call4_c_2 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_v9 : Ref sig .tc := ⟨.hbm, 107, rfl⟩
abbrev main_call4_v10 : Ref sig .tc := ⟨.hbm, 108, rfl⟩
abbrev main_call4_v11 : Ref sig .tc := ⟨.hbm, 109, rfl⟩
abbrev main_call4_c_3 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_call4_cst : Ref sig .tc := ⟨.hbm, 114, rfl⟩
abbrev main_call4_v15 : Ref sig .tc := ⟨.hbm, 115, rfl⟩
abbrev main_v34 : Ref sig .tc := ⟨.hbm, 116, rfl⟩
abbrev main_cst_1 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_v39 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_v43 : Ref sig .tc := ⟨.hbm, 126, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.KerRun.lean ====
/-
  The program with the kernels, run from any memory: every weakly fair execution terminates without a fault, the
  result array ends at the contents the last region's write-backs leave (the fold of the program's segments from the
  launch memory), and the ten argument arrays end as launched. This is the launch of the program's fifteen segments
  with one more buffer, the result, read out of the final state beside the arguments.
-/
import proofs.«127511_j51393578664471_2_alg».proof.Proof.Gen.KernelIdeal.Frame

set_option maxRecDepth 16384

noncomputable section

namespace Cert.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault, the result array at the last boundary's contents, the arguments as launched. -/
theorem run_result : θ_run defs (onTc (τ := τ) (main (F := F))) ⟨m, fun _ => 0, ρ⟩ (fun r => ∀ c : Dev nD,
      r.2.mem ((c.tc : Thread nD τ).loc main_v38) = W15 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v38 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.KerRun

end
-- ==== Proof.KerSpec.lean ====
/-
  What the program with the kernels computes, layer by layer, as one function of its argument arrays.

  A graph-convolution layer on the kernel side: the node features are projected by the weight matrix (a dense product
  of the whole array, read off the first kernel), each edge takes the projected row of its source node scaled by the
  source node's degree coefficient, the edges' rows are summed into their destination nodes, and the second kernel
  scales each node's sum by its own coefficient and adds the bias (followed, in the two hidden layers, by the maximum
  with zero). An edge's source index counts from the end when negative, and a source outside the node range takes the
  fill value in both gathers: these are the operations of the program's own text, composed in its order.
-/
import proofs.«127511_j51393578664471_2_alg».proof.KernelIdeal
import Idealize.ShloMosaic.PureOps.Ideal
import Idealize.ShloMosaic.Lib.ValueIdx

noncomputable section

namespace Cert.KerSpec

open Idealize.ShloMosaic Idealize.ShloMosaic.ValueIdx Cert.KernelIdeal

variable [Cert.KernelIdeal.Facts]
open Cert.KernelIdeal.Facts₀

/-- An edge's source index, a negative one counted from the end of the node axis. -/
def wrap (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The source indices as a column of start indices. -/
def col (src : IVec S1600000 32) : IVec S1600000x1 32 :=
  broadcastInDim S1600000x1 ![0] bcast_S1600000_S1600000x1_0 (wrap src)

/-- Per edge: does its source index lie on the node axis. -/
def inRange (src : IVec S1600000 32) : IVec S1600000 1 :=
  Host.reduce IntOp.andi
    (andi (cmpi .sge (col src) (broadcastInDim S1600000x1 ![] bcast_S_S1600000x1 (constantI S_ 32 0#32)))
      (cmpi .sle (col src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge, the entry of a per-node vector at the edge's source node (the fill value outside the range). -/
def takeVec (x : FVec Ideal S100000 .f32) (src : IVec S1600000 32) : FVec Ideal S1600000 .f32 :=
  select (inRange src) (Host.gather gather_S100000_S1600000x1_S1600000_n_0_n_n_0_1_1 x (col src))
    (broadcastInDim S1600000 ![] bcast_S_S1600000 (constant (F := Ideal) S_ .f32 0x7FC00000#32))

/-- Per edge, the row of a per-node matrix at the edge's source node (the fill value outside the range). -/
def takeRows (x : FVec Ideal S100000x64 .f32) (src : IVec S1600000 32) : FVec Ideal S1600000x64 .f32 :=
  select (broadcastInDim S1600000x64 ![0] bcast_S1600000_S1600000x64_0 (inRange src))
    (Host.gather gather_S100000x64_S1600000x1_S1600000x64_1_0_n_n_0_1_164 x (col src))
    (broadcastInDim S1600000x64 ![] bcast_S_S1600000x64 (constant (F := Ideal) S_ .f32 0x7FC00000#32))

/-- An edge's message: the projected row of its source node times the source node's coefficient. -/
def messages (proj : FVec Ideal S100000x64 .f32) (nrm : FVec Ideal S100000 .f32) (src : IVec S1600000 32) :
    FVec Ideal S1600000x64 .f32 :=
  mulf (takeRows proj src)
    (broadcastInDim S1600000x64 ![0, 1] bcast_S1600000x1_S1600000x64_0_1
      (broadcastInDim S1600000x1 ![0] bcast_S1600000_S1600000x1_0 (takeVec nrm src)))

/-- The messages summed into their destination nodes, from zero. -/
def aggregate (msgs : FVec Ideal S1600000x64 .f32) (dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msgs

/-- The per-node coefficients repeated along each node's row. -/
def normRows (nrm : FVec Ideal S100000 .f32) : FVec Ideal S100000x64 .f32 :=
  broadcastInDim S100000x64 ![0, 1] bcast_S100000x1_S100000x64_0_1
    (broadcastInDim S100000x1 ![0] bcast_S100000_S100000x1_0 nrm)

/-- The bias as a row. -/
def biasRow (b : FVec Ideal S64 .f32) : FVec Ideal S1x64 .f32 := shapeCast S1x64 b shapeCasts_S64_S1x64

/-- The dense product of the node features with a weight matrix, entry by entry. -/
def project (h : FVec Ideal S100000x64 .f32) (W : FVec Ideal S64x64 .f32) : FVec Ideal S100000x64 .f32 :=
  fun i => ∑ k : Fin 64, h (ix2 (i 0) k) * W (ix2 k (i 1))

/-- A node's sum scaled by its coefficient, plus the bias of the column. -/
def scaleBias (agg nrm : FVec Ideal S100000x64 .f32) (b : FVec Ideal S1x64 .f32) : FVec Ideal S100000x64 .f32 :=
  fun i => agg i * nrm i + b (ix2 0 (i 1))

/-- The maximum with zero, entry by entry. -/
def relu (x : FVec Ideal S100000x64 .f32) : FVec Ideal S100000x64 .f32 :=
  fun i => max (x i) (Scalar.ofBits (F := Ideal) .f32 0x00000000#32)

/-- A layer before its activation. -/
def layerPre (h : FVec Ideal S100000x64 .f32) (nrm : FVec Ideal S100000 .f32) (src dst : IVec S1600000 32)
    (W : FVec Ideal S64x64 .f32) (b : FVec Ideal S64 .f32) : FVec Ideal S100000x64 .f32 :=
  scaleBias (aggregate (messages (project h W) nrm src) dst) (normRows nrm) (biasRow b)

/-- The three layers: two hidden ones with the activation, the last without. -/
def result (feat : FVec Ideal S100000x64 .f32) (nrm : FVec Ideal S100000 .f32) (src dst : IVec S1600000 32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) : FVec Ideal S100000x64 .f32 :=
  layerPre (relu (layerPre (relu (layerPre feat nrm src dst W0 b0)) nrm src dst W1 b1)) nrm src dst W2 b2

end Cert.KerSpec

end
-- ==== Proof.RegionLemmas.lean ====
/-
  Facts about one block of ten thousand rows that every region of the program with the kernels shares: the zero
  offsets of a whole-block access, the product of a block with a 64×64 matrix read at an index, and how a block's
  sum of products is the dense product of the whole arrays at the array index the block's entry stands for.
-/
import proofs.«127511_j51393578664471_2_alg».proof.Proof.Gen.KernelIdeal.Frame
import proofs.«127511_j51393578664471_2_alg».proof.Proof.KerSpec
import Idealize.ShloMosaic.PureOps.Ideal.Laws
import Idealize.ShloMosaic.Lib.ValueIdx
import Idealize.ShloMosaic.Lib.Pipeline.Value

noncomputable section

namespace Cert.KerRegions

open Idealize.ShloMosaic Idealize.ShloMosaic.TcCoe Idealize.ShloMosaic.ValueIdx Cert.KernelIdeal Cert.KernelIdeal.Gen
open Idealize.ShloMosaic.Pipeline (Dat Cfg Window)
open Cert.KernelIdeal.Facts₀

/-- The offsets of a whole-block access are all zero. -/
theorem hz : (![0, 0] : Fin 2 → Nat) = fun _ => 0 := funext fun a => by fin_cases a <;> rfl

/-- The product of a 10000×64 block with a 64×64 matrix, accumulated from zero, read at an index: the sum over the
    contracted coordinate of the products of the entries. -/
theorem dot_zero_apply {φ₁ φ₂ : FTy} (A : FVec Ideal S10000x64 φ₁) (B : FVec Ideal S64x64 φ₂) (p : Fin 10000) (q : Fin 64) :
    matmul dot_S10000x64_S64x64_S10000x64_1_0_0_1_n_n none A B (constant (F := Ideal) S10000x64 .f32 0x00000000#32) (ix2 p q)
      = ∑ k : Fin 64, A (ix2 p k) * B (ix2 k q) := by
  show FloatOps.matmul _ none A B _ (ix2 p q) = _
  rw [Ideal.matmul_constant_zero_apply,
    ← Equiv.sum_comp (contrEquiv1 dot_S10000x64_S64x64_S10000x64_1_0_0_1_n_n 64 rfl rfl).symm]
  refine Finset.sum_congr rfl fun c _ => ?_
  have c2 := contrEquiv1_symm_val dot_S10000x64_S64x64_S10000x64_1_0_0_1_n_n 64 rfl rfl c
  have l2 : dot_S10000x64_S64x64_S10000x64_1_0_0_1_n_n.lhsIdx (ix2 p q) ((contrEquiv1 _ 64 rfl rfl).symm c) = ix2 p c := by
    funext ax; apply Fin.ext
    match ax with
    | ⟨0, _⟩ => simp [DotDims.lhsIdx, dot_S10000x64_S64x64_S10000x64_1_0_0_1_n_n]; rfl
    | ⟨1, _⟩ => simp [DotDims.lhsIdx, dot_S10000x64_S64x64_S10000x64_1_0_0_1_n_n]; exact c2
  have r2 : dot_S10000x64_S64x64_S10000x64_1_0_0_1_n_n.rhsIdx (ix2 p q) ((contrEquiv1 _ 64 rfl rfl).symm c) = ix2 c q := by
    funext ax; apply Fin.ext
    match ax with
    | ⟨0, _⟩ => simp [DotDims.rhsIdx, dot_S10000x64_S64x64_S10000x64_1_0_0_1_n_n]; exact c2
    | ⟨1, _⟩ => simp [DotDims.rhsIdx, dot_S10000x64_S64x64_S10000x64_1_0_0_1_n_n]; rfl
  rw [l2, r2]

/-- A block's sum of products is the dense product at the array index the block's entry stands for, once the
    block of rows and the matrix are read where that index says. -/
theorem project_of_blocks (x0 : Vec Ideal S10000x64 .f32) (x1 : Vec Ideal S64x64 .f32)
    (a0 : FVec Ideal S100000x64 .f32) (a1 : FVec Ideal S64x64 .f32) (j : S10000x64.Idx) (i : S100000x64.Idx)
    (h0 : ∀ k : Fin 64, x0 (ix2 (j 0) k) = a0 (ix2 (i 0) k))
    (h1 : ∀ k : Fin 64, x1 (ix2 k (j 1)) = a1 (ix2 k (i 1))) :
    ∑ k : Fin 64, x0 (ix2 (j 0) k) * x1 (ix2 k (j 1)) = Cert.KerSpec.project a0 a1 i :=
  Finset.sum_congr rfl fun k _ => by rw [h0 k, h1 k]

end Cert.KerRegions

end
-- ==== Proof.RegionMatmul.lean ====
/-
  The three product regions of the program with the kernels, each read as one function of the arrays it finds:
  every point of a region multiplies one block of ten thousand rows by the whole 64×64 matrix and writes the block
  of the result back, the ten blocks tile the array, so the array ends holding the dense product, entry by entry.
  Per region: the payload at an index, the index maps over the ten points, what a point writes back, which indices
  a block holds, the cover, and the array after the region.
-/
import proofs.«127511_j51393578664471_2_alg».proof.Proof.Gen.KernelIdeal.Frame
import proofs.«127511_j51393578664471_2_alg».proof.Proof.KerSpec
import proofs.«127511_j51393578664471_2_alg».proof.Proof.RegionLemmas
import Idealize.ShloMosaic.PureOps.Ideal.Laws
import Idealize.ShloMosaic.Lib.ValueIdx
import Idealize.ShloMosaic.Lib.Pipeline.Value

noncomputable section

namespace Cert.KerRegions

open Idealize.ShloMosaic Idealize.ShloMosaic.TcCoe Idealize.ShloMosaic.ValueIdx Cert.KernelIdeal Cert.KernelIdeal.Gen
open Idealize.ShloMosaic.Pipeline (Dat Cfg Window)
open Cert.KernelIdeal.Facts₀

variable (V : (c : Dev nD) → (b : Ref sig .tc) → Buf (Elt Ideal) ((c : Thread nD τ).loc b))

/-! ## The first product region -/

/-- The first product kernel's payload at an index: the sum over the contracted coordinate of the products of the
    block's and the matrix's entries (the narrowing format changes are the identity on extended reals). -/
theorem k0_pay1_apply (x0 : Vec Ideal S10000x64 .f32) (x1 : Vec Ideal S64x64 .f32) (p : Fin 10000) (q : Fin 64) :
    k0_pay1 x0 x1 (ix2 p q) = ∑ k : Fin 64, x0 (ix2 p k) * x1 (ix2 k q) := by
  unfold k0_pay1
  exact dot_zero_apply _ _ p q

/-- The same at any index of the block. -/
theorem k0_pay1_at (x0 : Vec Ideal S10000x64 .f32) (x1 : Vec Ideal S64x64 .f32) (j : S10000x64.Idx) :
    k0_pay1 x0 x1 j = ∑ k : Fin 64, x0 (ix2 (j 0) k) * x1 (ix2 k (j 1)) :=
  (congrArg (k0_pay1 x0 x1) (eq_ix2 j)).trans (k0_pay1_apply x0 x1 (j 0) (j 1))

/-- The printed index maps of the region, decided over its ten points: the blocks of rows are numbered by the point,
    the matrix is one block. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What a point writes back is its block of the dense product of the two arrays as the region finds them. -/
theorem flushed0 (c : Dev nD) (t : Fin cfg0.N) :
    (dat0 (F := Ideal) V c).flushed 2 t
      = ((cfg0.win 2).blk t).view.read (Elt Ideal) (Cert.KerSpec.project (V c main_arg0) (V c main_arg4)) := by
  show (cfg0.win 2).cut (grid0.coords t) ((dat0 (F := Ideal) V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts0 t
  funext j
  refine (k0_pay1_at (iblk0 V c 0 t) (iblk0 V c 1 t) j).trans ?_
  refine project_of_blocks (iblk0 V c 0 t) (iblk0 V c 1 t) (V c main_arg0) (V c main_arg4) j
    (((cfg0.win 2).blk t).view.emb j) (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  · show V c main_arg4 (((cfg0.win 1).blk t).view.emb (ix2 k (j 1))) = _
    refine congrArg (V c main_arg4) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega

/-- An index of the array is in a point's output block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every row of the array is in the output block of the point numbered by the row's block of ten thousand. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ : ∃ t : Fin cfg0.N, t.val = (i 0).val / 10000 := ⟨⟨(i 0).val / 10000, by show _ < 10; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The first product region leaves its output array holding the dense product of its two input arrays. -/
theorem region0 (c : Dev nD) :
    (dat0 (F := Ideal) V c).arrAt 2 cfg0.N = Cert.KerSpec.project (V c main_arg0) (V c main_arg4) :=
  (dat0 (F := Ideal) V c).arrAt_eq_of_cover 2 _ (fun t _ => flushed0 V c t) cover0

/-! ## The second product region -/

/-- The second product kernel's payload at an index: the sum over the contracted coordinate of the products of the
    block's and the matrix's entries (the narrowing format changes are the identity on extended reals, and so is the
    reshape to the same shape). -/
theorem k2_pay1_apply (x0 : Vec Ideal S10000x64 .f32) (x1 : Vec Ideal S64x64 .f32) (p : Fin 10000) (q : Fin 64) :
    k2_pay1 x0 x1 (ix2 p q) = ∑ k : Fin 64, x0 (ix2 p k) * x1 (ix2 k q) := by
  unfold k2_pay1
  refine (dot_zero_apply _ _ p q).trans ?_
  refine Finset.sum_congr rfl fun k _ => ?_
  exact congrArg (· * x1 (ix2 k q)) (congrFun (shapeCast_self x0 _) (ix2 p k))

/-- The same at any index of the block. -/
theorem k2_pay1_at (x0 : Vec Ideal S10000x64 .f32) (x1 : Vec Ideal S64x64 .f32) (j : S10000x64.Idx) :
    k2_pay1 x0 x1 j = ∑ k : Fin 64, x0 (ix2 (j 0) k) * x1 (ix2 k (j 1)) :=
  (congrArg (k2_pay1 x0 x1) (eq_ix2 j)).trans (k2_pay1_apply x0 x1 (j 0) (j 1))

/-- The printed index maps of the region, decided over its ten points: the blocks of rows are numbered by the point,
    the matrix is one block. -/
theorem idx_facts2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What a point writes back is its block of the dense product of the two arrays as the region finds them. -/
theorem flushed2 (c : Dev nD) (t : Fin cfg2.N) :
    (dat2 (F := Ideal) V c).flushed 2 t
      = ((cfg2.win 2).blk t).view.read (Elt Ideal) (Cert.KerSpec.project (V c main_v12) (V c main_arg6)) := by
  show (cfg2.win 2).cut (grid2.coords t) ((dat2 (F := Ideal) V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts2 t
  funext j
  refine (k2_pay1_at (iblk2 V c 0 t) (iblk2 V c 1 t) j).trans ?_
  refine project_of_blocks (iblk2 V c 0 t) (iblk2 V c 1 t) (V c main_v12) (V c main_arg6) j
    (((cfg2.win 2).blk t).view.emb j) (fun k => ?_) (fun k => ?_)
  · show V c main_v12 (((cfg2.win 0).blk t).view.emb (ix2 (j 0) k)) = _
    refine congrArg (V c main_v12) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  · show V c main_arg6 (((cfg2.win 1).blk t).view.emb (ix2 k (j 1))) = _
    refine congrArg (V c main_arg6) (funext fun a => Fin.ext ?_)
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega

/-- An index of the array is in a point's output block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val
      ∧ (i a).val < win2_2.index t a * S10000x64.size a + S10000x64.size a := by
  show i ∈ ((View.whole main_v13).slice (win2_2.rect t)).set ↔ _
  rw [View.set_slice_whole, Rect.mem_set_unit]
  exact Iff.rfl

/-- Every row of the array is in the output block of the point numbered by the row's block of ten thousand. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ : ∃ t : Fin cfg2.N, t.val = (i 0).val / 10000 := ⟨⟨(i 0).val / 10000, by show _ < 10; omega⟩, rfl⟩
  obtain ⟨e0, e1, e2, e3, e4, e5⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The second product region leaves its output array holding the dense product of its two input arrays. -/
theorem region2 (c : Dev nD) :
    (dat2 (F := Ideal) V c).arrAt 2 cfg2.N = Cert.KerSpec.project (V c main_v12) (V c main_arg6) :=
  (dat2 (F := Ideal) V c).arrAt_eq_of_cover 2 _ (fun t _ => flushed2 V c t) cover2

/-! ## The third product region -/

/-- The third product kernel's payload at an index: the sum over the contracted coordinate of the products of the
    block's and the matrix's entries (the narrowing format changes are the identity on extended reals, and so is the
    reshape to the same shape). -/
theorem k4_pay1_apply (x0 : Vec Ideal S10000x64 .f32) (x1 : Vec Ideal S64x64 .f32) (p : Fin 10000) (q : Fin 64) :
    k4_pay1 x0 x1 (ix2 p q) = ∑ k : Fin 64, x0 (ix2 p k) * x1 (ix2 k q) := by
  unfold k4_pay1
  refine (dot_zero_apply _ _ p q).trans ?_
  refine Finset.sum_congr rfl fun k _ => ?_
  exact congrArg (· * x1 (ix2 k q)) (congrFun (shapeCast_self x0 _) (ix2 p k))

/-- The same at any index of the block. -/
theorem k4_pay1_at (x0 : Vec Ideal S10000x64 .f32) (x1 : Vec Ideal S64x64 .f32) (j : S10000x64.Idx) :
    k4_pay1 x0 x1 j = ∑ k : Fin 64, x0 (ix2 (j 0) k) * x1 (ix2 k (j 1)) :=
  (congrArg (k4_pay1 x0 x1) (eq_ix2 j)).trans (k4_pay1_apply x0 x1 (j 0) (j 1))

/-- The printed index maps of the region, decided over its ten points: the blocks of rows are numbered by the point,
    the matrix is one block. -/
theorem idx_facts4 : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What a point writes back is its block of the dense product of the two arrays as the region finds them. -/
theorem flushed4 (c : Dev nD) (t : Fin cfg4.N) :
    (dat4 (F := Ideal) V c).flushed 2 t
      = ((cfg4.win 2).blk t).view.read (Elt Ideal) (Cert.KerSpec.project (V c main_v25) (V c main_arg8)) := by
  show (cfg4.win 2).cut (grid4.coords t) ((dat4 (F := Ideal) V c).after 2 t) = _
  rw [after4_2]
  unfold out4_2
  rw [View.canon_unit_zero hz]
  simp only [View.ld_unit_zero (S := S10000x64) hz, View.ld_unit_zero (S := S64x64) hz]
  obtain ⟨e0, e1, e2, e3, e4, e5⟩ := idx_facts4 t
  funext j
  refine (k4_pay1_at (iblk4 V c 0 t) (iblk4 V c 1 t) j).trans ?_
  refine project_of_blocks (iblk4 V c 0 t) (iblk4 V c 1 t) (V c main_v25) (V c main_arg8) j
    (((cfg4.win 2).blk t).view.emb j) (fun k => ?_) (fun k => ?_)
  · show V c main_v25 (((cfg4.win 0).blk t).view.emb (ix2 (j 0) k)) = _
    refine congrArg (V c main_v25) (funext fun a => Fin.ext ?_)
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * k.val = k.val; omega
  · show V c main_arg8 (((cfg4.win 1).blk t).view.emb (ix2 k (j 1))) = _
    refine congrArg (V c main_arg8) (funext fun a => Fin.ext ?_)
    match a with
    | ⟨0, _⟩ => show win4_1.index t (0 : Fin 2) * 64 + 1 * k.val = k.val; omega
    | ⟨1, _⟩ => show win4_1.index t (1 : Fin 2) * 64 + 1 * (j 1).val = win4_2.index t (1 : Fin 2) * 64 + 1 * (j 1).val; omega

/-- An index of the array is in a point's output block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v26).slice (win4_2.rect t)).set ↔ _
  rw [View.set_slice_whole, Rect.mem_set_unit]
  exact Iff.rfl

/-- Every row of the array is in the output block of the point numbered by the row's block of ten thousand. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ : ∃ t : Fin cfg4.N, t.val = (i 0).val / 10000 := ⟨⟨(i 0).val / 10000, by show _ < 10; omega⟩, rfl⟩
  obtain ⟨e0, e1, e2, e3, e4, e5⟩ := idx_facts4 t
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- The third product region leaves its output array holding the dense product of its two input arrays. -/
theorem region4 (c : Dev nD) :
    (dat4 (F := Ideal) V c).arrAt 2 cfg4.N = Cert.KerSpec.project (V c main_v25) (V c main_arg8) :=
  (dat4 (F := Ideal) V c).arrAt_eq_of_cover 2 _ (fun t _ => flushed4 V c t) cover4

end Cert.KerRegions

end
-- ==== Proof.RegionScale.lean ====
/-
  The three scaling regions of the program with the kernels, each read as one function of the arrays it finds:
  every point of a region takes one block of ten thousand rows of the summed messages and of the coefficients and
  the whole bias row, multiplies the two blocks entry by entry, adds the bias of the column (and, in the first two
  regions, takes the maximum with zero), and writes the block back; the ten blocks tile the array. Per region: the
  payload at an index, the index maps over the ten points, what a point writes back, which indices a block holds,
  the cover, and the array after the region.
-/
import proofs.«127511_j51393578664471_2_alg».proof.Proof.Gen.KernelIdeal.Frame
import proofs.«127511_j51393578664471_2_alg».proof.Proof.KerSpec
import proofs.«127511_j51393578664471_2_alg».proof.Proof.RegionLemmas
import Idealize.ShloMosaic.PureOps.Ideal.Laws
import Idealize.ShloMosaic.Lib.ValueIdx
import Idealize.ShloMosaic.Lib.Pipeline.Value

noncomputable section

namespace Cert.KerRegions

open Idealize.ShloMosaic Idealize.ShloMosaic.TcCoe Idealize.ShloMosaic.ValueIdx Cert.KernelIdeal Cert.KernelIdeal.Gen
open Idealize.ShloMosaic.Pipeline (Dat Cfg Window)
open Cert.KernelIdeal.Facts₀

/-- The bias row repeated down the block reads, at an index, the bias of the index's column. -/
theorem bias_rows_apply (x2 : Vec Ideal S1x64 .f32) (j : S10000x64.Idx) :
    broadcastTo S10000x64 x2 Facts₀.broadcasts_S1x64_S10000x64 j = x2 (ix2 0 (j 1)) := by
  refine broadcastTo_apply x2 _ j (ix2 0 (j 1)) (fun a => ?_)
  match a with
  | ⟨0, _⟩ => rfl
  | ⟨1, _⟩ => rfl

/-- A block of sums scaled entry by entry, plus the bias row, at an index (the reshapes to the same shape are the
    identity). -/
theorem scale_bias_at (x0 x1 : FVec Ideal S10000x64 .f32) (x2 : FVec Ideal S1x64 .f32) (j : S10000x64.Idx) :
    addf (F := Ideal) (mulf (F := Ideal) (shapeCast S10000x64 x0 Facts₀.shapeCasts_S10000x64_S10000x64)
          (shapeCast S10000x64 x1 Facts₀.shapeCasts_S10000x64_S10000x64))
        (broadcastTo S10000x64 (shapeCast S1x64 x2 Facts₀.shapeCasts_S1x64_S1x64) Facts₀.broadcasts_S1x64_S10000x64) j
      = x0 j * x1 j + x2 (ix2 0 (j 1)) := by
  rw [shapeCast_self, shapeCast_self, shapeCast_self, addf_apply, mulf_apply, bias_rows_apply]

/-- A block's scaled sum plus bias is the whole arrays' at the array index the block's entry stands for, once the
    three blocks are read where that index says. -/
theorem scaleBias_of_blocks (x0 x1 : Vec Ideal S10000x64 .f32) (x2 : Vec Ideal S1x64 .f32)
    (a0 a1 : FVec Ideal S100000x64 .f32) (a2 : FVec Ideal S1x64 .f32) (j : S10000x64.Idx) (i : S100000x64.Idx)
    (h0 : x0 j = a0 i) (h1 : x1 j = a1 i) (h2 : x2 (ix2 0 (j 1)) = a2 (ix2 0 (i 1))) :
    x0 j * x1 j + x2 (ix2 0 (j 1)) = Cert.KerSpec.scaleBias a0 a1 a2 i := by
  rw [h0, h1, h2]; rfl

/-- The same under the maximum with zero. -/
theorem relu_scaleBias_of_blocks (x0 x1 : Vec Ideal S10000x64 .f32) (x2 : Vec Ideal S1x64 .f32)
    (a0 a1 : FVec Ideal S100000x64 .f32) (a2 : FVec Ideal S1x64 .f32) (j : S10000x64.Idx) (i : S100000x64.Idx)
    (h0 : x0 j = a0 i) (h1 : x1 j = a1 i) (h2 : x2 (ix2 0 (j 1)) = a2 (ix2 0 (i 1))) :
    max (x0 j * x1 j + x2 (ix2 0 (j 1))) (Scalar.ofBits (F := Ideal) .f32 0x00000000#32)
      = Cert.KerSpec.relu (Cert.KerSpec.scaleBias a0 a1 a2) i := by
  rw [h0, h1, h2]; rfl

variable (V : (c : Dev nD) → (b : Ref sig .tc) → Buf (Elt Ideal) ((c : Thread nD τ).loc b))

/-! ## The first scaling region -/

/-- The first scaling kernel's payload at an index: the block's sum times the coefficient, plus the bias of the
    column, and the maximum of that with zero. -/
theorem k1_pay1_at (x0 x1 : Vec Ideal S10000x64 .f32) (x2 : Vec Ideal S1x64 .f32) (j : S10000x64.Idx) :
    k1_pay1 x0 x1 x2 j = max (x0 j * x1 j + x2 (ix2 0 (j 1))) (Scalar.ofBits (F := Ideal) .f32 0x00000000#32) := by
  unfold k1_pay1
  exact congrArg (max · (Scalar.ofBits (F := Ideal) .f32 0x00000000#32)) (scale_bias_at x0 x1 x2 j)

/-- The printed index maps of the region, decided over its ten points: the blocks of rows are numbered by the point,
    the bias row is one block. -/
theorem idx_facts1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- What a point writes back is its block of the scaled sums plus bias, cut off below at zero, of the arrays as the region
    finds them. -/
theorem flushed1 (c : Dev nD) (t : Fin cfg1.N) :
    (dat1 (F := Ideal) V c).flushed 3 t
      = ((cfg1.win 3).blk t).view.read (Elt Ideal) (Cert.KerSpec.relu (Cert.KerSpec.scaleBias (V c main_v8) (V c main_v10) (V c main_v11))) := by
  show (cfg1.win 3).cut (grid1.coords t) ((dat1 (F := Ideal) V c).after 3 t) = _
  rw [after1_3]
  unfold out1_3
  rw [View.canon_unit_zero hz]
  simp only [View.ld_unit_zero (S := S10000x64) hz, View.ld_unit_zero (S := S1x64) hz]
  obtain ⟨e0, e1, e2, e3, e4, e5, e6, e7⟩ := idx_facts1 t
  funext j
  refine (k1_pay1_at (iblk1 V c 0 t) (iblk1 V c 1 t) (iblk1 V c 2 t) j).trans ?_
  refine relu_scaleBias_of_blocks (iblk1 V c 0 t) (iblk1 V c 1 t) (iblk1 V c 2 t) (V c main_v8) (V c main_v10) (V c main_v11) j
    (((cfg1.win 3).blk t).view.emb j) ?_ ?_ ?_
  · show V c main_v8 (((cfg1.win 0).blk t).view.emb j) = V c main_v8 (((cfg1.win 3).blk t).view.emb j)
    refine congrArg (V c main_v8) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * (j 1).val = win1_3.index t (1 : Fin 2) * 64 + 1 * (j 1).val; omega
  · show V c main_v10 (((cfg1.win 1).blk t).view.emb j) = V c main_v10 (((cfg1.win 3).blk t).view.emb j)
    refine congrArg (V c main_v10) (funext fun a => Fin.ext ?_)
    match a with
    | ⟨0, _⟩ => show win1_1.index t (0 : Fin 2) * 10000 + 1 * (j 0).val = win1_3.index t (0 : Fin 2) * 10000 + 1 * (j 0).val; omega
    | ⟨1, _⟩ => show win1_1.index t (1 : Fin 2) * 64 + 1 * (j 1).val = win1_3.index t (1 : Fin 2) * 64 + 1 * (j 1).val; omega
  · show V c main_v11 (((cfg1.win 2).blk t).view.emb (ix2 0 (j 1))) = _
    refine congrArg (V c main_v11) (funext fun a => Fin.ext ?_)
    match a with
    | ⟨0, _⟩ => show win1_2.index t (0 : Fin 2) * 1 + 1 * 0 = 0; omega
    | ⟨1, _⟩ => show win1_2.index t (1 : Fin 2) * 64 + 1 * (j 1).val = win1_3.index t (1 : Fin 2) * 64 + 1 * (j 1).val; omega

/-- An index of the array is in a point's output block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v12).slice (win1_3.rect t)).set ↔ _
  rw [View.set_slice_whole, Rect.mem_set_unit]
  exact Iff.rfl

/-- Every row of the array is in the output block of the point numbered by the row's block of ten thousand. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  obtain ⟨t, ht⟩ : ∃ t : Fin cfg1.N, t.val = (i 0).val / 10000 := ⟨⟨(i 0).val / 10000, by show _ < 10; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 10000 ≤ (i 0).val ∧ (i 0).val < win1_3.index t (0 : Fin 2) * 10000 + 10000; omega
  | ⟨1, _⟩ => show win1_3.index t (1 : Fin 2) * 64 ≤ (i 1).val ∧ (i 1).val < win1_3.index t (1 : Fin 2) * 64 + 64; omega

/-- The first scaling region leaves its output array holding, entry by entry, the node's sum times its coefficient
    plus the bias of the column, cut off below at zero. -/
theorem region1 (c : Dev nD) :
    (dat1 (F := Ideal) V c).arrAt 3 cfg1.N = Cert.KerSpec.relu (Cert.KerSpec.scaleBias (V c main_v8) (V c main_v10) (V c main_v11)) :=
  (dat1 (F := Ideal) V c).arrAt_eq_of_cover 3 _ (fun t _ => flushed1 V c t) cover1

/-! ## The second scaling region -/

/-- The second scaling kernel's payload at an index: the block's sum times the coefficient, plus the bias of the
    column, and the maximum of that with zero. -/
theorem k3_pay1_at (x0 x1 : Vec Ideal S10000x64 .f32) (x2 : Vec Ideal S1x64 .f32) (j : S10000x64.Idx) :
    k3_pay1 x0 x1 x2 j = max (x0 j * x1 j + x2 (ix2 0 (j 1))) (Scalar.ofBits (F := Ideal) .f32 0x00000000#32) := by
  unfold k3_pay1
  exact congrArg (max · (Scalar.ofBits (F := Ideal) .f32 0x00000000#32)) (scale_bias_at x0 x1 x2 j)

/-- The printed index maps of the region, decided over its ten points: the blocks of rows are numbered by the point,
    the bias row is one block. -/
theorem idx_facts3 : ∀ t : Fin cfg3.N, win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- What a point writes back is its block of the scaled sums plus bias, cut off below at zero, of the arrays as the region
    finds them. -/
theorem flushed3 (c : Dev nD) (t : Fin cfg3.N) :
    (dat3 (F := Ideal) V c).flushed 3 t
      = ((cfg3.win 3).blk t).view.read (Elt Ideal) (Cert.KerSpec.relu (Cert.KerSpec.scaleBias (V c main_v21) (V c main_v23) (V c main_v24))) := by
  show (cfg3.win 3).cut (grid3.coords t) ((dat3 (F := Ideal) V c).after 3 t) = _
  rw [after3_3]
  unfold out3_3
  rw [View.canon_unit_zero hz]
  simp only [View.ld_unit_zero (S := S10000x64) hz, View.ld_unit_zero (S := S1x64) hz]
  obtain ⟨e0, e1, e2, e3, e4, e5, e6, e7⟩ := idx_facts3 t
  funext j
  refine (k3_pay1_at (iblk3 V c 0 t) (iblk3 V c 1 t) (iblk3 V c 2 t) j).trans ?_
  refine relu_scaleBias_of_blocks (iblk3 V c 0 t) (iblk3 V c 1 t) (iblk3 V c 2 t) (V c main_v21) (V c main_v23) (V c main_v24) j
    (((cfg3.win 3).blk t).view.emb j) ?_ ?_ ?_
  · show V c main_v21 (((cfg3.win 0).blk t).view.emb j) = V c main_v21 (((cfg3.win 3).blk t).view.emb j)
    refine congrArg (V c main_v21) (funext fun a => Fin.ext ?_)
    match a with
    | ⟨0, _⟩ => show win3_0.index t (0 : Fin 2) * 10000 + 1 * (j 0).val = win3_3.index t (0 : Fin 2) * 10000 + 1 * (j 0).val; omega
    | ⟨1, _⟩ => show win3_0.index t (1 : Fin 2) * 64 + 1 * (j 1).val = win3_3.index t (1 : Fin 2) * 64 + 1 * (j 1).val; omega
  · show V c main_v23 (((cfg3.win 1).blk t).view.emb j) = V c main_v23 (((cfg3.win 3).blk t).view.emb j)
    refine congrArg (V c main_v23) (funext fun a => Fin.ext ?_)
    match a with
    | ⟨0, _⟩ => show win3_1.index t (0 : Fin 2) * 10000 + 1 * (j 0).val = win3_3.index t (0 : Fin 2) * 10000 + 1 * (j 0).val; omega
    | ⟨1, _⟩ => show win3_1.index t (1 : Fin 2) * 64 + 1 * (j 1).val = win3_3.index t (1 : Fin 2) * 64 + 1 * (j 1).val; omega
  · show V c main_v24 (((cfg3.win 2).blk t).view.emb (ix2 0 (j 1))) = _
    refine congrArg (V c main_v24) (funext fun a => Fin.ext ?_)
    match a with
    | ⟨0, _⟩ => show win3_2.index t (0 : Fin 2) * 1 + 1 * 0 = 0; omega
    | ⟨1, _⟩ => show win3_2.index t (1 : Fin 2) * 64 + 1 * (j 1).val = win3_3.index t (1 : Fin 2) * 64 + 1 * (j 1).val; omega

/-- An index of the array is in a point's output block iff each coordinate is in the block's range on its axis. -/
theorem mem_blk3 (t : Fin cfg3.N) (i : S100000x64.Idx) :
    i ∈ ((cfg3.win 3).blk t).view.set ↔ ∀ a : Fin 2, win3_3.index t a * S10000x64.size a ≤ (i a).val
      ∧ (i a).val < win3_3.index t a * S10000x64.size a + S10000x64.size a := by
  show i ∈ ((View.whole main_v25).slice (win3_3.rect t)).set ↔ _
  rw [View.set_slice_whole, Rect.mem_set_unit]
  exact Iff.rfl

/-- Every row of the array is in the output block of the point numbered by the row's block of ten thousand. -/
theorem cover3 (i : S100000x64.Idx) :
    ∃ t : Fin cfg3.N, (cfg3.win 3).flush t = true ∧ i ∈ ((cfg3.win 3).blk t).view.set := by
  have hi0 : (i 0).val < 100000 := (i 0).isLt
  have hi1 : (i 1).val < 64 := (i 1).isLt
  obtain ⟨t, ht⟩ : ∃ t : Fin cfg3.N, t.val = (i 0).val / 10000 := ⟨⟨(i 0).val / 10000, by show _ < 10; omega⟩, rfl⟩
  obtain ⟨e0, e1, e2, e3, e4, e5, e6, e7⟩ := idx_facts3 t
  refine ⟨t, flush3_3 t, ?_⟩
  rw [mem_blk3]
  intro a
  match a with
  | ⟨0, _⟩ => show win3_3.index t (0 : Fin 2) * 10000 ≤ (i 0).val ∧ (i 0).val < win3_3.index t (0 : Fin 2) * 10000 + 10000; omega
  | ⟨1, _⟩ => show win3_3.index t (1 : Fin 2) * 64 ≤ (i 1).val ∧ (i 1).val < win3_3.index t (1 : Fin 2) * 64 + 64; omega

/-- The second scaling region leaves its output array holding, entry by entry, the node's sum times its coefficient
    plus the bias of the column, cut off below at zero. -/
theorem region3 (c : Dev nD) :
    (dat3 (F := Ideal) V c).arrAt 3 cfg3.N = Cert.KerSpec.relu (Cert.KerSpec.scaleBias (V c main_v21) (V c main_v23) (V c main_v24)) :=
  (dat3 (F := Ideal) V c).arrAt_eq_of_cover 3 _ (fun t _ => flushed3 V c t) cover3

/-! ## The third scaling region -/

/-- The third scaling kernel's payload at an index: the block's sum times the coefficient, plus the bias of the
    column. -/
theorem k5_pay1_at (x0 x1 : Vec Ideal S10000x64 .f32) (x2 : Vec Ideal S1x64 .f32) (j : S10000x64.Idx) :
    k5_pay1 x0 x1 x2 j = x0 j * x1 j + x2 (ix2 0 (j 1)) := by
  unfold k5_pay1
  exact scale_bias_at x0 x1 x2 j

/-- The printed index maps of the region, decided over its ten points: the blocks of rows are numbered by the point,
    the bias row is one block. -/
theorem idx_facts5 : ∀ t : Fin cfg5.N, win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- What a point writes back is its block of the scaled sums plus bias of the arrays as the region
    finds them. -/
theorem flushed5 (c : Dev nD) (t : Fin cfg5.N) :
    (dat5 (F := Ideal) V c).flushed 3 t
      = ((cfg5.win 3).blk t).view.read (Elt Ideal) (Cert.KerSpec.scaleBias (V c main_v34) (V c main_v36) (V c main_v37)) := by
  show (cfg5.win 3).cut (grid5.coords t) ((dat5 (F := Ideal) V c).after 3 t) = _
  rw [after5_3]
  unfold out5_3
  rw [View.canon_unit_zero hz]
  simp only [View.ld_unit_zero (S := S10000x64) hz, View.ld_unit_zero (S := S1x64) hz]
  obtain ⟨e0, e1, e2, e3, e4, e5, e6, e7⟩ := idx_facts5 t
  funext j
  refine (k5_pay1_at (iblk5 V c 0 t) (iblk5 V c 1 t) (iblk5 V c 2 t) j).trans ?_
  refine scaleBias_of_blocks (iblk5 V c 0 t) (iblk5 V c 1 t) (iblk5 V c 2 t) (V c main_v34) (V c main_v36) (V c main_v37) j
    (((cfg5.win 3).blk t).view.emb j) ?_ ?_ ?_
  · show V c main_v34 (((cfg5.win 0).blk t).view.emb j) = V c main_v34 (((cfg5.win 3).blk t).view.emb j)
    refine congrArg (V c main_v34) (funext fun a => Fin.ext ?_)
    match a with
    | ⟨0, _⟩ => show win5_0.index t (0 : Fin 2) * 10000 + 1 * (j 0).val = win5_3.index t (0 : Fin 2) * 10000 + 1 * (j 0).val; omega
    | ⟨1, _⟩ => show win5_0.index t (1 : Fin 2) * 64 + 1 * (j 1).val = win5_3.index t (1 : Fin 2) * 64 + 1 * (j 1).val; omega
  · show V c main_v36 (((cfg5.win 1).blk t).view.emb j) = V c main_v36 (((cfg5.win 3).blk t).view.emb j)
    refine congrArg (V c main_v36) (funext fun a => Fin.ext ?_)
    match a with
    | ⟨0, _⟩ => show win5_1.index t (0 : Fin 2) * 10000 + 1 * (j 0).val = win5_3.index t (0 : Fin 2) * 10000 + 1 * (j 0).val; omega
    | ⟨1, _⟩ => show win5_1.index t (1 : Fin 2) * 64 + 1 * (j 1).val = win5_3.index t (1 : Fin 2) * 64 + 1 * (j 1).val; omega
  · show V c main_v37 (((cfg5.win 2).blk t).view.emb (ix2 0 (j 1))) = _
    refine congrArg (V c main_v37) (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_3.index t (1 : Fin 2) * 64 + 1 * (j 1).val; omega

/-- An index of the array is in a point's output block iff each coordinate is in the block's range on its axis. -/
theorem mem_blk5 (t : Fin cfg5.N) (i : S100000x64.Idx) :
    i ∈ ((cfg5.win 3).blk t).view.set ↔ ∀ a : Fin 2, win5_3.index t a * S10000x64.size a ≤ (i a).val
      ∧ (i a).val < win5_3.index t a * S10000x64.size a + S10000x64.size a := by
  show i ∈ ((View.whole main_v38).slice (win5_3.rect t)).set ↔ _
  rw [View.set_slice_whole, Rect.mem_set_unit]
  exact Iff.rfl

/-- Every row of the array is in the output block of the point numbered by the row's block of ten thousand. -/
theorem cover5 (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  obtain ⟨t, ht⟩ : ∃ t : Fin cfg5.N, t.val = (i 0).val / 10000 := ⟨⟨(i 0).val / 10000, by show _ < 10; omega⟩, rfl⟩
  obtain ⟨e0, e1, e2, e3, e4, e5, e6, e7⟩ := idx_facts5 t
  refine ⟨t, flush5_3 t, ?_⟩
  rw [mem_blk5]
  intro a
  match a with
  | ⟨0, _⟩ => show win5_3.index t (0 : Fin 2) * 10000 ≤ (i 0).val ∧ (i 0).val < win5_3.index t (0 : Fin 2) * 10000 + 10000; omega
  | ⟨1, _⟩ => show win5_3.index t (1 : Fin 2) * 64 ≤ (i 1).val ∧ (i 1).val < win5_3.index t (1 : Fin 2) * 64 + 64; omega

/-- The third scaling region leaves its output array holding, entry by entry, the node's sum times its coefficient
    plus the bias of the column. -/
theorem region5 (c : Dev nD) :
    (dat5 (F := Ideal) V c).arrAt 3 cfg5.N = Cert.KerSpec.scaleBias (V c main_v34) (V c main_v36) (V c main_v37) :=
  (dat5 (F := Ideal) V c).arrAt_eq_of_cover 3 _ (fun t _ => flushed5 V c t) cover5

end Cert.KerRegions

end
-- ==== Proof.FoldBase.lean ====
/-
  What the host stretches between the kernels leave alone: a buffer that no operation of a stretch writes holds after
  the stretch what it held before it, and an argument array, which no stretch and no kernel writes, holds at every
  segment boundary what it held at launch. Also the two transports between a buffer's own type and the type of the
  tensor value it holds cancel.
-/
import proofs.«127511_j51393578664471_2_alg».proof.Proof.Gen.KernelIdeal.Frame
import proofs.«127511_j51393578664471_2_alg».proof.Proof.KerSpec

set_option maxRecDepth 16384

noncomputable section

namespace Cert.KerFold

open Idealize.ShloMosaic Idealize.ShloMosaic.TcCoe
open Cert.KernelIdeal Cert.KernelIdeal.Gen

/-- Contents moved to a buffer's own type and back are the contents. -/
theorem ofBuf_toBuf {T : BufTy} (x : StableHlo.TRef sig T) {Val : EltTy → Type} (v : T.Contents Val) :
    x.ofBuf (x.toBuf v) = v := by
  obtain ⟨r, h, h2, h3⟩ := x
  subst h
  rfl

/-- A buffer that no operation of the stretch writes keeps its contents: the stretch's operations each write one
    buffer, and the buffer in question is none of them. -/
macro "keep_stretch " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## Buffers a stretch does not write -/
theorem keep1_arg1 (Vv : Valuation τ sig (Elt Ideal)) :
    StableHlo.after (hostOps1 (F := Ideal)) Vv (Proc.devRef .tc main_arg1) = Vv (Proc.devRef .tc main_arg1) := by
  keep_stretch hostOps1
theorem keep1_arg2 (Vv : Valuation τ sig (Elt Ideal)) :
    StableHlo.after (hostOps1 (F := Ideal)) Vv (Proc.devRef .tc main_arg2) = Vv (Proc.devRef .tc main_arg2) := by
  keep_stretch hostOps1
theorem keep1_arg3 (Vv : Valuation τ sig (Elt Ideal)) :
    StableHlo.after (hostOps1 (F := Ideal)) Vv (Proc.devRef .tc main_arg3) = Vv (Proc.devRef .tc main_arg3) := by
  keep_stretch hostOps1
theorem keep1_arg5 (Vv : Valuation τ sig (Elt Ideal)) :
    StableHlo.after (hostOps1 (F := Ideal)) Vv (Proc.devRef .tc main_arg5) = Vv (Proc.devRef .tc main_arg5) := by
  keep_stretch hostOps1
theorem keep1_arg7 (Vv : Valuation τ sig (Elt Ideal)) :
    StableHlo.after (hostOps1 (F := Ideal)) Vv (Proc.devRef .tc main_arg7) = Vv (Proc.devRef .tc main_arg7) := by
  keep_stretch hostOps1
theorem keep1_arg9 (Vv : Valuation τ sig (Elt Ideal)) :
    StableHlo.after (hostOps1 (F := Ideal)) Vv (Proc.devRef .tc main_arg9) = Vv (Proc.devRef .tc main_arg9) := by
  keep_stretch hostOps1
theorem keep1_v0 (Vv : Valuation τ sig (Elt Ideal)) :
    StableHlo.after (hostOps1 (F := Ideal)) Vv (Proc.devRef .tc main_v0) = Vv (Proc.devRef .tc main_v0) := by
  keep_stretch hostOps1
theorem keep1_arg6 (Vv : Valuation τ sig (Elt Ideal)) :
    StableHlo.after (hostOps1 (F := Ideal)) Vv (Proc.devRef .tc main_arg6) = Vv (Proc.devRef .tc main_arg6) := by
  keep_stretch hostOps1
theorem keep1_arg8 (Vv : Valuation τ sig (Elt Ideal)) :
    StableHlo.after (hostOps1 (F := Ideal)) Vv (Proc.devRef .tc main_arg8) = Vv (Proc.devRef .tc main_arg8) := by
  keep_stretch hostOps1
theorem keep1_1_arg1 (Vv : Valuation τ sig (Elt Ideal)) :
    StableHlo.after (hostOps1_1 (F := Ideal)) Vv (Proc.devRef .tc main_arg1) = Vv (Proc.devRef .tc main_arg1) := by
  keep_stretch hostOps1_1
theorem keep1_1_arg2 (Vv : Valuation τ sig (Elt Ideal)) :
    StableHlo.after (hostOps1_1 (F := Ideal)) Vv (Proc.devRef .tc main_arg2) = Vv (Proc.devRef .tc main_arg2) := by
  keep_stretch hostOps1_1
theorem keep1_1_arg3 (Vv : Valuation τ sig (Elt Ideal)) :
    StableHlo.after (hostOps1_1 (F := Ideal)) Vv (Proc.devRef .tc main_arg3) = Vv (Proc.devRef .tc main_arg3) := by
  keep_stretch hostOps1_1
theorem keep1_1_arg5 (Vv : Valuation τ sig (Elt Ideal)) :
    StableHlo.after (hostOps1_1 (F := Ideal)) Vv (Proc.devRef .tc main_arg5) = Vv (Proc.devRef .tc main_arg5) := by
  keep_stretch hostOps1_1
theorem keep1_1_arg7 (Vv : Valuation τ sig (Elt Ideal)) :
    StableHlo.after (hostOps1_1 (F := Ideal)) Vv (Proc.devRef .tc main_arg7) = Vv (Proc.devRef .tc main_arg7) := by
  keep_stretch hostOps1_1
theorem keep1_1_arg9 (Vv : Valuation τ sig (Elt Ideal)) :
    StableHlo.after (hostOps1_1 (F := Ideal)) Vv (Proc.devRef .tc main_arg9) = Vv (Proc.devRef .tc main_arg9) := by
  keep_stretch hostOps1_1
theorem keep1_1_v1 (Vv : Valuation τ sig (Elt Ideal)) :
    StableHlo.after (hostOps1_1 (F := Ideal)) Vv (Proc.devRef .tc main_v1) = Vv (Proc.devRef .tc main_v1) := by
  keep_stretch hostOps1_1
theorem keep1_1_arg6 (Vv : Valuation τ sig (Elt Ideal)) :
    StableHlo.after (hostOps1_1 (F := Ideal)) Vv (Proc.devRef .tc main_arg6) = Vv (Proc.devRef .tc main_arg6) := by
  keep_stretch hostOps1_1
theorem keep1_1_arg8 (Vv : Valuation τ sig (Elt Ideal)) :
    StableHlo.after (hostOps1_1 (F := Ideal)) Vv (Proc.devRef .tc main_arg8) = Vv (Proc.devRef .tc main_arg8) := by
  keep_stretch hostOps1_1
theorem keep1_2_arg1 (Vv : Valuation τ sig (Elt Ideal)) :
    StableHlo.after (hostOps1_2 (F := Ideal)) Vv (Proc.devRef .tc main_arg1) = Vv (Proc.devRef .tc main_arg1) := by
  keep_stretch hostOps1_2
theorem keep1_2_arg2 (Vv : Valuation τ sig (Elt Ideal)) :
    StableHlo.after (hostOps1_2 (F := Ideal)) Vv (Proc.devRef .tc main_arg2) = Vv (Proc.devRef .tc main_arg2) := by
  keep_stretch hostOps1_2
theorem keep1_2_arg3 (Vv : Valuation τ sig (Elt Ideal)) :
    StableHlo.after (hostOps1_2 (F := Ideal)) Vv (Proc.devRef .tc main_arg3) = Vv (Proc.devRef .tc main_arg3) := by
  keep_stretch hostOps1_2
theorem keep1_2_arg7 (Vv : Valuation τ sig (Elt Ideal)) :
    StableHlo.after (hostOps1_2 (F := Ideal)) Vv (Proc.devRef .tc main_arg7) = Vv (Proc.devRef .tc main_arg7) := by
  keep_stretch hostOps1_2
theorem keep1_2_arg9 (Vv : Valuation τ sig (Elt Ideal)) :
    StableHlo.after (hostOps1_2 (F := Ideal)) Vv (Proc.devRef .tc main_arg9) = Vv (Proc.devRef .tc main_arg9) := by
  keep_stretch hostOps1_2
theorem keep1_2_arg6 (Vv : Valuation τ sig (Elt Ideal)) :
    StableHlo.after (hostOps1_2 (F := Ideal)) Vv (Proc.devRef .tc main_arg6) = Vv (Proc.devRef .tc main_arg6) := by
  keep_stretch hostOps1_2
theorem keep1_2_arg8 (Vv : Valuation τ sig (Elt Ideal)) :
    StableHlo.after (hostOps1_2 (F := Ideal)) Vv (Proc.devRef .tc main_arg8) = Vv (Proc.devRef .tc main_arg8) := by
  keep_stretch hostOps1_2
theorem keep3_arg1 (Vv : Valuation τ sig (Elt Ideal)) :
    StableHlo.after (hostOps3 (F := Ideal)) Vv (Proc.devRef .tc main_arg1) = Vv (Proc.devRef .tc main_arg1) := by
  keep_stretch hostOps3
theorem keep3_arg2 (Vv : Valuation τ sig (Elt Ideal)) :
    StableHlo.after (hostOps3 (F := Ideal)) Vv (Proc.devRef .tc main_arg2) = Vv (Proc.devRef .tc main_arg2) := by
  keep_stretch hostOps3
theorem keep3_arg3 (Vv : Valuation τ sig (Elt Ideal)) :
    StableHlo.after (hostOps3 (F := Ideal)) Vv (Proc.devRef .tc main_arg3) = Vv (Proc.devRef .tc main_arg3) := by
  keep_stretch hostOps3
theorem keep3_arg7 (Vv : Valuation τ sig (Elt Ideal)) :
    StableHlo.after (hostOps3 (F := Ideal)) Vv (Proc.devRef .tc main_arg7) = Vv (Proc.devRef .tc main_arg7) := by
  keep_stretch hostOps3
theorem keep3_arg9 (Vv : Valuation τ sig (Elt Ideal)) :
    StableHlo.after (hostOps3 (F := Ideal)) Vv (Proc.devRef .tc main_arg9) = Vv (Proc.devRef .tc main_arg9) := by
  keep_stretch hostOps3
theorem keep3_v13 (Vv : Valuation τ sig (Elt Ideal)) :
    StableHlo.after (hostOps3 (F := Ideal)) Vv (Proc.devRef .tc main_v13) = Vv (Proc.devRef .tc main_v13) := by
  keep_stretch hostOps3
theorem keep3_arg8 (Vv : Valuation τ sig (Elt Ideal)) :
    StableHlo.after (hostOps3 (F := Ideal)) Vv (Proc.devRef .tc main_arg8) = Vv (Proc.devRef .tc main_arg8) := by
  keep_stretch hostOps3
theorem keep3_1_arg1 (Vv : Valuation τ sig (Elt Ideal)) :
    StableHlo.after (hostOps3_1 (F := Ideal)) Vv (Proc.devRef .tc main_arg1) = Vv (Proc.devRef .tc main_arg1) := by
  keep_stretch hostOps3_1
theorem keep3_1_arg2 (Vv : Valuation τ sig (Elt Ideal)) :
    StableHlo.after (hostOps3_1 (F := Ideal)) Vv (Proc.devRef .tc main_arg2) = Vv (Proc.devRef .tc main_arg2) := by
  keep_stretch hostOps3_1
theorem keep3_1_arg3 (Vv : Valuation τ sig (Elt Ideal)) :
    StableHlo.after (hostOps3_1 (F := Ideal)) Vv (Proc.devRef .tc main_arg3) = Vv (Proc.devRef .tc main_arg3) := by
  keep_stretch hostOps3_1
theorem keep3_1_arg7 (Vv : Valuation τ sig (Elt Ideal)) :
    StableHlo.after (hostOps3_1 (F := Ideal)) Vv (Proc.devRef .tc main_arg7) = Vv (Proc.devRef .tc main_arg7) := by
  keep_stretch hostOps3_1
theorem keep3_1_arg9 (Vv : Valuation τ sig (Elt Ideal)) :
    StableHlo.after (hostOps3_1 (F := Ideal)) Vv (Proc.devRef .tc main_arg9) = Vv (Proc.devRef .tc main_arg9) := by
  keep_stretch hostOps3_1
theorem keep3_1_v14 (Vv : Valuation τ sig (Elt Ideal)) :
    StableHlo.after (hostOps3_1 (F := Ideal)) Vv (Proc.devRef .tc main_v14) = Vv (Proc.devRef .tc main_v14) := by
  keep_stretch hostOps3_1
theorem keep3_1_arg8 (Vv : Valuation τ sig (Elt Ideal)) :
    StableHlo.after (hostOps3_1 (F := Ideal)) Vv (Proc.devRef .tc main_arg8) = Vv (Proc.devRef .tc main_arg8) := by
  keep_stretch hostOps3_1
theorem keep3_2_arg1 (Vv : Valuation τ sig (Elt Ideal)) :
    StableHlo.after (hostOps3_2 (F := Ideal)) Vv (Proc.devRef .tc main_arg1) = Vv (Proc.devRef .tc main_arg1) := by
  keep_stretch hostOps3_2
theorem keep3_2_arg2 (Vv : Valuation τ sig (Elt Ideal)) :
    StableHlo.after (hostOps3_2 (F := Ideal)) Vv (Proc.devRef .tc main_arg2) = Vv (Proc.devRef .tc main_arg2) := by
  keep_stretch hostOps3_2
theorem keep3_2_arg3 (Vv : Valuation τ sig (Elt Ideal)) :
    StableHlo.after (hostOps3_2 (F := Ideal)) Vv (Proc.devRef .tc main_arg3) = Vv (Proc.devRef .tc main_arg3) := by
  keep_stretch hostOps3_2
theorem keep3_2_arg9 (Vv : Valuation τ sig (Elt Ideal)) :
    StableHlo.after (hostOps3_2 (F := Ideal)) Vv (Proc.devRef .tc main_arg9) = Vv (Proc.devRef .tc main_arg9) := by
  keep_stretch hostOps3_2
theorem keep3_2_arg8 (Vv : Valuation τ sig (Elt Ideal)) :
    StableHlo.after (hostOps3_2 (F := Ideal)) Vv (Proc.devRef .tc main_arg8) = Vv (Proc.devRef .tc main_arg8) := by
  keep_stretch hostOps3_2
theorem keep5_arg1 (Vv : Valuation τ sig (Elt Ideal)) :
    StableHlo.after (hostOps5 (F := Ideal)) Vv (Proc.devRef .tc main_arg1) = Vv (Proc.devRef .tc main_arg1) := by
  keep_stretch hostOps5
theorem keep5_arg2 (Vv : Valuation τ sig (Elt Ideal)) :
    StableHlo.after (hostOps5 (F := Ideal)) Vv (Proc.devRef .tc main_arg2) = Vv (Proc.devRef .tc main_arg2) := by
  keep_stretch hostOps5
theorem keep5_arg3 (Vv : Valuation τ sig (Elt Ideal)) :
    StableHlo.after (hostOps5 (F := Ideal)) Vv (Proc.devRef .tc main_arg3) = Vv (Proc.devRef .tc main_arg3) := by
  keep_stretch hostOps5
theorem keep5_arg9 (Vv : Valuation τ sig (Elt Ideal)) :
    StableHlo.after (hostOps5 (F := Ideal)) Vv (Proc.devRef .tc main_arg9) = Vv (Proc.devRef .tc main_arg9) := by
  keep_stretch hostOps5
theorem keep5_v26 (Vv : Valuation τ sig (Elt Ideal)) :
    StableHlo.after (hostOps5 (F := Ideal)) Vv (Proc.devRef .tc main_v26) = Vv (Proc.devRef .tc main_v26) := by
  keep_stretch hostOps5
theorem keep5_1_arg1 (Vv : Valuation τ sig (Elt Ideal)) :
    StableHlo.after (hostOps5_1 (F := Ideal)) Vv (Proc.devRef .tc main_arg1) = Vv (Proc.devRef .tc main_arg1) := by
  keep_stretch hostOps5_1
theorem keep5_1_arg2 (Vv : Valuation τ sig (Elt Ideal)) :
    StableHlo.after (hostOps5_1 (F := Ideal)) Vv (Proc.devRef .tc main_arg2) = Vv (Proc.devRef .tc main_arg2) := by
  keep_stretch hostOps5_1
theorem keep5_1_arg3 (Vv : Valuation τ sig (Elt Ideal)) :
    StableHlo.after (hostOps5_1 (F := Ideal)) Vv (Proc.devRef .tc main_arg3) = Vv (Proc.devRef .tc main_arg3) := by
  keep_stretch hostOps5_1
theorem keep5_1_arg9 (Vv : Valuation τ sig (Elt Ideal)) :
    StableHlo.after (hostOps5_1 (F := Ideal)) Vv (Proc.devRef .tc main_arg9) = Vv (Proc.devRef .tc main_arg9) := by
  keep_stretch hostOps5_1
theorem keep5_1_v27 (Vv : Valuation τ sig (Elt Ideal)) :
    StableHlo.after (hostOps5_1 (F := Ideal)) Vv (Proc.devRef .tc main_v27) = Vv (Proc.devRef .tc main_v27) := by
  keep_stretch hostOps5_1

variable (m : (ℓ : Loc nD τ sig) → Buf (Elt Ideal) ℓ) (ρ : Dev nD → PrngReg) (c : Dev nD)

/-! ## The argument arrays at the segment boundaries: as launched -/
theorem W1_arg1 : W1 (F := Ideal) m ρ c (Proc.devRef .tc main_arg1) = m ((c.tc : Thread nD τ).loc main_arg1) :=
  (W1_of_ne m ρ c main_arg1 (by decide)).trans (rfl)
theorem W2_arg1 : W2 (F := Ideal) m ρ c (Proc.devRef .tc main_arg1) = m ((c.tc : Thread nD τ).loc main_arg1) :=
  (keep1_arg1 (W1 m ρ c)).trans (W1_arg1 m ρ c)
theorem W3_arg1 : W3 (F := Ideal) m ρ c (Proc.devRef .tc main_arg1) = m ((c.tc : Thread nD τ).loc main_arg1) :=
  (keep1_1_arg1 (W2 m ρ c)).trans (W2_arg1 m ρ c)
theorem W4_arg1 : W4 (F := Ideal) m ρ c (Proc.devRef .tc main_arg1) = m ((c.tc : Thread nD τ).loc main_arg1) :=
  (keep1_2_arg1 (W3 m ρ c)).trans (W3_arg1 m ρ c)
theorem W5_arg1 : W5 (F := Ideal) m ρ c (Proc.devRef .tc main_arg1) = m ((c.tc : Thread nD τ).loc main_arg1) :=
  (W5_of_ne m ρ c main_arg1 (by decide)).trans (W4_arg1 m ρ c)
theorem W6_arg1 : W6 (F := Ideal) m ρ c (Proc.devRef .tc main_arg1) = m ((c.tc : Thread nD τ).loc main_arg1) :=
  (W6_of_ne m ρ c main_arg1 (by decide)).trans (W5_arg1 m ρ c)
theorem W7_arg1 : W7 (F := Ideal) m ρ c (Proc.devRef .tc main_arg1) = m ((c.tc : Thread nD τ).loc main_arg1) :=
  (keep3_arg1 (W6 m ρ c)).trans (W6_arg1 m ρ c)
theorem W8_arg1 : W8 (F := Ideal) m ρ c (Proc.devRef .tc main_arg1) = m ((c.tc : Thread nD τ).loc main_arg1) :=
  (keep3_1_arg1 (W7 m ρ c)).trans (W7_arg1 m ρ c)
theorem W9_arg1 : W9 (F := Ideal) m ρ c (Proc.devRef .tc main_arg1) = m ((c.tc : Thread nD τ).loc main_arg1) :=
  (keep3_2_arg1 (W8 m ρ c)).trans (W8_arg1 m ρ c)
theorem W10_arg1 : W10 (F := Ideal) m ρ c (Proc.devRef .tc main_arg1) = m ((c.tc : Thread nD τ).loc main_arg1) :=
  (W10_of_ne m ρ c main_arg1 (by decide)).trans (W9_arg1 m ρ c)
theorem W11_arg1 : W11 (F := Ideal) m ρ c (Proc.devRef .tc main_arg1) = m ((c.tc : Thread nD τ).loc main_arg1) :=
  (W11_of_ne m ρ c main_arg1 (by decide)).trans (W10_arg1 m ρ c)
theorem W12_arg1 : W12 (F := Ideal) m ρ c (Proc.devRef .tc main_arg1) = m ((c.tc : Thread nD τ).loc main_arg1) :=
  (keep5_arg1 (W11 m ρ c)).trans (W11_arg1 m ρ c)
theorem W13_arg1 : W13 (F := Ideal) m ρ c (Proc.devRef .tc main_arg1) = m ((c.tc : Thread nD τ).loc main_arg1) :=
  (keep5_1_arg1 (W12 m ρ c)).trans (W12_arg1 m ρ c)
theorem W1_arg2 : W1 (F := Ideal) m ρ c (Proc.devRef .tc main_arg2) = m ((c.tc : Thread nD τ).loc main_arg2) :=
  (W1_of_ne m ρ c main_arg2 (by decide)).trans (rfl)
theorem W2_arg2 : W2 (F := Ideal) m ρ c (Proc.devRef .tc main_arg2) = m ((c.tc : Thread nD τ).loc main_arg2) :=
  (keep1_arg2 (W1 m ρ c)).trans (W1_arg2 m ρ c)
theorem W3_arg2 : W3 (F := Ideal) m ρ c (Proc.devRef .tc main_arg2) = m ((c.tc : Thread nD τ).loc main_arg2) :=
  (keep1_1_arg2 (W2 m ρ c)).trans (W2_arg2 m ρ c)
theorem W4_arg2 : W4 (F := Ideal) m ρ c (Proc.devRef .tc main_arg2) = m ((c.tc : Thread nD τ).loc main_arg2) :=
  (keep1_2_arg2 (W3 m ρ c)).trans (W3_arg2 m ρ c)
theorem W5_arg2 : W5 (F := Ideal) m ρ c (Proc.devRef .tc main_arg2) = m ((c.tc : Thread nD τ).loc main_arg2) :=
  (W5_of_ne m ρ c main_arg2 (by decide)).trans (W4_arg2 m ρ c)
theorem W6_arg2 : W6 (F := Ideal) m ρ c (Proc.devRef .tc main_arg2) = m ((c.tc : Thread nD τ).loc main_arg2) :=
  (W6_of_ne m ρ c main_arg2 (by decide)).trans (W5_arg2 m ρ c)
theorem W7_arg2 : W7 (F := Ideal) m ρ c (Proc.devRef .tc main_arg2) = m ((c.tc : Thread nD τ).loc main_arg2) :=
  (keep3_arg2 (W6 m ρ c)).trans (W6_arg2 m ρ c)
theorem W8_arg2 : W8 (F := Ideal) m ρ c (Proc.devRef .tc main_arg2) = m ((c.tc : Thread nD τ).loc main_arg2) :=
  (keep3_1_arg2 (W7 m ρ c)).trans (W7_arg2 m ρ c)
theorem W9_arg2 : W9 (F := Ideal) m ρ c (Proc.devRef .tc main_arg2) = m ((c.tc : Thread nD τ).loc main_arg2) :=
  (keep3_2_arg2 (W8 m ρ c)).trans (W8_arg2 m ρ c)
theorem W10_arg2 : W10 (F := Ideal) m ρ c (Proc.devRef .tc main_arg2) = m ((c.tc : Thread nD τ).loc main_arg2) :=
  (W10_of_ne m ρ c main_arg2 (by decide)).trans (W9_arg2 m ρ c)
theorem W11_arg2 : W11 (F := Ideal) m ρ c (Proc.devRef .tc main_arg2) = m ((c.tc : Thread nD τ).loc main_arg2) :=
  (W11_of_ne m ρ c main_arg2 (by decide)).trans (W10_arg2 m ρ c)
theorem W12_arg2 : W12 (F := Ideal) m ρ c (Proc.devRef .tc main_arg2) = m ((c.tc : Thread nD τ).loc main_arg2) :=
  (keep5_arg2 (W11 m ρ c)).trans (W11_arg2 m ρ c)
theorem W13_arg2 : W13 (F := Ideal) m ρ c (Proc.devRef .tc main_arg2) = m ((c.tc : Thread nD τ).loc main_arg2) :=
  (keep5_1_arg2 (W12 m ρ c)).trans (W12_arg2 m ρ c)
theorem W1_arg3 : W1 (F := Ideal) m ρ c (Proc.devRef .tc main_arg3) = m ((c.tc : Thread nD τ).loc main_arg3) :=
  (W1_of_ne m ρ c main_arg3 (by decide)).trans (rfl)
theorem W2_arg3 : W2 (F := Ideal) m ρ c (Proc.devRef .tc main_arg3) = m ((c.tc : Thread nD τ).loc main_arg3) :=
  (keep1_arg3 (W1 m ρ c)).trans (W1_arg3 m ρ c)
theorem W3_arg3 : W3 (F := Ideal) m ρ c (Proc.devRef .tc main_arg3) = m ((c.tc : Thread nD τ).loc main_arg3) :=
  (keep1_1_arg3 (W2 m ρ c)).trans (W2_arg3 m ρ c)
theorem W4_arg3 : W4 (F := Ideal) m ρ c (Proc.devRef .tc main_arg3) = m ((c.tc : Thread nD τ).loc main_arg3) :=
  (keep1_2_arg3 (W3 m ρ c)).trans (W3_arg3 m ρ c)
theorem W5_arg3 : W5 (F := Ideal) m ρ c (Proc.devRef .tc main_arg3) = m ((c.tc : Thread nD τ).loc main_arg3) :=
  (W5_of_ne m ρ c main_arg3 (by decide)).trans (W4_arg3 m ρ c)
theorem W6_arg3 : W6 (F := Ideal) m ρ c (Proc.devRef .tc main_arg3) = m ((c.tc : Thread nD τ).loc main_arg3) :=
  (W6_of_ne m ρ c main_arg3 (by decide)).trans (W5_arg3 m ρ c)
theorem W7_arg3 : W7 (F := Ideal) m ρ c (Proc.devRef .tc main_arg3) = m ((c.tc : Thread nD τ).loc main_arg3) :=
  (keep3_arg3 (W6 m ρ c)).trans (W6_arg3 m ρ c)
theorem W8_arg3 : W8 (F := Ideal) m ρ c (Proc.devRef .tc main_arg3) = m ((c.tc : Thread nD τ).loc main_arg3) :=
  (keep3_1_arg3 (W7 m ρ c)).trans (W7_arg3 m ρ c)
theorem W9_arg3 : W9 (F := Ideal) m ρ c (Proc.devRef .tc main_arg3) = m ((c.tc : Thread nD τ).loc main_arg3) :=
  (keep3_2_arg3 (W8 m ρ c)).trans (W8_arg3 m ρ c)
theorem W10_arg3 : W10 (F := Ideal) m ρ c (Proc.devRef .tc main_arg3) = m ((c.tc : Thread nD τ).loc main_arg3) :=
  (W10_of_ne m ρ c main_arg3 (by decide)).trans (W9_arg3 m ρ c)
theorem W11_arg3 : W11 (F := Ideal) m ρ c (Proc.devRef .tc main_arg3) = m ((c.tc : Thread nD τ).loc main_arg3) :=
  (W11_of_ne m ρ c main_arg3 (by decide)).trans (W10_arg3 m ρ c)
theorem W12_arg3 : W12 (F := Ideal) m ρ c (Proc.devRef .tc main_arg3) = m ((c.tc : Thread nD τ).loc main_arg3) :=
  (keep5_arg3 (W11 m ρ c)).trans (W11_arg3 m ρ c)
theorem W13_arg3 : W13 (F := Ideal) m ρ c (Proc.devRef .tc main_arg3) = m ((c.tc : Thread nD τ).loc main_arg3) :=
  (keep5_1_arg3 (W12 m ρ c)).trans (W12_arg3 m ρ c)
theorem W1_arg5 : W1 (F := Ideal) m ρ c (Proc.devRef .tc main_arg5) = m ((c.tc : Thread nD τ).loc main_arg5) :=
  (W1_of_ne m ρ c main_arg5 (by decide)).trans (rfl)
theorem W2_arg5 : W2 (F := Ideal) m ρ c (Proc.devRef .tc main_arg5) = m ((c.tc : Thread nD τ).loc main_arg5) :=
  (keep1_arg5 (W1 m ρ c)).trans (W1_arg5 m ρ c)
theorem W3_arg5 : W3 (F := Ideal) m ρ c (Proc.devRef .tc main_arg5) = m ((c.tc : Thread nD τ).loc main_arg5) :=
  (keep1_1_arg5 (W2 m ρ c)).trans (W2_arg5 m ρ c)
theorem W1_arg7 : W1 (F := Ideal) m ρ c (Proc.devRef .tc main_arg7) = m ((c.tc : Thread nD τ).loc main_arg7) :=
  (W1_of_ne m ρ c main_arg7 (by decide)).trans (rfl)
theorem W2_arg7 : W2 (F := Ideal) m ρ c (Proc.devRef .tc main_arg7) = m ((c.tc : Thread nD τ).loc main_arg7) :=
  (keep1_arg7 (W1 m ρ c)).trans (W1_arg7 m ρ c)
theorem W3_arg7 : W3 (F := Ideal) m ρ c (Proc.devRef .tc main_arg7) = m ((c.tc : Thread nD τ).loc main_arg7) :=
  (keep1_1_arg7 (W2 m ρ c)).trans (W2_arg7 m ρ c)
theorem W4_arg7 : W4 (F := Ideal) m ρ c (Proc.devRef .tc main_arg7) = m ((c.tc : Thread nD τ).loc main_arg7) :=
  (keep1_2_arg7 (W3 m ρ c)).trans (W3_arg7 m ρ c)
theorem W5_arg7 : W5 (F := Ideal) m ρ c (Proc.devRef .tc main_arg7) = m ((c.tc : Thread nD τ).loc main_arg7) :=
  (W5_of_ne m ρ c main_arg7 (by decide)).trans (W4_arg7 m ρ c)
theorem W6_arg7 : W6 (F := Ideal) m ρ c (Proc.devRef .tc main_arg7) = m ((c.tc : Thread nD τ).loc main_arg7) :=
  (W6_of_ne m ρ c main_arg7 (by decide)).trans (W5_arg7 m ρ c)
theorem W7_arg7 : W7 (F := Ideal) m ρ c (Proc.devRef .tc main_arg7) = m ((c.tc : Thread nD τ).loc main_arg7) :=
  (keep3_arg7 (W6 m ρ c)).trans (W6_arg7 m ρ c)
theorem W8_arg7 : W8 (F := Ideal) m ρ c (Proc.devRef .tc main_arg7) = m ((c.tc : Thread nD τ).loc main_arg7) :=
  (keep3_1_arg7 (W7 m ρ c)).trans (W7_arg7 m ρ c)
theorem W1_arg9 : W1 (F := Ideal) m ρ c (Proc.devRef .tc main_arg9) = m ((c.tc : Thread nD τ).loc main_arg9) :=
  (W1_of_ne m ρ c main_arg9 (by decide)).trans (rfl)
theorem W2_arg9 : W2 (F := Ideal) m ρ c (Proc.devRef .tc main_arg9) = m ((c.tc : Thread nD τ).loc main_arg9) :=
  (keep1_arg9 (W1 m ρ c)).trans (W1_arg9 m ρ c)
theorem W3_arg9 : W3 (F := Ideal) m ρ c (Proc.devRef .tc main_arg9) = m ((c.tc : Thread nD τ).loc main_arg9) :=
  (keep1_1_arg9 (W2 m ρ c)).trans (W2_arg9 m ρ c)
theorem W4_arg9 : W4 (F := Ideal) m ρ c (Proc.devRef .tc main_arg9) = m ((c.tc : Thread nD τ).loc main_arg9) :=
  (keep1_2_arg9 (W3 m ρ c)).trans (W3_arg9 m ρ c)
theorem W5_arg9 : W5 (F := Ideal) m ρ c (Proc.devRef .tc main_arg9) = m ((c.tc : Thread nD τ).loc main_arg9) :=
  (W5_of_ne m ρ c main_arg9 (by decide)).trans (W4_arg9 m ρ c)
theorem W6_arg9 : W6 (F := Ideal) m ρ c (Proc.devRef .tc main_arg9) = m ((c.tc : Thread nD τ).loc main_arg9) :=
  (W6_of_ne m ρ c main_arg9 (by decide)).trans (W5_arg9 m ρ c)
theorem W7_arg9 : W7 (F := Ideal) m ρ c (Proc.devRef .tc main_arg9) = m ((c.tc : Thread nD τ).loc main_arg9) :=
  (keep3_arg9 (W6 m ρ c)).trans (W6_arg9 m ρ c)
theorem W8_arg9 : W8 (F := Ideal) m ρ c (Proc.devRef .tc main_arg9) = m ((c.tc : Thread nD τ).loc main_arg9) :=
  (keep3_1_arg9 (W7 m ρ c)).trans (W7_arg9 m ρ c)
theorem W9_arg9 : W9 (F := Ideal) m ρ c (Proc.devRef .tc main_arg9) = m ((c.tc : Thread nD τ).loc main_arg9) :=
  (keep3_2_arg9 (W8 m ρ c)).trans (W8_arg9 m ρ c)
theorem W10_arg9 : W10 (F := Ideal) m ρ c (Proc.devRef .tc main_arg9) = m ((c.tc : Thread nD τ).loc main_arg9) :=
  (W10_of_ne m ρ c main_arg9 (by decide)).trans (W9_arg9 m ρ c)
theorem W11_arg9 : W11 (F := Ideal) m ρ c (Proc.devRef .tc main_arg9) = m ((c.tc : Thread nD τ).loc main_arg9) :=
  (W11_of_ne m ρ c main_arg9 (by decide)).trans (W10_arg9 m ρ c)
theorem W12_arg9 : W12 (F := Ideal) m ρ c (Proc.devRef .tc main_arg9) = m ((c.tc : Thread nD τ).loc main_arg9) :=
  (keep5_arg9 (W11 m ρ c)).trans (W11_arg9 m ρ c)
theorem W13_arg9 : W13 (F := Ideal) m ρ c (Proc.devRef .tc main_arg9) = m ((c.tc : Thread nD τ).loc main_arg9) :=
  (keep5_1_arg9 (W12 m ρ c)).trans (W12_arg9 m ρ c)
theorem W1_arg6 : W1 (F := Ideal) m ρ c (Proc.devRef .tc main_arg6) = m ((c.tc : Thread nD τ).loc main_arg6) :=
  (W1_of_ne m ρ c main_arg6 (by decide)).trans (rfl)
theorem W2_arg6 : W2 (F := Ideal) m ρ c (Proc.devRef .tc main_arg6) = m ((c.tc : Thread nD τ).loc main_arg6) :=
  (keep1_arg6 (W1 m ρ c)).trans (W1_arg6 m ρ c)
theorem W3_arg6 : W3 (F := Ideal) m ρ c (Proc.devRef .tc main_arg6) = m ((c.tc : Thread nD τ).loc main_arg6) :=
  (keep1_1_arg6 (W2 m ρ c)).trans (W2_arg6 m ρ c)
theorem W4_arg6 : W4 (F := Ideal) m ρ c (Proc.devRef .tc main_arg6) = m ((c.tc : Thread nD τ).loc main_arg6) :=
  (keep1_2_arg6 (W3 m ρ c)).trans (W3_arg6 m ρ c)
theorem W5_arg6 : W5 (F := Ideal) m ρ c (Proc.devRef .tc main_arg6) = m ((c.tc : Thread nD τ).loc main_arg6) :=
  (W5_of_ne m ρ c main_arg6 (by decide)).trans (W4_arg6 m ρ c)
theorem W1_arg8 : W1 (F := Ideal) m ρ c (Proc.devRef .tc main_arg8) = m ((c.tc : Thread nD τ).loc main_arg8) :=
  (W1_of_ne m ρ c main_arg8 (by decide)).trans (rfl)
theorem W2_arg8 : W2 (F := Ideal) m ρ c (Proc.devRef .tc main_arg8) = m ((c.tc : Thread nD τ).loc main_arg8) :=
  (keep1_arg8 (W1 m ρ c)).trans (W1_arg8 m ρ c)
theorem W3_arg8 : W3 (F := Ideal) m ρ c (Proc.devRef .tc main_arg8) = m ((c.tc : Thread nD τ).loc main_arg8) :=
  (keep1_1_arg8 (W2 m ρ c)).trans (W2_arg8 m ρ c)
theorem W4_arg8 : W4 (F := Ideal) m ρ c (Proc.devRef .tc main_arg8) = m ((c.tc : Thread nD τ).loc main_arg8) :=
  (keep1_2_arg8 (W3 m ρ c)).trans (W3_arg8 m ρ c)
theorem W5_arg8 : W5 (F := Ideal) m ρ c (Proc.devRef .tc main_arg8) = m ((c.tc : Thread nD τ).loc main_arg8) :=
  (W5_of_ne m ρ c main_arg8 (by decide)).trans (W4_arg8 m ρ c)
theorem W6_arg8 : W6 (F := Ideal) m ρ c (Proc.devRef .tc main_arg8) = m ((c.tc : Thread nD τ).loc main_arg8) :=
  (W6_of_ne m ρ c main_arg8 (by decide)).trans (W5_arg8 m ρ c)
theorem W7_arg8 : W7 (F := Ideal) m ρ c (Proc.devRef .tc main_arg8) = m ((c.tc : Thread nD τ).loc main_arg8) :=
  (keep3_arg8 (W6 m ρ c)).trans (W6_arg8 m ρ c)
theorem W8_arg8 : W8 (F := Ideal) m ρ c (Proc.devRef .tc main_arg8) = m ((c.tc : Thread nD τ).loc main_arg8) :=
  (keep3_1_arg8 (W7 m ρ c)).trans (W7_arg8 m ρ c)
theorem W9_arg8 : W9 (F := Ideal) m ρ c (Proc.devRef .tc main_arg8) = m ((c.tc : Thread nD τ).loc main_arg8) :=
  (keep3_2_arg8 (W8 m ρ c)).trans (W8_arg8 m ρ c)
theorem W10_arg8 : W10 (F := Ideal) m ρ c (Proc.devRef .tc main_arg8) = m ((c.tc : Thread nD τ).loc main_arg8) :=
  (W10_of_ne m ρ c main_arg8 (by decide)).trans (W9_arg8 m ρ c)

end Cert.KerFold

end
-- ==== Proof.Fold1.lean ====
/-
  Layer 1 of the program read through its five segments: the projection kernel, the three host stretches (the
  coefficients taken at the edges' sources, the projected rows taken at the edges' sources, then the messages, their
  sums into the destination nodes, the coefficient rows and the bias row), and the scale-and-bias kernel. Each stretch
  is read back over arbitrary contents as the corresponding operation of the layer's closed form; the kernels'
  closed forms are hypotheses.
-/
import proofs.«127511_j51393578664471_2_alg».proof.Proof.FoldBase

set_option maxRecDepth 16384

noncomputable section

namespace Cert.KerFold

open Idealize.ShloMosaic Idealize.ShloMosaic.TcCoe
open Cert.KernelIdeal Cert.KernelIdeal.Gen

/-! ## The stretches over arbitrary contents -/

/-- The first stretch leaves, per edge, the coefficient of the edge's source node. Stated through the transports
    between a buffer's type and its tensor type, which cancel inside the term. -/
theorem takeVec1_typed (Vv : Valuation τ sig (Elt Ideal)) :
    (StableHlo.TRef.of main_v1 : StableHlo.TRef sig ⟨S1600000, .f32⟩).ofBuf
        (StableHlo.after (hostOps1 (F := Ideal)) Vv (Proc.devRef .tc main_v1))
      = Cert.KerSpec.takeVec
          ((StableHlo.TRef.of main_arg1 : StableHlo.TRef sig ⟨S100000, .f32⟩).ofBuf (Vv (Proc.devRef .tc main_arg1)))
          ((StableHlo.TRef.of main_arg2 : StableHlo.TRef sig ⟨S1600000, .i32⟩).ofBuf (Vv (Proc.devRef .tc main_arg2))) := by
  after_results_simp
  simp only [ofBuf_toBuf]
  unfold Cert.KerSpec.takeVec Cert.KerSpec.inRange Cert.KerSpec.col Cert.KerSpec.wrap
  rfl

theorem takeVec1 (Vv : Valuation τ sig (Elt Ideal)) {nrm : FVec Ideal S100000 .f32} {src : IVec S1600000 32}
    (h1 : Vv (Proc.devRef .tc main_arg1) = nrm) (h2 : Vv (Proc.devRef .tc main_arg2) = src) :
    StableHlo.after (hostOps1 (F := Ideal)) Vv (Proc.devRef .tc main_v1) = Cert.KerSpec.takeVec nrm src := by
  subst h1 h2
  have h := takeVec1_typed Vv
  generalize StableHlo.after (hostOps1 (F := Ideal)) Vv = W at h ⊢
  exact h

/-- The second stretch leaves, per edge, the projected row of the edge's source node. -/
theorem takeRows1_typed (Vv : Valuation τ sig (Elt Ideal)) :
    (StableHlo.TRef.of main_v2 : StableHlo.TRef sig ⟨S1600000x64, .f32⟩).ofBuf
        (StableHlo.after (hostOps1_1 (F := Ideal)) Vv (Proc.devRef .tc main_v2))
      = Cert.KerSpec.takeRows
          ((StableHlo.TRef.of main_v0 : StableHlo.TRef sig ⟨S100000x64, .f32⟩).ofBuf (Vv (Proc.devRef .tc main_v0)))
          ((StableHlo.TRef.of main_arg2 : StableHlo.TRef sig ⟨S1600000, .i32⟩).ofBuf (Vv (Proc.devRef .tc main_arg2))) := by
  after_results_simp
  simp only [ofBuf_toBuf]
  unfold Cert.KerSpec.takeRows Cert.KerSpec.inRange Cert.KerSpec.col Cert.KerSpec.wrap
  rfl

theorem takeRows1 (Vv : Valuation τ sig (Elt Ideal)) {proj : FVec Ideal S100000x64 .f32} {src : IVec S1600000 32}
    (h1 : Vv (Proc.devRef .tc main_v0) = proj) (h2 : Vv (Proc.devRef .tc main_arg2) = src) :
    StableHlo.after (hostOps1_1 (F := Ideal)) Vv (Proc.devRef .tc main_v2) = Cert.KerSpec.takeRows proj src := by
  subst h1 h2
  have h := takeRows1_typed Vv
  generalize StableHlo.after (hostOps1_1 (F := Ideal)) Vv = W at h ⊢
  exact h

/-- The third stretch: the messages summed into their destination nodes. -/
theorem aggregate1 (Vv : Valuation τ sig (Elt Ideal)) {rows : FVec Ideal S1600000x64 .f32} {vec : FVec Ideal S1600000 .f32}
    {dst : IVec S1600000 32}
    (h1 : Vv (Proc.devRef .tc main_v2) = rows) (h2 : Vv (Proc.devRef .tc main_v1) = vec)
    (h3 : Vv (Proc.devRef .tc main_arg3) = dst) :
    StableHlo.after (hostOps1_2 (F := Ideal)) Vv (Proc.devRef .tc main_v8)
      = Cert.KerSpec.aggregate
          (mulf rows (broadcastInDim S1600000x64 ![0, 1] bcast_S1600000x1_S1600000x64_0_1
            (broadcastInDim S1600000x1 ![0] bcast_S1600000_S1600000x1_0 vec))) dst := by
  subst h1 h2 h3
  after_results_simp
  unfold Cert.KerSpec.aggregate
  rfl

/-- The third stretch: the coefficient rows. -/
theorem normRows1 (Vv : Valuation τ sig (Elt Ideal)) {nrm : FVec Ideal S100000 .f32}
    (h1 : Vv (Proc.devRef .tc main_arg1) = nrm) :
    StableHlo.after (hostOps1_2 (F := Ideal)) Vv (Proc.devRef .tc main_v10) = Cert.KerSpec.normRows nrm := by
  subst h1
  after_results_simp
  unfold Cert.KerSpec.normRows
  rfl

/-- The third stretch: the bias as a row. -/
theorem biasRow1 (Vv : Valuation τ sig (Elt Ideal)) {b : FVec Ideal S64 .f32}
    (h1 : Vv (Proc.devRef .tc main_arg5) = b) :
    StableHlo.after (hostOps1_2 (F := Ideal)) Vv (Proc.devRef .tc main_v11) = Cert.KerSpec.biasRow b := by
  subst h1
  after_results_simp
  unfold Cert.KerSpec.biasRow
  rfl

theorem scaleBias_congr1 {a a' n n' : FVec Ideal S100000x64 .f32} {b b' : FVec Ideal S1x64 .f32}
    (ha : a = a') (hn : n = n') (hb : b = b') : Cert.KerSpec.scaleBias a n b = Cert.KerSpec.scaleBias a' n' b' := by
  subst ha hn hb; rfl

/-! ## The layer -/

theorem layer1
    (hR0 : ∀ (V : (c : Dev nD) → (b : Ref sig .tc) → Buf (Elt Ideal) ((c : Thread nD τ).loc b)) (c : Dev nD),
      (dat0 (F := Ideal) V c).arrAt 2 cfg0.N = Cert.KerSpec.project (V c main_arg0) (V c main_arg4))
    (hR1 : ∀ (V : (c : Dev nD) → (b : Ref sig .tc) → Buf (Elt Ideal) ((c : Thread nD τ).loc b)) (c : Dev nD),
      (dat1 (F := Ideal) V c).arrAt 3 cfg1.N = Cert.KerSpec.relu (Cert.KerSpec.scaleBias (V c main_v8) (V c main_v10) (V c main_v11)))
    (m : (ℓ : Loc nD τ sig) → Buf (Elt Ideal) ℓ) (ρ : Dev nD → PrngReg) (c : Dev nD) :
    W5 (F := Ideal) m ρ c (Proc.devRef .tc main_v12) = Cert.KerSpec.relu (Cert.KerSpec.layerPre (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  -- the first kernel's two inputs at its entry are the launch contents
  have ein : V0 (F := Ideal) m ρ c main_arg0 = (m ((c.tc : Thread nD τ).loc main_arg0)) := rfl
  have ew : V0 (F := Ideal) m ρ c main_arg4 = (m ((c.tc : Thread nD τ).loc main_arg4)) := rfl
  -- the projected rows: the first kernel's output, untouched by the first stretch
  have eproj : W2 (F := Ideal) m ρ c (Proc.devRef .tc main_v0)
      = Cert.KerSpec.project (m ((c.tc : Thread nD τ).loc main_arg0)) (m ((c.tc : Thread nD τ).loc main_arg4)) :=
    (keep1_v0 (W1 m ρ c)).trans
      ((W1_arr m ρ c 2).trans ((hR0 (V0 m ρ) c).trans (congrArg₂ Cert.KerSpec.project ein ew)))
  -- the coefficients at the sources, untouched by the second stretch
  have evec : W3 (F := Ideal) m ρ c (Proc.devRef .tc main_v1)
      = Cert.KerSpec.takeVec (m ((c.tc : Thread nD τ).loc main_arg1)) (m ((c.tc : Thread nD τ).loc main_arg2)) :=
    (keep1_1_v1 (W2 m ρ c)).trans
      (takeVec1 (W1 m ρ c) (W1_arg1 m ρ c) (W1_arg2 m ρ c))
  -- the projected rows at the sources
  have erows : W3 (F := Ideal) m ρ c (Proc.devRef .tc main_v2)
      = Cert.KerSpec.takeRows (Cert.KerSpec.project (m ((c.tc : Thread nD τ).loc main_arg0)) (m ((c.tc : Thread nD τ).loc main_arg4))) (m ((c.tc : Thread nD τ).loc main_arg2)) :=
    takeRows1 (W2 m ρ c) eproj (W2_arg2 m ρ c)
  -- the second kernel's three inputs at its entry
  have eagg : W4 (F := Ideal) m ρ c (Proc.devRef .tc main_v8)
      = Cert.KerSpec.aggregate (Cert.KerSpec.messages (Cert.KerSpec.project (m ((c.tc : Thread nD τ).loc main_arg0)) (m ((c.tc : Thread nD τ).loc main_arg4))) (m ((c.tc : Thread nD τ).loc main_arg1)) (m ((c.tc : Thread nD τ).loc main_arg2))) (m ((c.tc : Thread nD τ).loc main_arg3)) :=
    aggregate1 (W3 m ρ c) erows evec (W3_arg3 m ρ c)
  have enrm : W4 (F := Ideal) m ρ c (Proc.devRef .tc main_v10) = Cert.KerSpec.normRows (m ((c.tc : Thread nD τ).loc main_arg1)) :=
    normRows1 (W3 m ρ c) (W3_arg1 m ρ c)
  have ebias : W4 (F := Ideal) m ρ c (Proc.devRef .tc main_v11) = Cert.KerSpec.biasRow (m ((c.tc : Thread nD τ).loc main_arg5)) :=
    biasRow1 (W3 m ρ c) (W3_arg5 m ρ c)
  -- the second kernel's output
  exact (W5_arr m ρ c 3).trans ((hR1 (V4 m ρ) c).trans
    (congrArg Cert.KerSpec.relu (scaleBias_congr1 eagg enrm ebias)))

end Cert.KerFold

end
-- ==== Proof.Fold2.lean ====
/-
  Layer 2 of the program read through its five segments: the projection kernel, the three host stretches (the
  coefficients taken at the edges' sources, the projected rows taken at the edges' sources, then the messages, their
  sums into the destination nodes, the coefficient rows and the bias row), and the scale-and-bias kernel. Each stretch
  is read back over arbitrary contents as the corresponding operation of the layer's closed form; the kernels'
  closed forms are hypotheses.
-/
import proofs.«127511_j51393578664471_2_alg».proof.Proof.FoldBase

set_option maxRecDepth 16384

noncomputable section

namespace Cert.KerFold

open Idealize.ShloMosaic Idealize.ShloMosaic.TcCoe
open Cert.KernelIdeal Cert.KernelIdeal.Gen

/-! ## The stretches over arbitrary contents -/

/-- The first stretch leaves, per edge, the coefficient of the edge's source node. Stated through the transports
    between a buffer's type and its tensor type, which cancel inside the term. -/
theorem takeVec2_typed (Vv : Valuation τ sig (Elt Ideal)) :
    (StableHlo.TRef.of main_v14 : StableHlo.TRef sig ⟨S1600000, .f32⟩).ofBuf
        (StableHlo.after (hostOps3 (F := Ideal)) Vv (Proc.devRef .tc main_v14))
      = Cert.KerSpec.takeVec
          ((StableHlo.TRef.of main_arg1 : StableHlo.TRef sig ⟨S100000, .f32⟩).ofBuf (Vv (Proc.devRef .tc main_arg1)))
          ((StableHlo.TRef.of main_arg2 : StableHlo.TRef sig ⟨S1600000, .i32⟩).ofBuf (Vv (Proc.devRef .tc main_arg2))) := by
  after_results_simp
  simp only [ofBuf_toBuf]
  unfold Cert.KerSpec.takeVec Cert.KerSpec.inRange Cert.KerSpec.col Cert.KerSpec.wrap
  rfl

theorem takeVec2 (Vv : Valuation τ sig (Elt Ideal)) {nrm : FVec Ideal S100000 .f32} {src : IVec S1600000 32}
    (h1 : Vv (Proc.devRef .tc main_arg1) = nrm) (h2 : Vv (Proc.devRef .tc main_arg2) = src) :
    StableHlo.after (hostOps3 (F := Ideal)) Vv (Proc.devRef .tc main_v14) = Cert.KerSpec.takeVec nrm src := by
  subst h1 h2
  have h := takeVec2_typed Vv
  generalize StableHlo.after (hostOps3 (F := Ideal)) Vv = W at h ⊢
  exact h

/-- The second stretch leaves, per edge, the projected row of the edge's source node. -/
theorem takeRows2_typed (Vv : Valuation τ sig (Elt Ideal)) :
    (StableHlo.TRef.of main_v15 : StableHlo.TRef sig ⟨S1600000x64, .f32⟩).ofBuf
        (StableHlo.after (hostOps3_1 (F := Ideal)) Vv (Proc.devRef .tc main_v15))
      = Cert.KerSpec.takeRows
          ((StableHlo.TRef.of main_v13 : StableHlo.TRef sig ⟨S100000x64, .f32⟩).ofBuf (Vv (Proc.devRef .tc main_v13)))
          ((StableHlo.TRef.of main_arg2 : StableHlo.TRef sig ⟨S1600000, .i32⟩).ofBuf (Vv (Proc.devRef .tc main_arg2))) := by
  after_results_simp
  simp only [ofBuf_toBuf]
  unfold Cert.KerSpec.takeRows Cert.KerSpec.inRange Cert.KerSpec.col Cert.KerSpec.wrap
  rfl

theorem takeRows2 (Vv : Valuation τ sig (Elt Ideal)) {proj : FVec Ideal S100000x64 .f32} {src : IVec S1600000 32}
    (h1 : Vv (Proc.devRef .tc main_v13) = proj) (h2 : Vv (Proc.devRef .tc main_arg2) = src) :
    StableHlo.after (hostOps3_1 (F := Ideal)) Vv (Proc.devRef .tc main_v15) = Cert.KerSpec.takeRows proj src := by
  subst h1 h2
  have h := takeRows2_typed Vv
  generalize StableHlo.after (hostOps3_1 (F := Ideal)) Vv = W at h ⊢
  exact h

/-- The third stretch: the messages summed into their destination nodes. -/
theorem aggregate2 (Vv : Valuation τ sig (Elt Ideal)) {rows : FVec Ideal S1600000x64 .f32} {vec : FVec Ideal S1600000 .f32}
    {dst : IVec S1600000 32}
    (h1 : Vv (Proc.devRef .tc main_v15) = rows) (h2 : Vv (Proc.devRef .tc main_v14) = vec)
    (h3 : Vv (Proc.devRef .tc main_arg3) = dst) :
    StableHlo.after (hostOps3_2 (F := Ideal)) Vv (Proc.devRef .tc main_v21)
      = Cert.KerSpec.aggregate
          (mulf rows (broadcastInDim S1600000x64 ![0, 1] bcast_S1600000x1_S1600000x64_0_1
            (broadcastInDim S1600000x1 ![0] bcast_S1600000_S1600000x1_0 vec))) dst := by
  subst h1 h2 h3
  after_results_simp
  unfold Cert.KerSpec.aggregate
  rfl

/-- The third stretch: the coefficient rows. -/
theorem normRows2 (Vv : Valuation τ sig (Elt Ideal)) {nrm : FVec Ideal S100000 .f32}
    (h1 : Vv (Proc.devRef .tc main_arg1) = nrm) :
    StableHlo.after (hostOps3_2 (F := Ideal)) Vv (Proc.devRef .tc main_v23) = Cert.KerSpec.normRows nrm := by
  subst h1
  after_results_simp
  unfold Cert.KerSpec.normRows
  rfl

/-- The third stretch: the bias as a row. -/
theorem biasRow2 (Vv : Valuation τ sig (Elt Ideal)) {b : FVec Ideal S64 .f32}
    (h1 : Vv (Proc.devRef .tc main_arg7) = b) :
    StableHlo.after (hostOps3_2 (F := Ideal)) Vv (Proc.devRef .tc main_v24) = Cert.KerSpec.biasRow b := by
  subst h1
  after_results_simp
  unfold Cert.KerSpec.biasRow
  rfl

theorem scaleBias_congr2 {a a' n n' : FVec Ideal S100000x64 .f32} {b b' : FVec Ideal S1x64 .f32}
    (ha : a = a') (hn : n = n') (hb : b = b') : Cert.KerSpec.scaleBias a n b = Cert.KerSpec.scaleBias a' n' b' := by
  subst ha hn hb; rfl

/-! ## The layer -/

theorem layer2
    (hR2 : ∀ (V : (c : Dev nD) → (b : Ref sig .tc) → Buf (Elt Ideal) ((c : Thread nD τ).loc b)) (c : Dev nD),
      (dat2 (F := Ideal) V c).arrAt 2 cfg2.N = Cert.KerSpec.project (V c main_v12) (V c main_arg6))
    (hR3 : ∀ (V : (c : Dev nD) → (b : Ref sig .tc) → Buf (Elt Ideal) ((c : Thread nD τ).loc b)) (c : Dev nD),
      (dat3 (F := Ideal) V c).arrAt 3 cfg3.N = Cert.KerSpec.relu (Cert.KerSpec.scaleBias (V c main_v21) (V c main_v23) (V c main_v24)))
    (m : (ℓ : Loc nD τ sig) → Buf (Elt Ideal) ℓ) (ρ : Dev nD → PrngReg) (c : Dev nD) :
    W10 (F := Ideal) m ρ c (Proc.devRef .tc main_v25) = Cert.KerSpec.relu (Cert.KerSpec.layerPre (W5 (F := Ideal) m ρ c (Proc.devRef .tc main_v12)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) := by
  -- the first kernel's two inputs at its entry: the previous layer's output, and the weights as launched
  have ein : V5 (F := Ideal) m ρ c main_v12 = (W5 (F := Ideal) m ρ c (Proc.devRef .tc main_v12)) := rfl
  have ew : V5 (F := Ideal) m ρ c main_arg6 = (m ((c.tc : Thread nD τ).loc main_arg6)) := W5_arg6 m ρ c
  -- the projected rows: the first kernel's output, untouched by the first stretch
  have eproj : W7 (F := Ideal) m ρ c (Proc.devRef .tc main_v13)
      = Cert.KerSpec.project (W5 (F := Ideal) m ρ c (Proc.devRef .tc main_v12)) (m ((c.tc : Thread nD τ).loc main_arg6)) :=
    (keep3_v13 (W6 m ρ c)).trans
      ((W6_arr m ρ c 2).trans ((hR2 (V5 m ρ) c).trans (congrArg₂ Cert.KerSpec.project ein ew)))
  -- the coefficients at the sources, untouched by the second stretch
  have evec : W8 (F := Ideal) m ρ c (Proc.devRef .tc main_v14)
      = Cert.KerSpec.takeVec (m ((c.tc : Thread nD τ).loc main_arg1)) (m ((c.tc : Thread nD τ).loc main_arg2)) :=
    (keep3_1_v14 (W7 m ρ c)).trans
      (takeVec2 (W6 m ρ c) (W6_arg1 m ρ c) (W6_arg2 m ρ c))
  -- the projected rows at the sources
  have erows : W8 (F := Ideal) m ρ c (Proc.devRef .tc main_v15)
      = Cert.KerSpec.takeRows (Cert.KerSpec.project (W5 (F := Ideal) m ρ c (Proc.devRef .tc main_v12)) (m ((c.tc : Thread nD τ).loc main_arg6))) (m ((c.tc : Thread nD τ).loc main_arg2)) :=
    takeRows2 (W7 m ρ c) eproj (W7_arg2 m ρ c)
  -- the second kernel's three inputs at its entry
  have eagg : W9 (F := Ideal) m ρ c (Proc.devRef .tc main_v21)
      = Cert.KerSpec.aggregate (Cert.KerSpec.messages (Cert.KerSpec.project (W5 (F := Ideal) m ρ c (Proc.devRef .tc main_v12)) (m ((c.tc : Thread nD τ).loc main_arg6))) (m ((c.tc : Thread nD τ).loc main_arg1)) (m ((c.tc : Thread nD τ).loc main_arg2))) (m ((c.tc : Thread nD τ).loc main_arg3)) :=
    aggregate2 (W8 m ρ c) erows evec (W8_arg3 m ρ c)
  have enrm : W9 (F := Ideal) m ρ c (Proc.devRef .tc main_v23) = Cert.KerSpec.normRows (m ((c.tc : Thread nD τ).loc main_arg1)) :=
    normRows2 (W8 m ρ c) (W8_arg1 m ρ c)
  have ebias : W9 (F := Ideal) m ρ c (Proc.devRef .tc main_v24) = Cert.KerSpec.biasRow (m ((c.tc : Thread nD τ).loc main_arg7)) :=
    biasRow2 (W8 m ρ c) (W8_arg7 m ρ c)
  -- the second kernel's output
  exact (W10_arr m ρ c 3).trans ((hR3 (V9 m ρ) c).trans
    (congrArg Cert.KerSpec.relu (scaleBias_congr2 eagg enrm ebias)))

end Cert.KerFold

end
-- ==== Proof.Fold3.lean ====
/-
  Layer 3 of the program read through its five segments: the projection kernel, the three host stretches (the
  coefficients taken at the edges' sources, the projected rows taken at the edges' sources, then the messages, their
  sums into the destination nodes, the coefficient rows and the bias row), and the scale-and-bias kernel. Each stretch
  is read back over arbitrary contents as the corresponding operation of the layer's closed form; the kernels'
  closed forms are hypotheses.
-/
import proofs.«127511_j51393578664471_2_alg».proof.Proof.FoldBase

set_option maxRecDepth 16384

noncomputable section

namespace Cert.KerFold

open Idealize.ShloMosaic Idealize.ShloMosaic.TcCoe
open Cert.KernelIdeal Cert.KernelIdeal.Gen

/-! ## The stretches over arbitrary contents -/

/-- The first stretch leaves, per edge, the coefficient of the edge's source node. Stated through the transports
    between a buffer's type and its tensor type, which cancel inside the term. -/
theorem takeVec3_typed (Vv : Valuation τ sig (Elt Ideal)) :
    (StableHlo.TRef.of main_v27 : StableHlo.TRef sig ⟨S1600000, .f32⟩).ofBuf
        (StableHlo.after (hostOps5 (F := Ideal)) Vv (Proc.devRef .tc main_v27))
      = Cert.KerSpec.takeVec
          ((StableHlo.TRef.of main_arg1 : StableHlo.TRef sig ⟨S100000, .f32⟩).ofBuf (Vv (Proc.devRef .tc main_arg1)))
          ((StableHlo.TRef.of main_arg2 : StableHlo.TRef sig ⟨S1600000, .i32⟩).ofBuf (Vv (Proc.devRef .tc main_arg2))) := by
  after_results_simp
  simp only [ofBuf_toBuf]
  unfold Cert.KerSpec.takeVec Cert.KerSpec.inRange Cert.KerSpec.col Cert.KerSpec.wrap
  rfl

theorem takeVec3 (Vv : Valuation τ sig (Elt Ideal)) {nrm : FVec Ideal S100000 .f32} {src : IVec S1600000 32}
    (h1 : Vv (Proc.devRef .tc main_arg1) = nrm) (h2 : Vv (Proc.devRef .tc main_arg2) = src) :
    StableHlo.after (hostOps5 (F := Ideal)) Vv (Proc.devRef .tc main_v27) = Cert.KerSpec.takeVec nrm src := by
  subst h1 h2
  have h := takeVec3_typed Vv
  generalize StableHlo.after (hostOps5 (F := Ideal)) Vv = W at h ⊢
  exact h

/-- The second stretch leaves, per edge, the projected row of the edge's source node. -/
theorem takeRows3_typed (Vv : Valuation τ sig (Elt Ideal)) :
    (StableHlo.TRef.of main_v28 : StableHlo.TRef sig ⟨S1600000x64, .f32⟩).ofBuf
        (StableHlo.after (hostOps5_1 (F := Ideal)) Vv (Proc.devRef .tc main_v28))
      = Cert.KerSpec.takeRows
          ((StableHlo.TRef.of main_v26 : StableHlo.TRef sig ⟨S100000x64, .f32⟩).ofBuf (Vv (Proc.devRef .tc main_v26)))
          ((StableHlo.TRef.of main_arg2 : StableHlo.TRef sig ⟨S1600000, .i32⟩).ofBuf (Vv (Proc.devRef .tc main_arg2))) := by
  after_results_simp
  simp only [ofBuf_toBuf]
  unfold Cert.KerSpec.takeRows Cert.KerSpec.inRange Cert.KerSpec.col Cert.KerSpec.wrap
  rfl

theorem takeRows3 (Vv : Valuation τ sig (Elt Ideal)) {proj : FVec Ideal S100000x64 .f32} {src : IVec S1600000 32}
    (h1 : Vv (Proc.devRef .tc main_v26) = proj) (h2 : Vv (Proc.devRef .tc main_arg2) = src) :
    StableHlo.after (hostOps5_1 (F := Ideal)) Vv (Proc.devRef .tc main_v28) = Cert.KerSpec.takeRows proj src := by
  subst h1 h2
  have h := takeRows3_typed Vv
  generalize StableHlo.after (hostOps5_1 (F := Ideal)) Vv = W at h ⊢
  exact h

/-- The third stretch: the messages summed into their destination nodes. -/
theorem aggregate3 (Vv : Valuation τ sig (Elt Ideal)) {rows : FVec Ideal S1600000x64 .f32} {vec : FVec Ideal S1600000 .f32}
    {dst : IVec S1600000 32}
    (h1 : Vv (Proc.devRef .tc main_v28) = rows) (h2 : Vv (Proc.devRef .tc main_v27) = vec)
    (h3 : Vv (Proc.devRef .tc main_arg3) = dst) :
    StableHlo.after (hostOps5_2 (F := Ideal)) Vv (Proc.devRef .tc main_v34)
      = Cert.KerSpec.aggregate
          (mulf rows (broadcastInDim S1600000x64 ![0, 1] bcast_S1600000x1_S1600000x64_0_1
            (broadcastInDim S1600000x1 ![0] bcast_S1600000_S1600000x1_0 vec))) dst := by
  subst h1 h2 h3
  after_results_simp
  unfold Cert.KerSpec.aggregate
  rfl

/-- The third stretch: the coefficient rows. -/
theorem normRows3 (Vv : Valuation τ sig (Elt Ideal)) {nrm : FVec Ideal S100000 .f32}
    (h1 : Vv (Proc.devRef .tc main_arg1) = nrm) :
    StableHlo.after (hostOps5_2 (F := Ideal)) Vv (Proc.devRef .tc main_v36) = Cert.KerSpec.normRows nrm := by
  subst h1
  after_results_simp
  unfold Cert.KerSpec.normRows
  rfl

/-- The third stretch: the bias as a row. -/
theorem biasRow3 (Vv : Valuation τ sig (Elt Ideal)) {b : FVec Ideal S64 .f32}
    (h1 : Vv (Proc.devRef .tc main_arg9) = b) :
    StableHlo.after (hostOps5_2 (F := Ideal)) Vv (Proc.devRef .tc main_v37) = Cert.KerSpec.biasRow b := by
  subst h1
  after_results_simp
  unfold Cert.KerSpec.biasRow
  rfl

theorem scaleBias_congr3 {a a' n n' : FVec Ideal S100000x64 .f32} {b b' : FVec Ideal S1x64 .f32}
    (ha : a = a') (hn : n = n') (hb : b = b') : Cert.KerSpec.scaleBias a n b = Cert.KerSpec.scaleBias a' n' b' := by
  subst ha hn hb; rfl

/-! ## The layer -/

theorem layer3
    (hR4 : ∀ (V : (c : Dev nD) → (b : Ref sig .tc) → Buf (Elt Ideal) ((c : Thread nD τ).loc b)) (c : Dev nD),
      (dat4 (F := Ideal) V c).arrAt 2 cfg4.N = Cert.KerSpec.project (V c main_v25) (V c main_arg8))
    (hR5 : ∀ (V : (c : Dev nD) → (b : Ref sig .tc) → Buf (Elt Ideal) ((c : Thread nD τ).loc b)) (c : Dev nD),
      (dat5 (F := Ideal) V c).arrAt 3 cfg5.N = Cert.KerSpec.scaleBias (V c main_v34) (V c main_v36) (V c main_v37))
    (m : (ℓ : Loc nD τ sig) → Buf (Elt Ideal) ℓ) (ρ : Dev nD → PrngReg) (c : Dev nD) :
    W15 (F := Ideal) m ρ c (Proc.devRef .tc main_v38) = Cert.KerSpec.layerPre (W10 (F := Ideal) m ρ c (Proc.devRef .tc main_v25)) (m ((c.tc : Thread nD τ).loc main_arg1)) (m ((c.tc : Thread nD τ).loc main_arg2)) (m ((c.tc : Thread nD τ).loc main_arg3)) (m ((c.tc : Thread nD τ).loc main_arg8)) (m ((c.tc : Thread nD τ).loc main_arg9)) := by
  -- the first kernel's two inputs at its entry: the previous layer's output, and the weights as launched
  have ein : V10 (F := Ideal) m ρ c main_v25 = (W10 (F := Ideal) m ρ c (Proc.devRef .tc main_v25)) := rfl
  have ew : V10 (F := Ideal) m ρ c main_arg8 = (m ((c.tc : Thread nD τ).loc main_arg8)) := W10_arg8 m ρ c
  -- the projected rows: the first kernel's output, untouched by the first stretch
  have eproj : W12 (F := Ideal) m ρ c (Proc.devRef .tc main_v26)
      = Cert.KerSpec.project (W10 (F := Ideal) m ρ c (Proc.devRef .tc main_v25)) (m ((c.tc : Thread nD τ).loc main_arg8)) :=
    (keep5_v26 (W11 m ρ c)).trans
      ((W11_arr m ρ c 2).trans ((hR4 (V10 m ρ) c).trans (congrArg₂ Cert.KerSpec.project ein ew)))
  -- the coefficients at the sources, untouched by the second stretch
  have evec : W13 (F := Ideal) m ρ c (Proc.devRef .tc main_v27)
      = Cert.KerSpec.takeVec (m ((c.tc : Thread nD τ).loc main_arg1)) (m ((c.tc : Thread nD τ).loc main_arg2)) :=
    (keep5_1_v27 (W12 m ρ c)).trans
      (takeVec3 (W11 m ρ c) (W11_arg1 m ρ c) (W11_arg2 m ρ c))
  -- the projected rows at the sources
  have erows : W13 (F := Ideal) m ρ c (Proc.devRef .tc main_v28)
      = Cert.KerSpec.takeRows (Cert.KerSpec.project (W10 (F := Ideal) m ρ c (Proc.devRef .tc main_v25)) (m ((c.tc : Thread nD τ).loc main_arg8))) (m ((c.tc : Thread nD τ).loc main_arg2)) :=
    takeRows3 (W12 m ρ c) eproj (W12_arg2 m ρ c)
  -- the second kernel's three inputs at its entry
  have eagg : W14 (F := Ideal) m ρ c (Proc.devRef .tc main_v34)
      = Cert.KerSpec.aggregate (Cert.KerSpec.messages (Cert.KerSpec.project (W10 (F := Ideal) m ρ c (Proc.devRef .tc main_v25)) (m ((c.tc : Thread nD τ).loc main_arg8))) (m ((c.tc : Thread nD τ).loc main_arg1)) (m ((c.tc : Thread nD τ).loc main_arg2))) (m ((c.tc : Thread nD τ).loc main_arg3)) :=
    aggregate3 (W13 m ρ c) erows evec (W13_arg3 m ρ c)
  have enrm : W14 (F := Ideal) m ρ c (Proc.devRef .tc main_v36) = Cert.KerSpec.normRows (m ((c.tc : Thread nD τ).loc main_arg1)) :=
    normRows3 (W13 m ρ c) (W13_arg1 m ρ c)
  have ebias : W14 (F := Ideal) m ρ c (Proc.devRef .tc main_v37) = Cert.KerSpec.biasRow (m ((c.tc : Thread nD τ).loc main_arg9)) :=
    biasRow3 (W13 m ρ c) (W13_arg9 m ρ c)
  -- the second kernel's output
  exact (W15_arr m ρ c 3).trans ((hR5 (V14 m ρ) c).trans
    ((scaleBias_congr3 eagg enrm ebias)))

end Cert.KerFold

end
-- ==== Proof.FoldAll.lean ====
/-
  The three layers composed: the program's result buffer at its last segment boundary, read through all fifteen
  segments, is the closed form of the three graph-convolution layers applied to the launch contents of its arguments.
-/
import proofs.«127511_j51393578664471_2_alg».proof.Proof.Fold1
import proofs.«127511_j51393578664471_2_alg».proof.Proof.Fold2
import proofs.«127511_j51393578664471_2_alg».proof.Proof.Fold3

set_option maxRecDepth 16384

noncomputable section

namespace Cert.KerFold

open Idealize.ShloMosaic Idealize.ShloMosaic.TcCoe
open Cert.KernelIdeal Cert.KernelIdeal.Gen

theorem result
    (hR0 : ∀ (V : (c : Dev nD) → (b : Ref sig .tc) → Buf (Elt Ideal) ((c : Thread nD τ).loc b)) (c : Dev nD),
      (dat0 (F := Ideal) V c).arrAt 2 cfg0.N = Cert.KerSpec.project (V c main_arg0) (V c main_arg4))
    (hR1 : ∀ (V : (c : Dev nD) → (b : Ref sig .tc) → Buf (Elt Ideal) ((c : Thread nD τ).loc b)) (c : Dev nD),
      (dat1 (F := Ideal) V c).arrAt 3 cfg1.N = Cert.KerSpec.relu (Cert.KerSpec.scaleBias (V c main_v8) (V c main_v10) (V c main_v11)))
    (hR2 : ∀ (V : (c : Dev nD) → (b : Ref sig .tc) → Buf (Elt Ideal) ((c : Thread nD τ).loc b)) (c : Dev nD),
      (dat2 (F := Ideal) V c).arrAt 2 cfg2.N = Cert.KerSpec.project (V c main_v12) (V c main_arg6))
    (hR3 : ∀ (V : (c : Dev nD) → (b : Ref sig .tc) → Buf (Elt Ideal) ((c : Thread nD τ).loc b)) (c : Dev nD),
      (dat3 (F := Ideal) V c).arrAt 3 cfg3.N = Cert.KerSpec.relu (Cert.KerSpec.scaleBias (V c main_v21) (V c main_v23) (V c main_v24)))
    (hR4 : ∀ (V : (c : Dev nD) → (b : Ref sig .tc) → Buf (Elt Ideal) ((c : Thread nD τ).loc b)) (c : Dev nD),
      (dat4 (F := Ideal) V c).arrAt 2 cfg4.N = Cert.KerSpec.project (V c main_v25) (V c main_arg8))
    (hR5 : ∀ (V : (c : Dev nD) → (b : Ref sig .tc) → Buf (Elt Ideal) ((c : Thread nD τ).loc b)) (c : Dev nD),
      (dat5 (F := Ideal) V c).arrAt 3 cfg5.N = Cert.KerSpec.scaleBias (V c main_v34) (V c main_v36) (V c main_v37))
    (m : (ℓ : Loc nD τ sig) → Buf (Elt Ideal) ℓ) (ρ : Dev nD → PrngReg) (c : Dev nD) :
    W15 (F := Ideal) m ρ c (Proc.devRef .tc main_v38)
      = Cert.KerSpec.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  have h1 := layer1 hR0 hR1 m ρ c
  have h2 := layer2 hR2 hR3 m ρ c
  have h3 := layer3 hR4 hR5 m ρ c
  rw [h1] at h2
  rw [h2] at h3
  exact h3

end Cert.KerFold

end
-- ==== Proof.RefOps.lean ====
/-
  The reference's @main as one straight line of its operations.

  @main is three graph-convolution layers. Each layer is four operations of @main (the degree coefficients
  repeated along the rows, the scaling, the projection), one call of the row-taking function (twenty-two operations
  and, nested in it, the select that wraps a negative index), ten more operations of @main (the zero accumulator, the
  destination column, the scatter-add, the coefficients again, the scaling, the bias twice broadcast, the sum) and,
  after the first two layers, one call of the activation (three operations). A call of a module-local function is its
  body run on the call's own buffers, so the whole program is the list `ops` below: 117 operations, each writing its
  own buffer. The same list is also given cut at the calls into eleven consecutive stretches, which is how its result
  is read back.
-/
import proofs.«127511_j51393578664471_2_alg».proof.Proof.Gen.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- @main's 117 operations in order, each call replaced by the callee's operations over the call's buffers. -/
abbrev ops : List (HloOp τ sig (Elt F)) :=
  [ StableHlo.unary main_arg1 main_v0 (broadcastInDim S100000x1 ![0] bcast_S100000_S100000x1_0 : (⟨S100000, .f32⟩ : BufTy).Contents (Elt F) → (⟨S100000x1, .f32⟩ : BufTy).Contents (Elt F)),
    StableHlo.unary main_v0 main_v1 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v1 main_v2 (mulf : (⟨S100000x64, .f32⟩ : BufTy).Contents (Elt F) → (⟨S100000x64, .f32⟩ : BufTy).Contents (Elt F) → (⟨S100000x64, .f32⟩ : BufTy).Contents (Elt F)),
    StableHlo.binary main_v2 main_arg4 main_v3 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.TRef.nullary main_call0.c (constantI S_ 32 0#32),
    StableHlo.TRef.unary main_call0.c main_call0.v0 (broadcastInDim S1600000 ![] bcast_S_S1600000),
    StableHlo.TRef.binary (.of main_arg2 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg2 : StableHlo.TRef sig ⟨S1600000, .i32⟩) main_call0.v2 main_call0.v3 addi,
    StableHlo.TRef.ternary main_call0.v1 main_call0.v3 (.of main_arg2 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_v3 : StableHlo.TRef sig ⟨S100000x64, .f32⟩) main_call0.v5 main_call0.v13 (fun x i => Host.gather gather_S100000x64_S1600000x1_S1600000x64_1_0_n_n_0_1_164 x i),
    StableHlo.TRef.unary main_call0.v12 main_call0.v14 (broadcastInDim S1600000x64 ![0] bcast_S1600000_S1600000x64_0),
    StableHlo.TRef.nullary main_call0.cst (constant S_ .f32 0x7FC00000#32),
    StableHlo.TRef.unary main_call0.cst main_call0.v15 (broadcastInDim S1600000x64 ![] bcast_S_S1600000x64),
    StableHlo.TRef.ternary main_call0.v14 main_call0.v13 main_call0.v15 main_call0.v16 select,
    StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_arg3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v8 (broadcastInDim S100000x1 ![0] bcast_S100000_S100000x1_0 : (⟨S100000, .f32⟩ : BufTy).Contents (Elt F) → (⟨S100000x1, .f32⟩ : BufTy).Contents (Elt F)),
    StableHlo.unary main_v8 main_v9 (broadcastInDim S100000x64 ![0, 1] bcast_S100000x1_S100000x64_0_1 : (⟨S100000x1, .f32⟩ : BufTy).Contents (Elt F) → (⟨S100000x64, .f32⟩ : BufTy).Contents (Elt F)),
    StableHlo.binary main_v7 main_v9 main_v10 (mulf : (⟨S100000x64, .f32⟩ : BufTy).Contents (Elt F) → (⟨S100000x64, .f32⟩ : BufTy).Contents (Elt F) → (⟨S100000x64, .f32⟩ : BufTy).Contents (Elt F)),
    StableHlo.unary main_arg5 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v12 main_v13 (addf : (⟨S100000x64, .f32⟩ : BufTy).Contents (Elt F) → (⟨S100000x64, .f32⟩ : BufTy).Contents (Elt F) → (⟨S100000x64, .f32⟩ : BufTy).Contents (Elt F)),
    StableHlo.TRef.nullary main_call1.cst (constant S_ .f32 0x00000000#32),
    StableHlo.TRef.unary main_call1.cst main_call1.v0 (broadcastInDim S100000x64 ![] bcast_S_S100000x64),
    StableHlo.TRef.binary (.of main_v13 : StableHlo.TRef sig ⟨S100000x64, .f32⟩) main_call1.v0 main_call1.v1 maximumf,
    StableHlo.unary main_arg1 main_v15 (broadcastInDim S100000x1 ![0] bcast_S100000_S100000x1_0 : (⟨S100000, .f32⟩ : BufTy).Contents (Elt F) → (⟨S100000x1, .f32⟩ : BufTy).Contents (Elt F)),
    StableHlo.unary main_v15 main_v16 (broadcastInDim S100000x64 ![0, 1] bcast_S100000x1_S100000x64_0_1 : (⟨S100000x1, .f32⟩ : BufTy).Contents (Elt F) → (⟨S100000x64, .f32⟩ : BufTy).Contents (Elt F)),
    StableHlo.binary main_v14 main_v16 main_v17 (mulf : (⟨S100000x64, .f32⟩ : BufTy).Contents (Elt F) → (⟨S100000x64, .f32⟩ : BufTy).Contents (Elt F) → (⟨S100000x64, .f32⟩ : BufTy).Contents (Elt F)),
    StableHlo.binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.TRef.nullary main_call2.c (constantI S_ 32 0#32),
    StableHlo.TRef.unary main_call2.c main_call2.v0 (broadcastInDim S1600000 ![] bcast_S_S1600000),
    StableHlo.TRef.binary (.of main_arg2 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg2 : StableHlo.TRef sig ⟨S1600000, .i32⟩) main_call2.v2 main_call2.v3 addi,
    StableHlo.TRef.ternary main_call2.v1 main_call2.v3 (.of main_arg2 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v18 : StableHlo.TRef sig ⟨S100000x64, .f32⟩) main_call2.v5 main_call2.v13 (fun x i => Host.gather gather_S100000x64_S1600000x1_S1600000x64_1_0_n_n_0_1_164 x i),
    StableHlo.TRef.unary main_call2.v12 main_call2.v14 (broadcastInDim S1600000x64 ![0] bcast_S1600000_S1600000x64_0),
    StableHlo.TRef.nullary main_call2.cst (constant S_ .f32 0x7FC00000#32),
    StableHlo.TRef.unary main_call2.cst main_call2.v15 (broadcastInDim S1600000x64 ![] bcast_S_S1600000x64),
    StableHlo.TRef.ternary main_call2.v14 main_call2.v13 main_call2.v15 main_call2.v16 select,
    StableHlo.nullary main_cst_0 (constant S_ .f32 0x00000000#32),
    StableHlo.unary main_cst_0 main_v20 (broadcastInDim S100000x64 ![] bcast_S_S100000x64 : (⟨S_, .f32⟩ : BufTy).Contents (Elt F) → (⟨S100000x64, .f32⟩ : BufTy).Contents (Elt F)),
    StableHlo.unary main_arg3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v23 (broadcastInDim S100000x1 ![0] bcast_S100000_S100000x1_0 : (⟨S100000, .f32⟩ : BufTy).Contents (Elt F) → (⟨S100000x1, .f32⟩ : BufTy).Contents (Elt F)),
    StableHlo.unary main_v23 main_v24 (broadcastInDim S100000x64 ![0, 1] bcast_S100000x1_S100000x64_0_1 : (⟨S100000x1, .f32⟩ : BufTy).Contents (Elt F) → (⟨S100000x64, .f32⟩ : BufTy).Contents (Elt F)),
    StableHlo.binary main_v22 main_v24 main_v25 (mulf : (⟨S100000x64, .f32⟩ : BufTy).Contents (Elt F) → (⟨S100000x64, .f32⟩ : BufTy).Contents (Elt F) → (⟨S100000x64, .f32⟩ : BufTy).Contents (Elt F)),
    StableHlo.unary main_arg7 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)),
    StableHlo.TRef.nullary main_call3.cst (constant S_ .f32 0x00000000#32),
    StableHlo.TRef.unary main_call3.cst main_call3.v0 (broadcastInDim S100000x64 ![] bcast_S_S100000x64),
    StableHlo.TRef.binary (.of main_v28 : StableHlo.TRef sig ⟨S100000x64, .f32⟩) main_call3.v0 main_call3.v1 maximumf,
    StableHlo.unary main_arg1 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x64 ![0, 1] bcast_S100000x1_S100000x64_0_1 : (⟨S100000x1, .f32⟩ : BufTy).Contents (Elt F) → (⟨S100000x64, .f32⟩ : BufTy).Contents (Elt F)),
    StableHlo.binary main_v29 main_v31 main_v32 (mulf : (⟨S100000x64, .f32⟩ : BufTy).Contents (Elt F) → (⟨S100000x64, .f32⟩ : BufTy).Contents (Elt F) → (⟨S100000x64, .f32⟩ : BufTy).Contents (Elt F)),
    StableHlo.binary main_v32 main_arg8 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.TRef.nullary main_call4.c (constantI S_ 32 0#32),
    StableHlo.TRef.unary main_call4.c main_call4.v0 (broadcastInDim S1600000 ![] bcast_S_S1600000),
    StableHlo.TRef.binary (.of main_arg2 : StableHlo.TRef sig ⟨S1600000, .i32⟩) main_call4.v0 main_call4.v1 (cmpi .slt),
    StableHlo.TRef.nullary main_call4.c_0 (constantI S_ 32 100000#32),
    StableHlo.TRef.unary main_call4.c_0 main_call4.v2 (broadcastInDim S1600000 ![] bcast_S_S1600000),
    StableHlo.TRef.binary (.of main_arg2 : StableHlo.TRef sig ⟨S1600000, .i32⟩) main_call4.v2 main_call4.v3 addi,
    StableHlo.TRef.ternary main_call4.v1 main_call4.v3 (.of main_arg2 : StableHlo.TRef sig ⟨S1600000, .i32⟩) main_call4.call0.v0 select,
    StableHlo.TRef.unary main_call4.call0.v0 main_call4.v5 (broadcastInDim S1600000x1 ![0] bcast_S1600000_S1600000x1_0),
    StableHlo.TRef.nullary main_call4.c_1 (constantI S1 32 99999#32),
    StableHlo.TRef.nullary main_call4.c_2 (constantI S_ 32 0#32),
    StableHlo.TRef.unary main_call4.c_2 main_call4.v6 (broadcastInDim S1600000x1 ![] bcast_S_S1600000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1600000x1 ![0, 1] bcast_S1x1_S1600000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1600000x1_S1600000_d1 h_S_),
    StableHlo.TRef.binary (.of main_v33 : StableHlo.TRef sig ⟨S100000x64, .f32⟩) main_call4.v5 main_call4.v13 (fun x i => Host.gather gather_S100000x64_S1600000x1_S1600000x64_1_0_n_n_0_1_164 x i),
    StableHlo.TRef.unary main_call4.v12 main_call4.v14 (broadcastInDim S1600000x64 ![0] bcast_S1600000_S1600000x64_0),
    StableHlo.TRef.nullary main_call4.cst (constant S_ .f32 0x7FC00000#32),
    StableHlo.TRef.unary main_call4.cst main_call4.v15 (broadcastInDim S1600000x64 ![] bcast_S_S1600000x64),
    StableHlo.TRef.ternary main_call4.v14 main_call4.v13 main_call4.v15 main_call4.v16 select,
    StableHlo.nullary main_cst_1 (constant S_ .f32 0x00000000#32),
    StableHlo.unary main_cst_1 main_v35 (broadcastInDim S100000x64 ![] bcast_S_S100000x64 : (⟨S_, .f32⟩ : BufTy).Contents (Elt F) → (⟨S100000x64, .f32⟩ : BufTy).Contents (Elt F)),
    StableHlo.unary main_arg3 main_v36 (broadcastInDim S1600000x1 ![0] bcast_S1600000_S1600000x1_0 : (⟨S1600000, .i32⟩ : BufTy).Contents (Elt F) → (⟨S1600000x1, .i32⟩ : BufTy).Contents (Elt F)),
    StableHlo.ternary main_v35 main_v36 main_v34 main_v37 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x64 ![0, 1] bcast_S100000x1_S100000x64_0_1 : (⟨S100000x1, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg9 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)) ]

/-- Layer 1, the projection: the coefficients repeated along the rows, the features scaled by them, the product with the weight matrix. -/
def opsA0 : List (HloOp τ sig (Elt F)) :=
  [ StableHlo.unary main_arg1 main_v0 (broadcastInDim S100000x1 ![0] bcast_S100000_S100000x1_0 : (⟨S100000, .f32⟩ : BufTy).Contents (Elt F) → (⟨S100000x1, .f32⟩ : BufTy).Contents (Elt F)),
    StableHlo.unary main_v0 main_v1 (broadcastInDim S100000x64 ![0, 1] bcast_S100000x1_S100000x64_0_1 : (⟨S100000x1, .f32⟩ : BufTy).Contents (Elt F) → (⟨S100000x64, .f32⟩ : BufTy).Contents (Elt F)),
    StableHlo.binary main_arg0 main_v1 main_v2 (mulf : (⟨S100000x64, .f32⟩ : BufTy).Contents (Elt F) → (⟨S100000x64, .f32⟩ : BufTy).Contents (Elt F) → (⟨S100000x64, .f32⟩ : BufTy).Contents (Elt F)),
    StableHlo.binary main_v2 main_arg4 main_v3 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer 1, the rows taken per edge: the source index wrapped, the range test, the gather, the fill value outside the range. -/
def opsT0 : List (HloOp τ sig (Elt F)) :=
  [ StableHlo.TRef.nullary main_call0.c (constantI S_ 32 0#32),
    StableHlo.TRef.unary main_call0.c main_call0.v0 (broadcastInDim S1600000 ![] bcast_S_S1600000),
    StableHlo.TRef.binary (.of main_arg2 : StableHlo.TRef sig ⟨S1600000, .i32⟩) main_call0.v0 main_call0.v1 (cmpi .slt),
    StableHlo.TRef.nullary main_call0.c_0 (constantI S_ 32 100000#32),
    StableHlo.TRef.unary main_call0.c_0 main_call0.v2 (broadcastInDim S1600000 ![] bcast_S_S1600000),
    StableHlo.TRef.binary (.of main_arg2 : StableHlo.TRef sig ⟨S1600000, .i32⟩) main_call0.v2 main_call0.v3 addi,
    StableHlo.TRef.ternary main_call0.v1 main_call0.v3 (.of main_arg2 : StableHlo.TRef sig ⟨S1600000, .i32⟩) main_call0.call0.v0 select,
    StableHlo.TRef.unary main_call0.call0.v0 main_call0.v5 (broadcastInDim S1600000x1 ![0] bcast_S1600000_S1600000x1_0),
    StableHlo.TRef.nullary main_call0.c_1 (constantI S1 32 99999#32),
    StableHlo.TRef.nullary main_call0.c_2 (constantI S_ 32 0#32),
    StableHlo.TRef.unary main_call0.c_2 main_call0.v6 (broadcastInDim S1600000x1 ![] bcast_S_S1600000x1),
    StableHlo.TRef.binary main_call0.v5 main_call0.v6 main_call0.v7 (cmpi .sge),
    StableHlo.TRef.unary main_call0.c_1 main_call0.v8 (broadcastInDim S1x1 ![1] bcast_S1_S1x1_1),
    StableHlo.TRef.unary main_call0.v8 main_call0.v9 (broadcastInDim S1600000x1 ![0, 1] bcast_S1x1_S1600000x1_0_1),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S1600000x1_S1600000_d1 h_S_),
    StableHlo.TRef.binary (.of main_v3 : StableHlo.TRef sig ⟨S100000x64, .f32⟩) main_call0.v5 main_call0.v13 (fun x i => Host.gather gather_S100000x64_S1600000x1_S1600000x64_1_0_n_n_0_1_164 x i),
    StableHlo.TRef.unary main_call0.v12 main_call0.v14 (broadcastInDim S1600000x64 ![0] bcast_S1600000_S1600000x64_0),
    StableHlo.TRef.nullary main_call0.cst (constant S_ .f32 0x7FC00000#32),
    StableHlo.TRef.unary main_call0.cst main_call0.v15 (broadcastInDim S1600000x64 ![] bcast_S_S1600000x64),
    StableHlo.TRef.ternary main_call0.v14 main_call0.v13 main_call0.v15 main_call0.v16 select ]

/-- Layer 1, the aggregation: the edges' rows summed into their destination nodes from zero, scaled by the coefficients, the bias added. -/
def opsB0 : List (HloOp τ sig (Elt F)) :=
  [ StableHlo.nullary main_cst (constant S_ .f32 0x00000000#32),
    StableHlo.unary main_cst main_v5 (broadcastInDim S100000x64 ![] bcast_S_S100000x64 : (⟨S_, .f32⟩ : BufTy).Contents (Elt F) → (⟨S100000x64, .f32⟩ : BufTy).Contents (Elt F)),
    StableHlo.unary main_arg3 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v4 main_v7 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v8 (broadcastInDim S100000x1 ![0] bcast_S100000_S100000x1_0 : (⟨S100000, .f32⟩ : BufTy).Contents (Elt F) → (⟨S100000x1, .f32⟩ : BufTy).Contents (Elt F)),
    StableHlo.unary main_v8 main_v9 (broadcastInDim S100000x64 ![0, 1] bcast_S100000x1_S100000x64_0_1 : (⟨S100000x1, .f32⟩ : BufTy).Contents (Elt F) → (⟨S100000x64, .f32⟩ : BufTy).Contents (Elt F)),
    StableHlo.binary main_v7 main_v9 main_v10 (mulf : (⟨S100000x64, .f32⟩ : BufTy).Contents (Elt F) → (⟨S100000x64, .f32⟩ : BufTy).Contents (Elt F) → (⟨S100000x64, .f32⟩ : BufTy).Contents (Elt F)),
    StableHlo.unary main_arg5 main_v11 (broadcastInDim S1x64 ![1] bcast_S64_S1x64_1 : (⟨S64, .f32⟩ : BufTy).Contents (Elt F) → (⟨S1x64, .f32⟩ : BufTy).Contents (Elt F)),
    StableHlo.unary main_v11 main_v12 (broadcastInDim S100000x64 ![0, 1] bcast_S1x64_S100000x64_0_1 : (⟨S1x64, .f32⟩ : BufTy).Contents (Elt F) → (⟨S100000x64, .f32⟩ : BufTy).Contents (Elt F)),
    StableHlo.binary main_v10 main_v12 main_v13 (addf : (⟨S100000x64, .f32⟩ : BufTy).Contents (Elt F) → (⟨S100000x64, .f32⟩ : BufTy).Contents (Elt F) → (⟨S100000x64, .f32⟩ : BufTy).Contents (Elt F)) ]

/-- Layer 1, the activation: the maximum with zero. -/
def opsR0 : List (HloOp τ sig (Elt F)) :=
  [ StableHlo.TRef.nullary main_call1.cst (constant S_ .f32 0x00000000#32),
    StableHlo.TRef.unary main_call1.cst main_call1.v0 (broadcastInDim S100000x64 ![] bcast_S_S100000x64),
    StableHlo.TRef.binary (.of main_v13 : StableHlo.TRef sig ⟨S100000x64, .f32⟩) main_call1.v0 main_call1.v1 maximumf ]

/-- Layer 2, the projection. -/
def opsA1 : List (HloOp τ sig (Elt F)) :=
  [ StableHlo.unary main_arg1 main_v15 (broadcastInDim S100000x1 ![0] bcast_S100000_S100000x1_0 : (⟨S100000, .f32⟩ : BufTy).Contents (Elt F) → (⟨S100000x1, .f32⟩ : BufTy).Contents (Elt F)),
    StableHlo.unary main_v15 main_v16 (broadcastInDim S100000x64 ![0, 1] bcast_S100000x1_S100000x64_0_1 : (⟨S100000x1, .f32⟩ : BufTy).Contents (Elt F) → (⟨S100000x64, .f32⟩ : BufTy).Contents (Elt F)),
    StableHlo.binary main_v14 main_v16 main_v17 (mulf : (⟨S100000x64, .f32⟩ : BufTy).Contents (Elt F) → (⟨S100000x64, .f32⟩ : BufTy).Contents (Elt F) → (⟨S100000x64, .f32⟩ : BufTy).Contents (Elt F)),
    StableHlo.binary main_v17 main_arg6 main_v18 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer 2, the rows taken per edge. -/
def opsT1 : List (HloOp τ sig (Elt F)) :=
  [ StableHlo.TRef.nullary main_call2.c (constantI S_ 32 0#32),
    StableHlo.TRef.unary main_call2.c main_call2.v0 (broadcastInDim S1600000 ![] bcast_S_S1600000),
    StableHlo.TRef.binary (.of main_arg2 : StableHlo.TRef sig ⟨S1600000, .i32⟩) main_call2.v0 main_call2.v1 (cmpi .slt),
    StableHlo.TRef.nullary main_call2.c_0 (constantI S_ 32 100000#32),
    StableHlo.TRef.unary main_call2.c_0 main_call2.v2 (broadcastInDim S1600000 ![] bcast_S_S1600000),
    StableHlo.TRef.binary (.of main_arg2 : StableHlo.TRef sig ⟨S1600000, .i32⟩) main_call2.v2 main_call2.v3 addi,
    StableHlo.TRef.ternary main_call2.v1 main_call2.v3 (.of main_arg2 : StableHlo.TRef sig ⟨S1600000, .i32⟩) main_call2.call0.v0 select,
    StableHlo.TRef.unary main_call2.call0.v0 main_call2.v5 (broadcastInDim S1600000x1 ![0] bcast_S1600000_S1600000x1_0),
    StableHlo.TRef.nullary main_call2.c_1 (constantI S1 32 99999#32),
    StableHlo.TRef.nullary main_call2.c_2 (constantI S_ 32 0#32),
    StableHlo.TRef.unary main_call2.c_2 main_call2.v6 (broadcastInDim S1600000x1 ![] bcast_S_S1600000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S1600000x1 ![0, 1] bcast_S1x1_S1600000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S1600000x1_S1600000_d1 h_S_),
    StableHlo.TRef.binary (.of main_v18 : StableHlo.TRef sig ⟨S100000x64, .f32⟩) main_call2.v5 main_call2.v13 (fun x i => Host.gather gather_S100000x64_S1600000x1_S1600000x64_1_0_n_n_0_1_164 x i),
    StableHlo.TRef.unary main_call2.v12 main_call2.v14 (broadcastInDim S1600000x64 ![0] bcast_S1600000_S1600000x64_0),
    StableHlo.TRef.nullary main_call2.cst (constant S_ .f32 0x7FC00000#32),
    StableHlo.TRef.unary main_call2.cst main_call2.v15 (broadcastInDim S1600000x64 ![] bcast_S_S1600000x64),
    StableHlo.TRef.ternary main_call2.v14 main_call2.v13 main_call2.v15 main_call2.v16 select ]

/-- Layer 2, the aggregation, the scaling and the bias. -/
def opsB1 : List (HloOp τ sig (Elt F)) :=
  [ StableHlo.nullary main_cst_0 (constant S_ .f32 0x00000000#32),
    StableHlo.unary main_cst_0 main_v20 (broadcastInDim S100000x64 ![] bcast_S_S100000x64 : (⟨S_, .f32⟩ : BufTy).Contents (Elt F) → (⟨S100000x64, .f32⟩ : BufTy).Contents (Elt F)),
    StableHlo.unary main_arg3 main_v21 (broadcastInDim S1600000x1 ![0] bcast_S1600000_S1600000x1_0 : (⟨S1600000, .i32⟩ : BufTy).Contents (Elt F) → (⟨S1600000x1, .i32⟩ : BufTy).Contents (Elt F)),
    StableHlo.ternary main_v20 main_v21 main_v19 main_v22 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v23 (broadcastInDim S100000x1 ![0] bcast_S100000_S100000x1_0 : (⟨S100000, .f32⟩ : BufTy).Contents (Elt F) → (⟨S100000x1, .f32⟩ : BufTy).Contents (Elt F)),
    StableHlo.unary main_v23 main_v24 (broadcastInDim S100000x64 ![0, 1] bcast_S100000x1_S100000x64_0_1 : (⟨S100000x1, .f32⟩ : BufTy).Contents (Elt F) → (⟨S100000x64, .f32⟩ : BufTy).Contents (Elt F)),
    StableHlo.binary main_v22 main_v24 main_v25 (mulf : (⟨S100000x64, .f32⟩ : BufTy).Contents (Elt F) → (⟨S100000x64, .f32⟩ : BufTy).Contents (Elt F) → (⟨S100000x64, .f32⟩ : BufTy).Contents (Elt F)),
    StableHlo.unary main_arg7 main_v26 (broadcastInDim S1x64 ![1] bcast_S64_S1x64_1 : (⟨S64, .f32⟩ : BufTy).Contents (Elt F) → (⟨S1x64, .f32⟩ : BufTy).Contents (Elt F)),
    StableHlo.unary main_v26 main_v27 (broadcastInDim S100000x64 ![0, 1] bcast_S1x64_S100000x64_0_1 : (⟨S1x64, .f32⟩ : BufTy).Contents (Elt F) → (⟨S100000x64, .f32⟩ : BufTy).Contents (Elt F)),
    StableHlo.binary main_v25 main_v27 main_v28 (addf : (⟨S100000x64, .f32⟩ : BufTy).Contents (Elt F) → (⟨S100000x64, .f32⟩ : BufTy).Contents (Elt F) → (⟨S100000x64, .f32⟩ : BufTy).Contents (Elt F)) ]

/-- Layer 2, the activation. -/
def opsR1 : List (HloOp τ sig (Elt F)) :=
  [ StableHlo.TRef.nullary main_call3.cst (constant S_ .f32 0x00000000#32),
    StableHlo.TRef.unary main_call3.cst main_call3.v0 (broadcastInDim S100000x64 ![] bcast_S_S100000x64),
    StableHlo.TRef.binary (.of main_v28 : StableHlo.TRef sig ⟨S100000x64, .f32⟩) main_call3.v0 main_call3.v1 maximumf ]

/-- Layer 3, the projection. -/
def opsA2 : List (HloOp τ sig (Elt F)) :=
  [ StableHlo.unary main_arg1 main_v30 (broadcastInDim S100000x1 ![0] bcast_S100000_S100000x1_0 : (⟨S100000, .f32⟩ : BufTy).Contents (Elt F) → (⟨S100000x1, .f32⟩ : BufTy).Contents (Elt F)),
    StableHlo.unary main_v30 main_v31 (broadcastInDim S100000x64 ![0, 1] bcast_S100000x1_S100000x64_0_1 : (⟨S100000x1, .f32⟩ : BufTy).Contents (Elt F) → (⟨S100000x64, .f32⟩ : BufTy).Contents (Elt F)),
    StableHlo.binary main_v29 main_v31 main_v32 (mulf : (⟨S100000x64, .f32⟩ : BufTy).Contents (Elt F) → (⟨S100000x64, .f32⟩ : BufTy).Contents (Elt F) → (⟨S100000x64, .f32⟩ : BufTy).Contents (Elt F)),
    StableHlo.binary main_v32 main_arg8 main_v33 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Layer 3, the rows taken per edge. -/
def opsT2 : List (HloOp τ sig (Elt F)) :=
  [ StableHlo.TRef.nullary main_call4.c (constantI S_ 32 0#32),
    StableHlo.TRef.unary main_call4.c main_call4.v0 (broadcastInDim S1600000 ![] bcast_S_S1600000),
    StableHlo.TRef.binary (.of main_arg2 : StableHlo.TRef sig ⟨S1600000, .i32⟩) main_call4.v0 main_call4.v1 (cmpi .slt),
    StableHlo.TRef.nullary main_call4.c_0 (constantI S_ 32 100000#32),
    StableHlo.TRef.unary main_call4.c_0 main_call4.v2 (broadcastInDim S1600000 ![] bcast_S_S1600000),
    StableHlo.TRef.binary (.of main_arg2 : StableHlo.TRef sig ⟨S1600000, .i32⟩) main_call4.v2 main_call4.v3 addi,
    StableHlo.TRef.ternary main_call4.v1 main_call4.v3 (.of main_arg2 : StableHlo.TRef sig ⟨S1600000, .i32⟩) main_call4.call0.v0 select,
    StableHlo.TRef.unary main_call4.call0.v0 main_call4.v5 (broadcastInDim S1600000x1 ![0] bcast_S1600000_S1600000x1_0),
    StableHlo.TRef.nullary main_call4.c_1 (constantI S1 32 99999#32),
    StableHlo.TRef.nullary main_call4.c_2 (constantI S_ 32 0#32),
    StableHlo.TRef.unary main_call4.c_2 main_call4.v6 (broadcastInDim S1600000x1 ![] bcast_S_S1600000x1),
    StableHlo.TRef.binary main_call4.v5 main_call4.v6 main_call4.v7 (cmpi .sge),
    StableHlo.TRef.unary main_call4.c_1 main_call4.v8 (broadcastInDim S1x1 ![1] bcast_S1_S1x1_1),
    StableHlo.TRef.unary main_call4.v8 main_call4.v9 (broadcastInDim S1600000x1 ![0, 1] bcast_S1x1_S1600000x1_0_1),
    StableHlo.TRef.binary main_call4.v5 main_call4.v9 main_call4.v10 (cmpi .sle),
    StableHlo.TRef.binary main_call4.v7 main_call4.v10 main_call4.v11 andi,
    StableHlo.TRef.nullary main_call4.c_3 (constantI S_ 1 1#1),
    StableHlo.TRef.binary main_call4.v11 main_call4.c_3 main_call4.v12 (fun x v => Host.reduce IntOp.andi x v reducesTo_S1600000x1_S1600000_d1 h_S_),
    StableHlo.TRef.binary (.of main_v33 : StableHlo.TRef sig ⟨S100000x64, .f32⟩) main_call4.v5 main_call4.v13 (fun x i => Host.gather gather_S100000x64_S1600000x1_S1600000x64_1_0_n_n_0_1_164 x i),
    StableHlo.TRef.unary main_call4.v12 main_call4.v14 (broadcastInDim S1600000x64 ![0] bcast_S1600000_S1600000x64_0),
    StableHlo.TRef.nullary main_call4.cst (constant S_ .f32 0x7FC00000#32),
    StableHlo.TRef.unary main_call4.cst main_call4.v15 (broadcastInDim S1600000x64 ![] bcast_S_S1600000x64),
    StableHlo.TRef.ternary main_call4.v14 main_call4.v13 main_call4.v15 main_call4.v16 select ]

/-- Layer 3, the aggregation, the scaling and the bias. -/
def opsB2 : List (HloOp τ sig (Elt F)) :=
  [ StableHlo.nullary main_cst_1 (constant S_ .f32 0x00000000#32),
    StableHlo.unary main_cst_1 main_v35 (broadcastInDim S100000x64 ![] bcast_S_S100000x64 : (⟨S_, .f32⟩ : BufTy).Contents (Elt F) → (⟨S100000x64, .f32⟩ : BufTy).Contents (Elt F)),
    StableHlo.unary main_arg3 main_v36 (broadcastInDim S1600000x1 ![0] bcast_S1600000_S1600000x1_0 : (⟨S1600000, .i32⟩ : BufTy).Contents (Elt F) → (⟨S1600000x1, .i32⟩ : BufTy).Contents (Elt F)),
    StableHlo.ternary main_v35 main_v36 main_v34 main_v37 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    StableHlo.unary main_arg1 main_v38 (broadcastInDim S100000x1 ![0] bcast_S100000_S100000x1_0 : (⟨S100000, .f32⟩ : BufTy).Contents (Elt F) → (⟨S100000x1, .f32⟩ : BufTy).Contents (Elt F)),
    StableHlo.unary main_v38 main_v39 (broadcastInDim S100000x64 ![0, 1] bcast_S100000x1_S100000x64_0_1 : (⟨S100000x1, .f32⟩ : BufTy).Contents (Elt F) → (⟨S100000x64, .f32⟩ : BufTy).Contents (Elt F)),
    StableHlo.binary main_v37 main_v39 main_v40 (mulf : (⟨S100000x64, .f32⟩ : BufTy).Contents (Elt F) → (⟨S100000x64, .f32⟩ : BufTy).Contents (Elt F) → (⟨S100000x64, .f32⟩ : BufTy).Contents (Elt F)),
    StableHlo.unary main_arg9 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S100000x64 ![0, 1] bcast_S1x64_S100000x64_0_1 : (⟨S1x64, .f32⟩ : BufTy).Contents (Elt F) → (⟨S100000x64, .f32⟩ : BufTy).Contents (Elt F)),
    StableHlo.binary main_v40 main_v42 main_v43 (addf : (⟨S100000x64, .f32⟩ : BufTy).Contents (Elt F) → (⟨S100000x64, .f32⟩ : BufTy).Contents (Elt F) → (⟨S100000x64, .f32⟩ : BufTy).Contents (Elt F)) ]

/-- The list is its eleven stretches, in order. -/
theorem ops_split : (ops : List (HloOp τ sig (Elt F))) = opsA0 ++ (opsT0 ++ (opsB0 ++ (opsR0 ++ (opsA1 ++ (opsT1 ++ (opsB1 ++ (opsR1 ++ (opsA2 ++ (opsT2 ++ (opsB2)))))))))) := rfl

-- one hundred and seventeen binds re-associated: the rewriting under the chain recurses once per statement
set_option maxRecDepth 16384 in
set_option maxHeartbeats 1600000 in
/-- @main is that straight line: the functions' definitions unfolded at their calls, both sides are one chain of
    operation steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only. -/
theorem ops_sub : (ops : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., unary_bufs_sub .., ternary_bufs_sub .., unary_bufs_sub .., unary_bufs_sub .., binary_bufs_sub .., unary_bufs_sub .., unary_bufs_sub .., binary_bufs_sub ..⟩

end Cert.RefRun

end
-- ==== Proof.RefSpec.lean ====
/-
  What the reference computes, layer by layer, as one function of its argument arrays.

  A graph-convolution layer of the reference: each node's feature row is scaled by the node's degree coefficient and
  projected by the weight matrix, each edge takes the projected row of its source node (the fill value when the source
  index, counted from the end when negative, is outside the node range), the edges' rows are summed into their
  destination nodes, and each node's sum is scaled by its own coefficient and the bias added (followed, in the two
  hidden layers, by the maximum with zero). These are the operations of the reference's own text, composed in its order.
-/
import proofs.«127511_j51393578664471_2_alg».proof.ReferenceIdeal
import Idealize.ShloMosaic.PureOps.Ideal
import Idealize.ShloMosaic.Lib.ValueIdx

noncomputable section

namespace Cert.RefSpec

open Idealize.ShloMosaic Idealize.ShloMosaic.ValueIdx Cert.ReferenceIdeal

variable [Cert.ReferenceIdeal.Facts]
open Cert.ReferenceIdeal.Facts₀

/-- An edge's source index, a negative one counted from the end of the node axis. -/
def wrap (src : IVec S1600000 32) : IVec S1600000 32 :=
  select (cmpi .slt src (broadcastInDim S1600000 ![] bcast_S_S1600000 (constantI S_ 32 0#32)))
    (addi src (broadcastInDim S1600000 ![] bcast_S_S1600000 (constantI S_ 32 100000#32))) src

/-- The source indices as a column of start indices. -/
def col (src : IVec S1600000 32) : IVec S1600000x1 32 :=
  broadcastInDim S1600000x1 ![0] bcast_S1600000_S1600000x1_0 (wrap src)

/-- Per edge: does its source index lie on the node axis. -/
def inRange (src : IVec S1600000 32) : IVec S1600000 1 :=
  Host.reduce IntOp.andi
    (andi (cmpi .sge (col src) (broadcastInDim S1600000x1 ![] bcast_S_S1600000x1 (constantI S_ 32 0#32)))
      (cmpi .sle (col src) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- Per edge, the row of a per-node matrix at the edge's source node (the fill value outside the range). -/
def takeRows (x : FVec Ideal S100000x64 .f32) (src : IVec S1600000 32) : FVec Ideal S1600000x64 .f32 :=
  select (broadcastInDim S1600000x64 ![0] bcast_S1600000_S1600000x64_0 (inRange src))
    (Host.gather gather_S100000x64_S1600000x1_S1600000x64_1_0_n_n_0_1_164 x (col src))
    (broadcastInDim S1600000x64 ![] bcast_S_S1600000x64 (constant (F := Ideal) S_ .f32 0x7FC00000#32))

/-- The per-node coefficients repeated along each node's row. -/
def normRows (nrm : FVec Ideal S100000 .f32) : FVec Ideal S100000x64 .f32 :=
  broadcastInDim S100000x64 ![0, 1] bcast_S100000x1_S100000x64_0_1
    (broadcastInDim S100000x1 ![0] bcast_S100000_S100000x1_0 nrm)

/-- The edges' rows summed into their destination nodes, from zero. -/
def aggregate (msgs : FVec Ideal S1600000x64 .f32) (dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst) msgs

/-- The scaled features projected by the weight matrix. -/
def project (h : FVec Ideal S100000x64 .f32) (nrm : FVec Ideal S100000 .f32) (W : FVec Ideal S64x64 .f32) :
    FVec Ideal S100000x64 .f32 :=
  Host.dotGeneral (F := Ideal) dot_S100000x64_S64x64_S100000x64_1_0_0_1_n_n none (mulf h (normRows nrm)) W

/-- A layer before its activation. -/
def layerPre (h : FVec Ideal S100000x64 .f32) (nrm : FVec Ideal S100000 .f32) (src dst : IVec S1600000 32)
    (W : FVec Ideal S64x64 .f32) (b : FVec Ideal S64 .f32) : FVec Ideal S100000x64 .f32 :=
  addf (mulf (aggregate (takeRows (project h nrm W) src) dst) (normRows nrm))
    (broadcastInDim S100000x64 ![0, 1] bcast_S1x64_S100000x64_0_1 (broadcastInDim S1x64 ![1] bcast_S64_S1x64_1 b))

/-- The maximum with zero, entry by entry. -/
def relu (x : FVec Ideal S100000x64 .f32) : FVec Ideal S100000x64 .f32 :=
  maximumf x (broadcastInDim S100000x64 ![] bcast_S_S100000x64 (constant (F := Ideal) S_ .f32 0x00000000#32))

/-- The three layers: two hidden ones with the activation, the last without. -/
def result (feat : FVec Ideal S100000x64 .f32) (nrm : FVec Ideal S100000 .f32) (src dst : IVec S1600000 32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32) : FVec Ideal S100000x64 .f32 :=
  layerPre (relu (layerPre (relu (layerPre feat nrm src dst W0 b0)) nrm src dst W1 b1)) nrm src dst W2 b2

end Cert.RefSpec

end
-- ==== Proof.LibTypedRefs.lean ====
/-
  Reading a straight line of host operations back, one stretch at a time.

  * The contents after two lists of operations run one after the other are the second list's fold from the first
    list's (`after_append`): a long line is read a stretch at a time, the few buffers a later stretch reads named
    before it reads them, instead of one term in which every shared intermediate is written out once per use.
  * An operation inside a called function reads and writes its buffers through a typed reference: the value is
    transported along the equation "the buffer's type is the value's type". At a literal reference whose declared type
    is the buffer's own the transport is the identity, in both directions (`ofBuf_self`, `toBuf_self`). Rewrite with
    these (by `rw`: they are stated at `T := r.ty`, which a syntactic matcher does not see through) BEFORE comparing the
    read-back term with a closed form: with a transport left around a selection or a comparison, deciding the
    selection's condition forces the operands — a scatter over every edge, say — at a symbolic index.
-/
import Idealize.ShloMosaic.Lib.StableHlo.Run

noncomputable section

namespace Idealize.ShloMosaic.StableHlo

variable {nD : Nat} {τ : Topo} {sig : RefSig} {Val : EltTy → Type}

/-- The contents after two lists run one after the other: the second list's fold from the first list's. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Contents read through a literal reference at the buffer's own type are the contents. -/
theorem TRef.ofBuf_self (r : Ref sig .tc) (h : r.ty = r.ty) (hd : r.space ≠ .host) (hu : r.isScoped = false)
    (v : r.ty.Contents Val) : (TRef.of (T := r.ty) r h hd hu).ofBuf v = v := rfl

/-- Contents written through a literal reference at the buffer's own type are the contents. -/
theorem TRef.toBuf_self (r : Ref sig .tc) (h : r.ty = r.ty) (hd : r.space ≠ .host) (hu : r.isScoped = false)
    (v : r.ty.Contents Val) : (TRef.of (T := r.ty) r h hd hu).toBuf v = v := rfl

end Idealize.ShloMosaic.StableHlo

end
-- ==== Proof.RefRun.lean ====
/-
  The reference's run, read back.

  The reference's @main is a straight line of 117 operations (the list `ops`), so every weakly fair execution of it
  terminates with each buffer at the fold of the operations over the launch contents. The fold is read a stretch at a
  time: a stretch writes only its own buffers (so the ten arguments, and whatever an earlier stretch produced, pass
  through unchanged), and at the one buffer a later stretch reads it leaves the corresponding function of the
  specification applied to what it read — the projection, the rows taken per edge, the aggregation with the scaling and
  the bias, the activation. Composed in order these are the three layers of the specification.
-/
import proofs.«127511_j51393578664471_2_alg».proof.Proof.RefOps
import proofs.«127511_j51393578664471_2_alg».proof.Proof.RefSpec
import proofs.«127511_j51393578664471_2_alg».proof.Proof.LibTypedRefs

noncomputable section

namespace Cert.RefRun

open Cert.ReferenceIdeal Idealize.ShloMosaic Idealize.ShloMosaic.TcCoe Idealize.SL.Sem Idealize.ShloMosaic.StableHlo
open Cert.ReferenceIdeal.Facts₀

/-! ## What each stretch writes, and what it leaves alone -/

/-- The buffers the stretch writes, in order. -/
abbrev opsA0_W : List (Ref sig .tc) := [main_v0, main_v1, main_v2, main_v3]
theorem opsA0_writes : (opsA0 (F := Ideal)).Forall fun op => op.writes ⊆ (opsA0_W.map (Proc.devRef (τ := τ) .tc)).toFinset := by
  simp only [opsA0, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsA0_keep (V : Valuation τ sig (Elt Ideal)) {r : Ref sig .tc} (h : r ∉ opsA0_W) :
    after opsA0 V (no_index (Proc.devRef .tc r)) = V (Proc.devRef .tc r) :=
  after_of_writes_sub opsA0 V opsA0_writes h

/-- The buffers the stretch writes, in order. -/
abbrev opsT0_W : List (Ref sig .tc) := [main_call0.c.ref, main_call0.v0.ref, main_call0.v1.ref, main_call0.c_0.ref, main_call0.v2.ref, main_call0.v3.ref, main_call0.call0.v0.ref, main_call0.v5.ref, main_call0.c_1.ref, main_call0.c_2.ref, main_call0.v6.ref, main_call0.v7.ref, main_call0.v8.ref, main_call0.v9.ref, main_call0.v10.ref, main_call0.v11.ref, main_call0.c_3.ref, main_call0.v12.ref, main_call0.v13.ref, main_call0.v14.ref, main_call0.cst.ref, main_call0.v15.ref, main_call0.v16.ref]
theorem opsT0_writes : (opsT0 (F := Ideal)).Forall fun op => op.writes ⊆ (opsT0_W.map (Proc.devRef (τ := τ) .tc)).toFinset := by
  simp only [opsT0, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsT0_keep (V : Valuation τ sig (Elt Ideal)) {r : Ref sig .tc} (h : r ∉ opsT0_W) :
    after opsT0 V (no_index (Proc.devRef .tc r)) = V (Proc.devRef .tc r) :=
  after_of_writes_sub opsT0 V opsT0_writes h

/-- The buffers the stretch writes, in order. -/
abbrev opsB0_W : List (Ref sig .tc) := [main_cst, main_v5, main_v6, main_v7, main_v8, main_v9, main_v10, main_v11, main_v12, main_v13]
theorem opsB0_writes : (opsB0 (F := Ideal)).Forall fun op => op.writes ⊆ (opsB0_W.map (Proc.devRef (τ := τ) .tc)).toFinset := by
  simp only [opsB0, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsB0_keep (V : Valuation τ sig (Elt Ideal)) {r : Ref sig .tc} (h : r ∉ opsB0_W) :
    after opsB0 V (no_index (Proc.devRef .tc r)) = V (Proc.devRef .tc r) :=
  after_of_writes_sub opsB0 V opsB0_writes h

/-- The buffers the stretch writes, in order. -/
abbrev opsR0_W : List (Ref sig .tc) := [main_call1.cst.ref, main_call1.v0.ref, main_call1.v1.ref]
theorem opsR0_writes : (opsR0 (F := Ideal)).Forall fun op => op.writes ⊆ (opsR0_W.map (Proc.devRef (τ := τ) .tc)).toFinset := by
  simp only [opsR0, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsR0_keep (V : Valuation τ sig (Elt Ideal)) {r : Ref sig .tc} (h : r ∉ opsR0_W) :
    after opsR0 V (no_index (Proc.devRef .tc r)) = V (Proc.devRef .tc r) :=
  after_of_writes_sub opsR0 V opsR0_writes h

/-- The buffers the stretch writes, in order. -/
abbrev opsA1_W : List (Ref sig .tc) := [main_v15, main_v16, main_v17, main_v18]
theorem opsA1_writes : (opsA1 (F := Ideal)).Forall fun op => op.writes ⊆ (opsA1_W.map (Proc.devRef (τ := τ) .tc)).toFinset := by
  simp only [opsA1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsA1_keep (V : Valuation τ sig (Elt Ideal)) {r : Ref sig .tc} (h : r ∉ opsA1_W) :
    after opsA1 V (no_index (Proc.devRef .tc r)) = V (Proc.devRef .tc r) :=
  after_of_writes_sub opsA1 V opsA1_writes h

/-- The buffers the stretch writes, in order. -/
abbrev opsT1_W : List (Ref sig .tc) := [main_call2.c.ref, main_call2.v0.ref, main_call2.v1.ref, main_call2.c_0.ref, main_call2.v2.ref, main_call2.v3.ref, main_call2.call0.v0.ref, main_call2.v5.ref, main_call2.c_1.ref, main_call2.c_2.ref, main_call2.v6.ref, main_call2.v7.ref, main_call2.v8.ref, main_call2.v9.ref, main_call2.v10.ref, main_call2.v11.ref, main_call2.c_3.ref, main_call2.v12.ref, main_call2.v13.ref, main_call2.v14.ref, main_call2.cst.ref, main_call2.v15.ref, main_call2.v16.ref]
theorem opsT1_writes : (opsT1 (F := Ideal)).Forall fun op => op.writes ⊆ (opsT1_W.map (Proc.devRef (τ := τ) .tc)).toFinset := by
  simp only [opsT1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsT1_keep (V : Valuation τ sig (Elt Ideal)) {r : Ref sig .tc} (h : r ∉ opsT1_W) :
    after opsT1 V (no_index (Proc.devRef .tc r)) = V (Proc.devRef .tc r) :=
  after_of_writes_sub opsT1 V opsT1_writes h

/-- The buffers the stretch writes, in order. -/
abbrev opsB1_W : List (Ref sig .tc) := [main_cst_0, main_v20, main_v21, main_v22, main_v23, main_v24, main_v25, main_v26, main_v27, main_v28]
theorem opsB1_writes : (opsB1 (F := Ideal)).Forall fun op => op.writes ⊆ (opsB1_W.map (Proc.devRef (τ := τ) .tc)).toFinset := by
  simp only [opsB1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsB1_keep (V : Valuation τ sig (Elt Ideal)) {r : Ref sig .tc} (h : r ∉ opsB1_W) :
    after opsB1 V (no_index (Proc.devRef .tc r)) = V (Proc.devRef .tc r) :=
  after_of_writes_sub opsB1 V opsB1_writes h

/-- The buffers the stretch writes, in order. -/
abbrev opsR1_W : List (Ref sig .tc) := [main_call3.cst.ref, main_call3.v0.ref, main_call3.v1.ref]
theorem opsR1_writes : (opsR1 (F := Ideal)).Forall fun op => op.writes ⊆ (opsR1_W.map (Proc.devRef (τ := τ) .tc)).toFinset := by
  simp only [opsR1, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsR1_keep (V : Valuation τ sig (Elt Ideal)) {r : Ref sig .tc} (h : r ∉ opsR1_W) :
    after opsR1 V (no_index (Proc.devRef .tc r)) = V (Proc.devRef .tc r) :=
  after_of_writes_sub opsR1 V opsR1_writes h

/-- The buffers the stretch writes, in order. -/
abbrev opsA2_W : List (Ref sig .tc) := [main_v30, main_v31, main_v32, main_v33]
theorem opsA2_writes : (opsA2 (F := Ideal)).Forall fun op => op.writes ⊆ (opsA2_W.map (Proc.devRef (τ := τ) .tc)).toFinset := by
  simp only [opsA2, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsA2_keep (V : Valuation τ sig (Elt Ideal)) {r : Ref sig .tc} (h : r ∉ opsA2_W) :
    after opsA2 V (no_index (Proc.devRef .tc r)) = V (Proc.devRef .tc r) :=
  after_of_writes_sub opsA2 V opsA2_writes h

/-- The buffers the stretch writes, in order. -/
abbrev opsT2_W : List (Ref sig .tc) := [main_call4.c.ref, main_call4.v0.ref, main_call4.v1.ref, main_call4.c_0.ref, main_call4.v2.ref, main_call4.v3.ref, main_call4.call0.v0.ref, main_call4.v5.ref, main_call4.c_1.ref, main_call4.c_2.ref, main_call4.v6.ref, main_call4.v7.ref, main_call4.v8.ref, main_call4.v9.ref, main_call4.v10.ref, main_call4.v11.ref, main_call4.c_3.ref, main_call4.v12.ref, main_call4.v13.ref, main_call4.v14.ref, main_call4.cst.ref, main_call4.v15.ref, main_call4.v16.ref]
theorem opsT2_writes : (opsT2 (F := Ideal)).Forall fun op => op.writes ⊆ (opsT2_W.map (Proc.devRef (τ := τ) .tc)).toFinset := by
  simp only [opsT2, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsT2_keep (V : Valuation τ sig (Elt Ideal)) {r : Ref sig .tc} (h : r ∉ opsT2_W) :
    after opsT2 V (no_index (Proc.devRef .tc r)) = V (Proc.devRef .tc r) :=
  after_of_writes_sub opsT2 V opsT2_writes h

/-- The buffers the stretch writes, in order. -/
abbrev opsB2_W : List (Ref sig .tc) := [main_cst_1, main_v35, main_v36, main_v37, main_v38, main_v39, main_v40, main_v41, main_v42, main_v43]
theorem opsB2_writes : (opsB2 (F := Ideal)).Forall fun op => op.writes ⊆ (opsB2_W.map (Proc.devRef (τ := τ) .tc)).toFinset := by
  simp only [opsB2, List.Forall]
  exact ⟨(by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide)),
    (by simp only [nullary_writes, unary_writes, binary_writes, ternary_writes, Finset.singleton_subset_iff, List.mem_toFinset]; exact List.mem_map_of_mem (by decide))⟩
/-- A buffer the stretch does not write keeps its contents through it. -/
theorem opsB2_keep (V : Valuation τ sig (Elt Ideal)) {r : Ref sig .tc} (h : r ∉ opsB2_W) :
    after opsB2 V (no_index (Proc.devRef .tc r)) = V (Proc.devRef .tc r) :=
  after_of_writes_sub opsB2 V opsB2_writes h

/-! ## What each stretch computes -/

/-- After the projection stretch of layer 1: the features scaled by the coefficients and projected. -/
theorem opsA0_spec (V : Valuation τ sig (Elt Ideal)) :
    after opsA0 V (no_index (Proc.devRef .tc main_v3))
      = RefSpec.project (V (Proc.devRef .tc main_arg0)) (V (Proc.devRef .tc main_arg1)) (V (Proc.devRef .tc main_arg4)) := by
  simp only [opsA0]
  after_results_simp
  rfl

-- the buffer's type is looked up in the signature's table once per transport: more steps the later the buffer
set_option maxHeartbeats 1600000 in
/-- After the row-taking stretch of layer 1: each edge's row of the projected features, the fill value where the
    wrapped source index is outside the node range. The operations of a called function read and write through typed
    references; at these literal references the transport is the identity and is removed before the two sides are
    compared. -/
theorem opsT0_spec (V : Valuation τ sig (Elt Ideal)) :
    after opsT0 V (no_index (Proc.devRef .tc main_v4))
      = RefSpec.takeRows (V (Proc.devRef .tc main_v3)) (V (Proc.devRef .tc main_arg2)) := by
  simp only [opsT0]
  after_results_simp
  repeat (first | rw [TRef.ofBuf_self] | rw [TRef.toBuf_self])
  rfl

/-- After the aggregation stretch of layer 1: the edges' rows summed into their destinations, scaled by the
    coefficients, the bias added. -/
theorem opsB0_spec (V : Valuation τ sig (Elt Ideal)) :
    after opsB0 V (no_index (Proc.devRef .tc main_v13))
      = addf (mulf (RefSpec.aggregate (V (Proc.devRef .tc main_v4)) (V (Proc.devRef .tc main_arg3))) (RefSpec.normRows (V (Proc.devRef .tc main_arg1))))
          (broadcastInDim S100000x64 ![0, 1] bcast_S1x64_S100000x64_0_1 (broadcastInDim S1x64 ![1] bcast_S64_S1x64_1 (V (Proc.devRef .tc main_arg5)))) := by
  simp only [opsB0]
  after_results_simp
  rfl

/-- After the activation stretch of layer 1: the maximum with zero. -/
theorem opsR0_spec (V : Valuation τ sig (Elt Ideal)) :
    after opsR0 V (no_index (Proc.devRef .tc main_v14)) = RefSpec.relu (V (Proc.devRef .tc main_v13)) := by
  simp only [opsR0]
  after_results_simp
  repeat (first | rw [TRef.ofBuf_self] | rw [TRef.toBuf_self])
  rfl

/-- After the projection stretch of layer 2: the features scaled by the coefficients and projected. -/
theorem opsA1_spec (V : Valuation τ sig (Elt Ideal)) :
    after opsA1 V (no_index (Proc.devRef .tc main_v18))
      = RefSpec.project (V (Proc.devRef .tc main_v14)) (V (Proc.devRef .tc main_arg1)) (V (Proc.devRef .tc main_arg6)) := by
  simp only [opsA1]
  after_results_simp
  rfl

-- the buffer's type is looked up in the signature's table once per transport: more steps the later the buffer
set_option maxHeartbeats 1600000 in
/-- After the row-taking stretch of layer 2: each edge's row of the projected features, the fill value where the
    wrapped source index is outside the node range. The operations of a called function read and write through typed
    references; at these literal references the transport is the identity and is removed before the two sides are
    compared. -/
theorem opsT1_spec (V : Valuation τ sig (Elt Ideal)) :
    after opsT1 V (no_index (Proc.devRef .tc main_v19))
      = RefSpec.takeRows (V (Proc.devRef .tc main_v18)) (V (Proc.devRef .tc main_arg2)) := by
  simp only [opsT1]
  after_results_simp
  repeat (first | rw [TRef.ofBuf_self] | rw [TRef.toBuf_self])
  rfl

/-- After the aggregation stretch of layer 2: the edges' rows summed into their destinations, scaled by the
    coefficients, the bias added. -/
theorem opsB1_spec (V : Valuation τ sig (Elt Ideal)) :
    after opsB1 V (no_index (Proc.devRef .tc main_v28))
      = addf (mulf (RefSpec.aggregate (V (Proc.devRef .tc main_v19)) (V (Proc.devRef .tc main_arg3))) (RefSpec.normRows (V (Proc.devRef .tc main_arg1))))
          (broadcastInDim S100000x64 ![0, 1] bcast_S1x64_S100000x64_0_1 (broadcastInDim S1x64 ![1] bcast_S64_S1x64_1 (V (Proc.devRef .tc main_arg7)))) := by
  simp only [opsB1]
  after_results_simp
  rfl

/-- After the activation stretch of layer 2: the maximum with zero. -/
theorem opsR1_spec (V : Valuation τ sig (Elt Ideal)) :
    after opsR1 V (no_index (Proc.devRef .tc main_v29)) = RefSpec.relu (V (Proc.devRef .tc main_v28)) := by
  simp only [opsR1]
  after_results_simp
  repeat (first | rw [TRef.ofBuf_self] | rw [TRef.toBuf_self])
  rfl

/-- After the projection stretch of layer 3: the features scaled by the coefficients and projected. -/
theorem opsA2_spec (V : Valuation τ sig (Elt Ideal)) :
    after opsA2 V (no_index (Proc.devRef .tc main_v33))
      = RefSpec.project (V (Proc.devRef .tc main_v29)) (V (Proc.devRef .tc main_arg1)) (V (Proc.devRef .tc main_arg8)) := by
  simp only [opsA2]
  after_results_simp
  rfl

-- the buffer's type is looked up in the signature's table once per transport: more steps the later the buffer
set_option maxHeartbeats 1600000 in
/-- After the row-taking stretch of layer 3: each edge's row of the projected features, the fill value where the
    wrapped source index is outside the node range. The operations of a called function read and write through typed
    references; at these literal references the transport is the identity and is removed before the two sides are
    compared. -/
theorem opsT2_spec (V : Valuation τ sig (Elt Ideal)) :
    after opsT2 V (no_index (Proc.devRef .tc main_v34))
      = RefSpec.takeRows (V (Proc.devRef .tc main_v33)) (V (Proc.devRef .tc main_arg2)) := by
  simp only [opsT2]
  after_results_simp
  repeat (first | rw [TRef.ofBuf_self] | rw [TRef.toBuf_self])
  rfl

/-- After the aggregation stretch of layer 3: the edges' rows summed into their destinations, scaled by the
    coefficients, the bias added. -/
theorem opsB2_spec (V : Valuation τ sig (Elt Ideal)) :
    after opsB2 V (no_index (Proc.devRef .tc main_v43))
      = addf (mulf (RefSpec.aggregate (V (Proc.devRef .tc main_v34)) (V (Proc.devRef .tc main_arg3))) (RefSpec.normRows (V (Proc.devRef .tc main_arg1))))
          (broadcastInDim S100000x64 ![0, 1] bcast_S1x64_S100000x64_0_1 (broadcastInDim S1x64 ![1] bcast_S64_S1x64_1 (V (Proc.devRef .tc main_arg9)))) := by
  simp only [opsB2]
  after_results_simp
  rfl

/-! ## The whole line -/

/-- The result buffer after the whole line is the specification's three layers of the arguments: the stretches read
    from the last one back, each at the buffer the next reads, everything else passing through. -/
theorem out_eq (V : Valuation τ sig (Elt Ideal)) :
    after ops V (Proc.devRef .tc main_v43)
      = RefSpec.result (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  rw [ops_split]
  simp only [after_append]
  simp (disch := decide) only [opsA0_spec, opsT0_spec, opsB0_spec, opsR0_spec, opsA1_spec, opsT1_spec, opsB1_spec, opsR1_spec, opsA2_spec, opsT2_spec, opsB2_spec,
    opsA0_keep, opsT0_keep, opsB0_keep, opsR0_keep, opsA1_keep, opsT1_keep, opsB1_keep, opsR1_keep, opsA2_keep, opsT2_keep, opsB2_keep]
  delta RefSpec.result RefSpec.layerPre
  rfl

/-- No operation writes argument 0. -/
theorem arg0_eq (V : Valuation τ sig (Elt Ideal)) : after ops V (Proc.devRef .tc main_arg0) = V (Proc.devRef .tc main_arg0) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 1. -/
theorem arg1_eq (V : Valuation τ sig (Elt Ideal)) : after ops V (Proc.devRef .tc main_arg1) = V (Proc.devRef .tc main_arg1) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 2. -/
theorem arg2_eq (V : Valuation τ sig (Elt Ideal)) : after ops V (Proc.devRef .tc main_arg2) = V (Proc.devRef .tc main_arg2) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 3. -/
theorem arg3_eq (V : Valuation τ sig (Elt Ideal)) : after ops V (Proc.devRef .tc main_arg3) = V (Proc.devRef .tc main_arg3) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 4. -/
theorem arg4_eq (V : Valuation τ sig (Elt Ideal)) : after ops V (Proc.devRef .tc main_arg4) = V (Proc.devRef .tc main_arg4) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 5. -/
theorem arg5_eq (V : Valuation τ sig (Elt Ideal)) : after ops V (Proc.devRef .tc main_arg5) = V (Proc.devRef .tc main_arg5) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 6. -/
theorem arg6_eq (V : Valuation τ sig (Elt Ideal)) : after ops V (Proc.devRef .tc main_arg6) = V (Proc.devRef .tc main_arg6) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 7. -/
theorem arg7_eq (V : Valuation τ sig (Elt Ideal)) : after ops V (Proc.devRef .tc main_arg7) = V (Proc.devRef .tc main_arg7) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 8. -/
theorem arg8_eq (V : Valuation τ sig (Elt Ideal)) : after ops V (Proc.devRef .tc main_arg8) = V (Proc.devRef .tc main_arg8) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-- No operation writes argument 9. -/
theorem arg9_eq (V : Valuation τ sig (Elt Ideal)) : after ops V (Proc.devRef .tc main_arg9) = V (Proc.devRef .tc main_arg9) := by
  rw [ops_split]
  simp only [after_append]
  simp (disch := decide) only [opsA0_keep, opsT0_keep, opsB0_keep, opsR0_keep, opsA1_keep, opsT1_keep, opsB1_keep, opsR1_keep, opsA2_keep, opsT2_keep, opsB2_keep]

/-! ## The run -/

/-- From any memory with zero counters, every weakly fair execution of the reference's @main terminates, with the result
    buffer at the specification's function of the arguments' launch contents and the ten arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v43)
        = Cert.RefSpec.result (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run defs _ _).mono (fun _ h c => ⟨(h c main_v43).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _)⟩)
    (run_seq scopedRefs_eq scopedSems_eq defs main (fun _ => ops) main_eq (fun _ => ops_sub) m ρ)

end Cert.RefRun

end
-- ==== Proof.Basics.lean ====
/-
  The one predicate the argument carries from layer to layer: every entry of an array over the extended reals is a
  real number. Sums and products of such entries are again real, which is what lets a factor move across a sum.
-/
import Idealize.ShloMosaic.PureOps.Ideal

namespace Cert.Basics

open Idealize.ShloMosaic

/-- Every entry is a real number (neither infinity). -/
def IsReal {S : Shape} (v : S.Idx → EReal) : Prop := ∀ i, ∃ r : ℝ, v i = (r : EReal)

end Cert.Basics
-- ==== Proof.PreFacts.lean ====
/-
  The precondition read back as propositions about the argument arrays.

  The precondition is a conjunction of nine tests, each an "all entries" reduction by the bitwise and of one-bit words
  started from 1. Eight of them test |x| < +∞ entrywise on an array of extended reals, where |x| is max x (-x) and +∞ is
  the value of the binary32 pattern 0x7F800000; the ninth tests 0 ≤ s ∧ s < 100000 entrywise on an array of 32-bit words
  read as signed integers. A conjunction of one-bit words equal to 1 has both conjuncts equal to 1, and a reduction by and
  that comes out 1 met only 1s; so every entrywise test holds. For an extended real x, max x (-x) < ⊤ excludes both x = ⊤
  and x = ⊥, which leaves x a real number.
-/
import proofs.«127511_j51393578664471_2_alg».proof.Defs
import proofs.«127511_j51393578664471_2_alg».proof.Proof.Gen.Pre_finite_inputs
import proofs.«127511_j51393578664471_2_alg».proof.Proof.Gen.KernelIdeal
import proofs.«127511_j51393578664471_2_alg».proof.Proof.Basics
import Idealize.ShloMosaic.Lib.ReduceAll

namespace Cert.PreFacts

open Idealize.ShloMosaic Idealize.SL.Sem

/-- The binary32 pattern with all exponent bits set and a zero significand denotes +∞. -/
theorem inf_eq_top : Ideal.ofBits .f32 0x7F800000#32 = (⊤ : EReal) := by
  simp [Ideal.ofBits, Ideal.ieee]

/-- An extended real whose absolute value max x (-x) lies strictly below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the test |x| < +∞, read back: the entry is a real number. -/
theorem elem_real {S : Shape} (hb : (⟨0, ![]⟩ : Shape).BroadcastsInDim S (![] : Fin 0 → Fin S.rank))
    (x : FVec Ideal S .f32) (i : S.Idx)
    (h : cmpf .olt (Host.absf x)
          (broadcastInDim S ![] hb (constant (F := Ideal) ⟨0, ![]⟩ .f32 0x7F800000#32)) i = 1#1) :
    ∃ r : ℝ, x i = (r : EReal) := by
  have h' : BitVec.ofBool (decide (max (x i) (-(x i)) < Ideal.ofBits .f32 0x7F800000#32)) = 1#1 := h
  rw [inf_eq_top] at h'
  refine real_of_abs_lt_top (x i) ?_
  by_contra hn
  rw [decide_eq_false hn] at h'
  exact absurd h' (by decide)

/-- One element of the test 0 ≤ s ∧ s < 100000 on 32-bit words, read back as integers. -/
theorem elem_range (a : BitVec 32)
    (h : IntOp.andi (IntOp.cmpi .sge a 0#32) (IntOp.cmpi .slt a 100000#32) = 1#1) :
    0 ≤ a.toInt ∧ a.toInt < 100000 := by
  obtain ⟨h1, h2⟩ := IntOp.andi_eq_one.1 h
  have h1' := IntOp.cmpi_sge.1 h1
  have h2' := IntOp.cmpi_slt.1 h2
  have e0 : (0#32 : BitVec 32).toInt = 0 := by decide
  have e1 : (100000#32 : BitVec 32).toInt = 100000 := by decide
  rw [e0] at h1'
  rw [e1] at h2'
  exact ⟨h1', h2'⟩

/-- The rank-0 shape has a single index. -/
instance : Subsingleton (Cert.Pre_finite_inputs.S_).Idx := ⟨fun a b => funext fun d => d.elim0⟩

/-- The precondition, decoded: every entry of the eight float arguments is a real number, and every
    entry of the integer argument compared against the range lies in [0, 100000). -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Basics.IsReal (m ((c.tc : Thread Cert.KernelIdeal.nD Cert.KernelIdeal.τ).loc Cert.KernelIdeal.main_arg0)) ∧ Cert.Basics.IsReal (m ((c.tc : Thread Cert.KernelIdeal.nD Cert.KernelIdeal.τ).loc Cert.KernelIdeal.main_arg1))
    ∧ Cert.Basics.IsReal (m ((c.tc : Thread Cert.KernelIdeal.nD Cert.KernelIdeal.τ).loc Cert.KernelIdeal.main_arg4)) ∧ Cert.Basics.IsReal (m ((c.tc : Thread Cert.KernelIdeal.nD Cert.KernelIdeal.τ).loc Cert.KernelIdeal.main_arg5))
    ∧ Cert.Basics.IsReal (m ((c.tc : Thread Cert.KernelIdeal.nD Cert.KernelIdeal.τ).loc Cert.KernelIdeal.main_arg6)) ∧ Cert.Basics.IsReal (m ((c.tc : Thread Cert.KernelIdeal.nD Cert.KernelIdeal.τ).loc Cert.KernelIdeal.main_arg7))
    ∧ Cert.Basics.IsReal (m ((c.tc : Thread Cert.KernelIdeal.nD Cert.KernelIdeal.τ).loc Cert.KernelIdeal.main_arg8)) ∧ Cert.Basics.IsReal (m ((c.tc : Thread Cert.KernelIdeal.nD Cert.KernelIdeal.τ).loc Cert.KernelIdeal.main_arg9))
    ∧ ∀ e, 0 ≤ ((m ((c.tc : Thread Cert.KernelIdeal.nD Cert.KernelIdeal.τ).loc Cert.KernelIdeal.main_arg2)) e).toInt ∧ ((m ((c.tc : Thread Cert.KernelIdeal.nD Cert.KernelIdeal.τ).loc Cert.KernelIdeal.main_arg2)) e).toInt < 100000 := by
  have h0 := congrFun (h c) (fun a => a.elim0 : (Cert.Pre_finite_inputs.S_).Idx)
  dsimp only [Cert.Pre_finite_inputs.fn, Cert.Pre_finite_inputs.fn_part1, Cert.Pre_finite_inputs.fn_part2] at h0
  obtain ⟨h38, h44⟩ := IntOp.andi_eq_one.1 h0
  obtain ⟨h33, h37⟩ := IntOp.andi_eq_one.1 h38
  obtain ⟨h28, h32⟩ := IntOp.andi_eq_one.1 h33
  obtain ⟨h23, h27⟩ := IntOp.andi_eq_one.1 h28
  obtain ⟨h18, h22⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  refine ⟨?_, ?_, ?_, ?_, ?_, ?_, ?_, ?_, ?_⟩
  · exact fun i => elem_real _ _ i (Host.reduce_andi_all _ _ _ _ _ h3 i)
  · exact fun i => elem_real _ _ i (Host.reduce_andi_all _ _ _ _ _ h7 i)
  · exact fun i => elem_real _ _ i (Host.reduce_andi_all _ _ _ _ _ h12 i)
  · exact fun i => elem_real _ _ i (Host.reduce_andi_all _ _ _ _ _ h17 i)
  · exact fun i => elem_real _ _ i (Host.reduce_andi_all _ _ _ _ _ h22 i)
  · exact fun i => elem_real _ _ i (Host.reduce_andi_all _ _ _ _ _ h27 i)
  · exact fun i => elem_real _ _ i (Host.reduce_andi_all _ _ _ _ _ h32 i)
  · exact fun i => elem_real _ _ i (Host.reduce_andi_all _ _ _ _ _ h37 i)
  · exact fun e => elem_range _ (Host.reduce_andi_all _ _ _ _ _ h44 e)

end Cert.PreFacts
-- ==== Proof.LibRealSums.lean ====
/-
  Arithmetic of extended reals that are in fact real numbers: a finite sum, a product, a sum or a maximum of reals is a
  real, and a real factor moves across a finite sum of products of reals. On the extended reals themselves the last law
  fails at the infinities, which is why every array that meets it is first shown to hold real numbers only.
-/
import Idealize.ShloMosaic.PureOps.Ideal

namespace Cert.Algebra

open Finset

/-- The embedding of the reals commutes with finite sums. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of reals is a real. -/
theorem sum_real {ι : Type*} (s : Finset ι) (f : ι → EReal) (h : ∀ i ∈ s, ∃ r : ℝ, f i = (r : EReal)) :
    ∃ r : ℝ, ∑ i ∈ s, f i = (r : EReal) := by
  classical
  choose! g hg using h
  exact ⟨∑ i ∈ s, g i, by rw [coe_sum]; exact Finset.sum_congr rfl hg⟩

/-- A product of two reals is a real. -/
theorem mul_real {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb; exact ⟨x * y, (EReal.coe_mul x y).symm⟩

/-- A sum of two reals is a real. -/
theorem add_real {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb; exact ⟨x + y, (EReal.coe_add x y).symm⟩

/-- The maximum of two reals is a real. -/
theorem max_real {a b : EReal} (ha : ∃ r : ℝ, a = (r : EReal)) (hb : ∃ r : ℝ, b = (r : EReal)) :
    ∃ r : ℝ, max a b = (r : EReal) := by
  rcases max_choice a b with h | h <;> rw [h] <;> assumption

/-- A real factor moves across a finite sum of products of reals:
    the sum over k of (a k · n) · w k is (the sum over k of a k · w k) · n. -/
theorem scale_sum {ι : Type*} [Fintype ι] (a w : ι → EReal) (n : EReal) (ha : ∀ k, ∃ r : ℝ, a k = (r : EReal))
    (hw : ∀ k, ∃ r : ℝ, w k = (r : EReal)) (hn : ∃ r : ℝ, n = (r : EReal)) :
    ∑ k, (a k * n) * w k = (∑ k, a k * w k) * n := by
  choose x hx using ha
  choose y hy using hw
  obtain ⟨z, rfl⟩ := hn
  have e1 : ∀ k, (a k * (z : EReal)) * w k = ((x k * z * y k : ℝ) : EReal) := fun k => by
    rw [hx, hy, ← EReal.coe_mul, ← EReal.coe_mul]
  have e2 : ∀ k, a k * w k = ((x k * y k : ℝ) : EReal) := fun k => by rw [hx, hy, ← EReal.coe_mul]
  rw [Finset.sum_congr rfl (fun k _ => e1 k), Finset.sum_congr rfl (fun k _ => e2 k), ← coe_sum, ← coe_sum,
    ← EReal.coe_mul]
  congr 1
  rw [Finset.sum_mul]
  exact Finset.sum_congr rfl fun k _ => by ring

end Cert.Algebra
-- ==== Proof.LibReduceAnd.lean ====
/-
  A reduction by `and` over one-bit words whose operand is 1 everywhere, started from 1, is 1 at every result index.
-/
import Idealize.ShloMosaic.Lib.ReduceAll

namespace Cert.MaskFacts

open Idealize.ShloMosaic

/-- A left fold by `and` from 1 over a list of ones is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l fun n hn => h n (List.mem_cons_of_mem _ hn)

variable {s t u : Shape} {axes : List (Fin s.rank)}

/-- The reduction by `and` of an operand that is 1 everywhere, from 1, is 1. -/
theorem reduce_andi_one (x : s.Idx → BitVec 1) (init : u.Idx → BitVec 1) (h : s.ReducesTo axes t) (hu : 0 < u.numel)
    (j : t.Idx) (hinit : init (Shape.Idx.first hu) = 1#1) (hx : ∀ i, x i = 1#1) :
    Host.reduce IntOp.andi x init h hu j = 1#1 := by
  rw [Host.reduce_eq_foldl, hinit]
  exact foldl_andi_one x _ fun n _ => hx n

end Cert.MaskFacts
-- ==== Proof.LibGatherAt.lean ====
/-
  A gather along the leading axis read at an index. With one start index per result row (a column of start indices),
  the result's row e is the operand's row at the start index of e, read as a signed integer and clamped onto the axis:
  for a matrix operand every column j of that row, for a vector operand its one entry.
-/
import Idealize.ShloMosaic.Lib.ValueIdx

namespace Cert.GatherAt

open Idealize.ShloMosaic Idealize.ShloMosaic.ValueIdx

variable {α : Type}

/-- Rows of an [N, C] operand at an [E, 1] column of start indices: result [E, C]. -/
abbrev rowDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Entries of an [N] operand at an [E, 1] column of start indices: result [E]. -/
abbrev vecDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The row gather at (e, j): the operand at (the start index of e, clamped; j). -/
theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N C E wf) x idx (ix2 e j)
      = x (ix2 ⟨min (idx (ix2 e ⟨0, Nat.one_pos⟩)).toInt.toNat (N - 1), by omega⟩ j) := by
  unfold Host.gather
  refine congrArg x (funext fun a => Fin.ext ?_)
  show (rowDims N C E wf).start (ix2 e j) idx a + (rowDims N C E wf).batchCoord (ix2 e j) a
    + (rowDims N C E wf).offCoord (ix2 e j) a = _
  rw [GatherDims.batchCoord_eq_zero _ _ _ List.not_mem_nil]
  have h0 : (rowDims N C E wf).start (ix2 e j) idx (0 : Fin 2) + 0 + (rowDims N C E wf).offCoord (ix2 e j) (0 : Fin 2)
      = min (idx (ix2 e ⟨0, Nat.one_pos⟩)).toInt.toNat (N - 1) := by
    rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (rowDims N C E wf).startIndexMap from List.mem_singleton.mpr rfl)]
    have hsi : (rowDims N C E wf).siIdx (ix2 e j) ⟨List.idxOf (0 : Fin 2) (rowDims N C E wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  have h1 : (rowDims N C E wf).start (ix2 e j) idx (1 : Fin 2) + 0 + (rowDims N C E wf).offCoord (ix2 e j) (1 : Fin 2)
      = j.val := by
    have hs : (rowDims N C E wf).start (ix2 e j) idx (1 : Fin 2) = 0 := by
      unfold GatherDims.start
      rw [dif_neg (fun h => Nat.one_ne_zero (congrArg Fin.val (List.mem_singleton.mp h)))]
    have hk : (1 : Fin 2) ∈ (rowDims N C E wf).sKept :=
      (GatherDims.mem_sKept _ _).mpr ⟨fun h => Nat.one_ne_zero (congrArg Fin.val (List.mem_singleton.mp h)), List.not_mem_nil⟩
    have ho : (rowDims N C E wf).offCoord (ix2 e j) (1 : Fin 2) = j.val := by
      unfold GatherDims.offCoord
      rw [dif_pos hk]
      rfl
    rw [hs, ho]
    omega
  match a with
  | ⟨0, _⟩ => exact h0
  | ⟨1, _⟩ => exact h1

/-- The vector gather at e: the operand at the start index of e, clamped. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 ⟨min (idx (ix2 e ⟨0, Nat.one_pos⟩)).toInt.toNat (N - 1), by omega⟩) := by
  unfold Host.gather
  refine congrArg x (funext fun a => Fin.ext ?_)
  obtain rfl : a = 0 := Subsingleton.elim _ _
  show (vecDims N E wf).start (ix1 e) idx 0 + (vecDims N E wf).batchCoord (ix1 e) 0
    + (vecDims N E wf).offCoord (ix1 e) 0 = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]
  rfl

end Cert.GatherAt
-- ==== Proof.DotAt.lean ====
/-
  The reference's product of the [100000, 64] feature array with a [64, 64] weight matrix, read at an entry: the sum
  over the 64 contracted positions of the row's entries times the column's.
-/
import proofs.«127511_j51393578664471_2_alg».proof.Proof.Gen.ReferenceIdeal
import Idealize.ShloMosaic.PureOps.Ideal.Laws
import Idealize.ShloMosaic.Lib.ValueIdx

namespace Cert.DotAt

open Idealize.ShloMosaic Idealize.ShloMosaic.ValueIdx Cert.ReferenceIdeal

/-- Entry (n, j) of the product is the sum over k of lhs (n, k) · rhs (k, j). -/
theorem dot_apply (lhs : FVec Ideal S100000x64 .f32) (rhs : FVec Ideal S64x64 .f32) (n : Fin 100000) (j : Fin 64) :
    Host.dotGeneral (F := Ideal) dot_S100000x64_S64x64_S100000x64_1_0_0_1_n_n none lhs rhs (ix2 n j)
      = ∑ k : Fin 64, lhs (ix2 n k) * rhs (ix2 k j) := by
  simp only [Host.dotGeneral]
  rw [Ideal.dotGeneral_apply]
  rw [← Equiv.sum_comp (contrEquiv1 dot_S100000x64_S64x64_S100000x64_1_0_0_1_n_n 64 rfl rfl).symm]
  refine Finset.sum_congr rfl fun k _ => ?_
  congr 1
  · refine congrArg lhs (funext fun a => Fin.ext ?_)
    match a with
    | ⟨0, _⟩ => rfl
    | ⟨1, _⟩ =>
      exact (DotDims.lhsIdx_val_of_single dot_S100000x64_S64x64_S100000x64_1_0_0_1_n_n (cl := 1) rfl _ _).trans
        (contrEquiv1_symm_val dot_S100000x64_S64x64_S100000x64_1_0_0_1_n_n 64 rfl rfl k)
  · refine congrArg rhs (funext fun a => Fin.ext ?_)
    match a with
    | ⟨0, _⟩ =>
      exact (DotDims.rhsIdx_val_of_single dot_S100000x64_S64x64_S100000x64_1_0_0_1_n_n (cr := 0) rfl _ _).trans
        (contrEquiv1_symm_val dot_S100000x64_S64x64_S100000x64_1_0_0_1_n_n 64 rfl rfl k)
    | ⟨1, _⟩ => rfl

end Cert.DotAt
-- ==== Proof.BridgeIdx.lean ====
/-
  The shared host operations of the two programs, read at an edge. Both programs normalise an edge's source index the
  same way (a negative index counts from the end), test it against the node axis, gather at the clamped index and fall
  back to the fill value outside the range. With every source index on the node axis the test passes at every edge, so
  a taken row is the operand's row at the edge's node and a taken entry is the operand's entry there; the node is the
  same on both sides because the two programs' operations are the same functions.
-/
import proofs.«127511_j51393578664471_2_alg».proof.Proof.KerSpec
import proofs.«127511_j51393578664471_2_alg».proof.Proof.RefSpec
import proofs.«127511_j51393578664471_2_alg».proof.Proof.Gen.KernelIdeal
import proofs.«127511_j51393578664471_2_alg».proof.Proof.Gen.ReferenceIdeal
import proofs.«127511_j51393578664471_2_alg».proof.Proof.Basics
import proofs.«127511_j51393578664471_2_alg».proof.Proof.LibRealSums
import proofs.«127511_j51393578664471_2_alg».proof.Proof.LibReduceAnd
import proofs.«127511_j51393578664471_2_alg».proof.Proof.LibGatherAt
import proofs.«127511_j51393578664471_2_alg».proof.Proof.DotAt
import Idealize.ShloMosaic.Lib.Pipeline.Value
import Idealize.ShloMosaic.Lib.Affine
import Idealize.ShloMosaic.PureOps.Ideal.Laws

noncomputable section

namespace Cert.BridgeIdx

open Idealize.ShloMosaic Idealize.ShloMosaic.ValueIdx Cert.Basics Cert.ReferenceIdeal

/-! ## The two programs' shared operations are the same functions -/

theorem col_eq : @Cert.KerSpec.col _ = @Cert.RefSpec.col _ := rfl
theorem inRange_eq : @Cert.KerSpec.inRange _ = @Cert.RefSpec.inRange _ := rfl
theorem takeRows_eq : @Cert.KerSpec.takeRows _ = @Cert.RefSpec.takeRows _ := rfl
theorem aggregate_eq : @Cert.KerSpec.aggregate _ = @Cert.RefSpec.aggregate _ := rfl
theorem normRows_eq : @Cert.KerSpec.normRows _ = @Cert.RefSpec.normRows _ := rfl

/-! ## The source indices, read at an edge -/

/-- The column of start indices at edge e is the edge's source index (counted from the end when negative). -/
theorem col_apply (src : IVec S1600000 32) (e : Fin 1600000) (z : Fin 1) :
    Cert.RefSpec.col src (ix2 e z) = Cert.RefSpec.wrap src (ix1 e) := by
  unfold Cert.RefSpec.col
  exact broadcastInDim_apply _ _ _ _ (ix1 e) (fun a => by match a with | ⟨0, _⟩ => rfl)

/-- A non-negative source index is left as it is. -/
theorem wrap_apply (src : IVec S1600000 32) (i : S1600000.Idx) (h0 : 0 ≤ (src i).toInt) :
    Cert.RefSpec.wrap src i = src i := by
  unfold Cert.RefSpec.wrap
  rw [select_apply]
  show Scalar.select (IntOp.cmpi .slt (src i) 0#32) _ (src i) = src i
  have hc : IntOp.cmpi .slt (src i) 0#32 = 0#1 := eq_zero_of_ne_one (fun h => by
    have := IntOp.cmpi_slt.1 h
    have hz : (0#32 : BitVec 32).toInt = 0 := by decide
    omega)
  rw [hc, select_zero]

/-- With every source index on the node axis, every edge passes the range test. -/
theorem inRange_one (src : IVec S1600000 32) (hsrc : ∀ i, 0 ≤ (src i).toInt ∧ (src i).toInt < 100000)
    (i : S1600000.Idx) : Cert.RefSpec.inRange src i = 1#1 := by
  unfold Cert.RefSpec.inRange
  refine Cert.MaskFacts.reduce_andi_one _ _ _ _ _ rfl fun y => ?_
  obtain ⟨e, z, rfl⟩ : ∃ (e : Fin 1600000) (z : Fin 1), y = ix2 e z := ⟨y 0, y 1, eq_ix2 y⟩
  show IntOp.andi (IntOp.cmpi .sge (Cert.RefSpec.col src (ix2 e z)) 0#32)
    (IntOp.cmpi .sle (Cert.RefSpec.col src (ix2 e z)) 99999#32) = 1#1
  rw [col_apply, wrap_apply src (ix1 e) (hsrc _).1]
  have h0 : (0#32 : BitVec 32).toInt = 0 := by decide
  have h9 : (99999#32 : BitVec 32).toInt = 99999 := by decide
  exact IntOp.andi_eq_one.2 ⟨IntOp.cmpi_sge.2 (by have := (hsrc (ix1 e)).1; omega),
    IntOp.cmpi_sle.2 (by have := (hsrc (ix1 e)).2; omega)⟩

/-- The node an edge reads: its start index, read signed and clamped onto the node axis. -/
def node (src : IVec S1600000 32) (e : Fin 1600000) : Fin 100000 :=
  ⟨min (Cert.RefSpec.col src (ix2 e ⟨0, Nat.one_pos⟩)).toInt.toNat (100000 - 1), by omega⟩

/-! ## The gathers, read at an edge -/

/-- Row e of the taken rows is the operand's row at the edge's node. -/
theorem takeRows_apply (x : FVec Ideal S100000x64 .f32) (src : IVec S1600000 32)
    (hsrc : ∀ i, 0 ≤ (src i).toInt ∧ (src i).toInt < 100000) (e : Fin 1600000) (j : Fin 64) :
    Cert.RefSpec.takeRows x src (ix2 e j) = x (ix2 (node src e) j) := by
  unfold Cert.RefSpec.takeRows
  rw [select_apply]
  have hm : broadcastInDim S1600000x64 ![0] Facts₀.bcast_S1600000_S1600000x64_0 (Cert.RefSpec.inRange src) (ix2 e j)
      = 1#1 :=
    (broadcastInDim_apply _ _ _ _ (ix1 e) (fun a => by match a with | ⟨0, _⟩ => rfl)).trans
      (inRange_one src hsrc _)
  rw [hm, select_one]
  exact Cert.GatherAt.gather_rows_apply (N := 100000) (C := 64) (E := 1600000) (by decide)
    Facts₀.gather_S100000x64_S1600000x1_S1600000x64_1_0_n_n_0_1_164_wf x (Cert.RefSpec.col src) e j

/-- Entry e of the taken vector is the operand's entry at the edge's node. -/
theorem takeVec_apply (x : FVec Ideal S100000 .f32) (src : IVec S1600000 32)
    (hsrc : ∀ i, 0 ≤ (src i).toInt ∧ (src i).toInt < 100000) (e : Fin 1600000) :
    Cert.KerSpec.takeVec x src (ix1 e) = x (ix1 (node src e)) := by
  unfold Cert.KerSpec.takeVec
  rw [select_apply, inRange_eq, inRange_one src hsrc, select_one, col_eq]
  exact Cert.GatherAt.gather_vec_apply (N := 100000) (E := 1600000) (by decide)
    Cert.KernelIdeal.Facts₀.gather_S100000_S1600000x1_S1600000_n_0_n_n_0_1_1_wf x (Cert.RefSpec.col src) e

/-- The coefficient rows at (n, k): node n's coefficient. -/
theorem normRows_apply (nrm : FVec Ideal S100000 .f32) (n : Fin 100000) (k : Fin 64) :
    Cert.RefSpec.normRows nrm (ix2 n k) = nrm (ix1 n) := by
  unfold Cert.RefSpec.normRows
  refine (broadcastInDim_apply _ _ _ _ (ix2 n ⟨0, Nat.one_pos⟩) (fun a => by
    match a with
    | ⟨0, _⟩ => rfl
    | ⟨1, _⟩ => rfl)).trans ?_
  exact broadcastInDim_apply _ _ _ _ (ix1 n) (fun a => by match a with | ⟨0, _⟩ => rfl)

end Cert.BridgeIdx

end
-- ==== Proof.BridgeMsg.lean ====
/-
  An edge's message is the same on both sides. The edge e with source node n carries, on the kernel side, the projected
  row (the sum over k of h (n, k) · W (k, j)) times the coefficient of n, and on the reference side the projection of the
  scaled row (the sum over k of (h (n, k) · coefficient of n) · W (k, j)). The two are equal because a real factor moves
  across a finite sum of products of reals.
-/
import proofs.«127511_j51393578664471_2_alg».proof.Proof.BridgeIdx
import Idealize.ShloMosaic.Lib.ValueLayout

noncomputable section

namespace Cert.BridgeMsg

open Idealize.ShloMosaic Idealize.ShloMosaic.ValueIdx Cert.Basics Cert.ReferenceIdeal Cert.BridgeIdx

/-! ## Broadcasts read at an entry -/

/-- A per-edge vector repeated along each edge's row, at (e, j): the vector's entry at e. -/
theorem edgeRows_apply (h1 : S1600000.BroadcastsInDim S1600000x1 (![0] : Fin 1 → Fin S1600000x1.rank))
    (h2 : S1600000x1.BroadcastsInDim S1600000x64 (![0, 1] : Fin 2 → Fin S1600000x64.rank))
    (v : FVec Ideal S1600000 .f32) (e : Fin 1600000) (j : Fin 64) :
    broadcastInDim S1600000x64 ![0, 1] h2 (broadcastInDim S1600000x1 ![0] h1 v) (ix2 e j) = v (ix1 e) := by
  refine (broadcastInDim_apply _ _ _ _ (ix2 e ⟨0, Nat.one_pos⟩) (fun a => by
    match a with
    | ⟨0, _⟩ => rfl
    | ⟨1, _⟩ => rfl)).trans ?_
  exact broadcastInDim_apply _ _ _ _ (ix1 e) (fun a => by match a with | ⟨0, _⟩ => rfl)

/-- The bias repeated along every node's row, at (n, q): the bias of column q. -/
theorem biasRows_apply (h1 : S64.BroadcastsInDim S1x64 (![1] : Fin 1 → Fin S1x64.rank))
    (h2 : S1x64.BroadcastsInDim S100000x64 (![0, 1] : Fin 2 → Fin S100000x64.rank))
    (b : FVec Ideal S64 .f32) (n : Fin 100000) (q : Fin 64) :
    broadcastInDim S100000x64 ![0, 1] h2 (broadcastInDim S1x64 ![1] h1 b) (ix2 n q) = b (ix1 q) := by
  refine (broadcastInDim_apply _ _ _ _ (ix2 ⟨0, Nat.one_pos⟩ q) (fun a => by
    match a with
    | ⟨0, _⟩ => rfl
    | ⟨1, _⟩ => rfl)).trans ?_
  exact broadcastInDim_apply _ _ _ _ (ix1 q) (fun a => by match a with | ⟨0, _⟩ => rfl)

/-! ## The messages -/

/-- The reference's projection of the scaled features, at (n, j). -/
theorem project_apply (h : FVec Ideal S100000x64 .f32) (nrm : FVec Ideal S100000 .f32) (W : FVec Ideal S64x64 .f32)
    (n : Fin 100000) (j : Fin 64) :
    Cert.RefSpec.project h nrm W (ix2 n j) = ∑ k : Fin 64, (h (ix2 n k) * nrm (ix1 n)) * W (ix2 k j) := by
  unfold Cert.RefSpec.project
  rw [Cert.DotAt.dot_apply]
  exact Finset.sum_congr rfl fun k _ => by rw [mulf_apply, normRows_apply]

/-- An edge's message is the same on both sides: the coefficient of the source node moves across the sum. -/
theorem messages_eq (h : FVec Ideal S100000x64 .f32) (nrm : FVec Ideal S100000 .f32) (src : IVec S1600000 32)
    (W : FVec Ideal S64x64 .f32) (hh : IsReal h) (hn : IsReal nrm) (hW : IsReal W)
    (hsrc : ∀ i, 0 ≤ (src i).toInt ∧ (src i).toInt < 100000) :
    Cert.KerSpec.messages (Cert.KerSpec.project h W) nrm src
      = Cert.RefSpec.takeRows (Cert.RefSpec.project h nrm W) src := by
  funext y
  obtain ⟨e, j, rfl⟩ : ∃ (e : Fin 1600000) (j : Fin 64), y = ix2 e j := ⟨y 0, y 1, eq_ix2 y⟩
  rw [takeRows_apply _ src hsrc, project_apply]
  unfold Cert.KerSpec.messages
  rw [mulf_apply, takeRows_eq, takeRows_apply _ src hsrc, edgeRows_apply, takeVec_apply nrm src hsrc]
  show (∑ k : Fin 64, h (ix2 (node src e) k) * W (ix2 k j)) * nrm (ix1 (node src e)) = _
  exact (Cert.Algebra.scale_sum (fun k => h (ix2 (node src e) k)) (fun k => W (ix2 k j)) (nrm (ix1 (node src e)))
    (fun k => hh _) (fun k => hW _) (hn _)).symm

end Cert.BridgeMsg

end
-- ==== Proof.BridgeReal.lean ====
/-
  Reals stay reals through a layer: the projection is a finite sum of products of reals, a taken row is a row of the
  operand, a node's aggregate is zero plus a finite sum of reals, and the layer scales it by a real and adds a real; the
  maximum with zero of a real is real.
-/
import proofs.«127511_j51393578664471_2_alg».proof.Proof.BridgeIdx
import Idealize.ShloMosaic.Lib.ValueLayout
import proofs.«127511_j51393578664471_2_alg».proof.Proof.BridgeMsg

noncomputable section

namespace Cert.BridgeReal

open Idealize.ShloMosaic Idealize.ShloMosaic.ValueIdx Cert.Basics Cert.ReferenceIdeal Cert.BridgeIdx Cert.BridgeMsg

/-! ## Reals stay reals -/

/-- The reference's projection of real arrays is real. -/
theorem project_real (h : FVec Ideal S100000x64 .f32) (nrm : FVec Ideal S100000 .f32) (W : FVec Ideal S64x64 .f32)
    (hh : IsReal h) (hn : IsReal nrm) (hW : IsReal W) : IsReal (Cert.RefSpec.project h nrm W) := by
  intro y
  obtain ⟨n, j, rfl⟩ : ∃ (n : Fin 100000) (j : Fin 64), y = ix2 n j := ⟨y 0, y 1, eq_ix2 y⟩
  rw [project_apply]
  exact Cert.Algebra.sum_real _ _ fun k _ => Cert.Algebra.mul_real (Cert.Algebra.mul_real (hh _) (hn _)) (hW _)

/-- Rows taken from a real array are real. -/
theorem takeRows_real (x : FVec Ideal S100000x64 .f32) (src : IVec S1600000 32) (hx : IsReal x)
    (hsrc : ∀ i, 0 ≤ (src i).toInt ∧ (src i).toInt < 100000) : IsReal (Cert.RefSpec.takeRows x src) := by
  intro y
  obtain ⟨e, j, rfl⟩ : ∃ (e : Fin 1600000) (j : Fin 64), y = ix2 e j := ⟨y 0, y 1, eq_ix2 y⟩
  rw [takeRows_apply _ src hsrc]
  exact hx _

/-- An accumulating scatter of real updates into a real operand is real, whatever the shapes and the indices: each
    entry is the operand's entry plus a finite sum of updates. -/
theorem scatterAdd_real {s si su : Shape} (d : ScatterDims s si su) {w : Nat} (x : s.Idx → EReal) (idx : IVec si w)
    (upd : su.Idx → EReal) (hx : ∀ i, ∃ r : ℝ, x i = (r : EReal)) (hu : ∀ j, ∃ r : ℝ, upd j = (r : EReal)) (i : s.Idx) :
    ∃ r : ℝ, Ideal.hostScatterAdd d x idx upd i = (r : EReal) := by
  unfold Ideal.hostScatterAdd
  exact Cert.Algebra.add_real (hx i) (Cert.Algebra.sum_real _ _ fun j _ => hu j)

/-- The same for the host's accumulating scatter as the programs spell it, at any shapes. -/
theorem host_scatterAdd_real {s si su : Shape} (d : ScatterDims s si su) {w : Nat} (x : FVec Ideal s .f32)
    (idx : IVec si w) (upd : FVec Ideal su .f32) (hx : ∀ i, ∃ r : ℝ, x i = (r : EReal))
    (hu : ∀ j, ∃ r : ℝ, upd j = (r : EReal)) (i : s.Idx) :
    ∃ r : ℝ, Host.scatterAdd d x idx upd i = (r : EReal) :=
  scatterAdd_real d x idx upd hx hu i

/-- The zero array every aggregate starts from is real. -/
theorem zeros_real (h : S_.BroadcastsInDim S100000x64 (![] : Fin 0 → Fin S100000x64.rank)) (k : S100000x64.Idx) :
    ∃ r : ℝ, broadcastInDim S100000x64 ![] h (constant (F := Ideal) S_ .f32 0x00000000#32) k = (r : EReal) :=
  ⟨0, by
    show Ideal.ofBits .f32 0x00000000#32 = ((0 : ℝ) : EReal)
    rw [Ideal.ofBits_zero_f32, EReal.coe_zero]⟩

/-- Real messages summed into their destination nodes from zero give a real array. -/
theorem aggregate_real (M : FVec Ideal S1600000x64 .f32) (dst : IVec S1600000 32) (hM : IsReal M) :
    IsReal (Cert.RefSpec.aggregate M dst) := fun i =>
  host_scatterAdd_real _ _ _ M (zeros_real _) hM i

/-- The reference's layer, before its activation, at (n, q). -/
theorem layerPre_apply (h : FVec Ideal S100000x64 .f32) (nrm : FVec Ideal S100000 .f32) (src dst : IVec S1600000 32)
    (W : FVec Ideal S64x64 .f32) (b : FVec Ideal S64 .f32) (n : Fin 100000) (q : Fin 64) :
    Cert.RefSpec.layerPre h nrm src dst W b (ix2 n q)
      = Cert.RefSpec.aggregate (Cert.RefSpec.takeRows (Cert.RefSpec.project h nrm W) src) dst (ix2 n q) * nrm (ix1 n)
        + b (ix1 q) := by
  unfold Cert.RefSpec.layerPre
  rw [addf_apply, mulf_apply, biasRows_apply, normRows_apply]

/-- A layer of real arrays is real. -/
theorem layerPre_real (h : FVec Ideal S100000x64 .f32) (nrm : FVec Ideal S100000 .f32) (src dst : IVec S1600000 32)
    (W : FVec Ideal S64x64 .f32) (b : FVec Ideal S64 .f32) (hh : IsReal h) (hn : IsReal nrm) (hW : IsReal W)
    (hb : IsReal b) (hsrc : ∀ i, 0 ≤ (src i).toInt ∧ (src i).toInt < 100000) :
    IsReal (Cert.RefSpec.layerPre h nrm src dst W b) := by
  intro y
  obtain ⟨n, q, rfl⟩ : ∃ (n : Fin 100000) (q : Fin 64), y = ix2 n q := ⟨y 0, y 1, eq_ix2 y⟩
  rw [layerPre_apply]
  exact Cert.Algebra.add_real (Cert.Algebra.mul_real
    (aggregate_real _ dst (takeRows_real _ src (project_real h nrm W hh hn hW) hsrc) _) (hn _)) (hb _)

/-- The maximum of a real array with zero is real. -/
theorem relu_real (x : FVec Ideal S100000x64 .f32) (hx : IsReal x) : IsReal (Cert.RefSpec.relu x) := by
  intro i
  show ∃ r : ℝ, max (x i) (Ideal.ofBits .f32 0x00000000#32) = (r : EReal)
  exact Cert.Algebra.max_real (hx i) ⟨0, by rw [Ideal.ofBits_zero_f32, EReal.coe_zero]⟩

end Cert.BridgeReal

end
-- ==== Proof.Bridge.lean ====
/-
  The two layers are one function. On arrays of real numbers, with every edge's source index on the node axis, a layer
  of the program with the kernels and a layer of the reference agree entry by entry: the edges' messages are equal, both
  sides sum them into the destination nodes with the same destination indices, and both then scale a node's sum by its
  coefficient and add the bias of the column (and take the maximum with zero in the hidden layers). Each layer's output
  is again an array of reals, so the argument repeats for the next layer.
-/
import proofs.«127511_j51393578664471_2_alg».proof.Proof.BridgeIdx
import Idealize.ShloMosaic.Lib.ValueLayout
import proofs.«127511_j51393578664471_2_alg».proof.Proof.BridgeMsg
import proofs.«127511_j51393578664471_2_alg».proof.Proof.BridgeReal

noncomputable section

namespace Cert.Bridge

open Idealize.ShloMosaic Idealize.ShloMosaic.ValueIdx Cert.Basics Cert.ReferenceIdeal Cert.BridgeIdx Cert.BridgeMsg Cert.BridgeReal

/-! ## The activation -/

/-- The maximum with zero is the same function on both sides. -/
theorem relu_eq (x : FVec Ideal S100000x64 .f32) : Cert.KerSpec.relu x = Cert.RefSpec.relu x := rfl

/-! ## A layer, and the three layers -/

/-- A layer before its activation is the same function on both sides. -/
theorem layerPre_eq (h : FVec Ideal S100000x64 .f32) (nrm : FVec Ideal S100000 .f32) (src dst : IVec S1600000 32)
    (W : FVec Ideal S64x64 .f32) (b : FVec Ideal S64 .f32) (hh : IsReal h) (hn : IsReal nrm) (hW : IsReal W)
    (hsrc : ∀ i, 0 ≤ (src i).toInt ∧ (src i).toInt < 100000) :
    Cert.KerSpec.layerPre h nrm src dst W b = Cert.RefSpec.layerPre h nrm src dst W b := by
  funext y
  obtain ⟨n, q, rfl⟩ : ∃ (n : Fin 100000) (q : Fin 64), y = ix2 n q := ⟨y 0, y 1, eq_ix2 y⟩
  have hL : Cert.KerSpec.layerPre h nrm src dst W b (ix2 n q)
      = Cert.KerSpec.aggregate (Cert.KerSpec.messages (Cert.KerSpec.project h W) nrm src) dst (ix2 n q)
          * Cert.KerSpec.normRows nrm (ix2 n q) + Cert.KerSpec.biasRow b (ix2 (0 : Fin 1) q) := rfl
  rw [hL, layerPre_apply, messages_eq h nrm src W hh hn hW hsrc, aggregate_eq, normRows_eq, normRows_apply]
  refine congrArg (HAdd.hAdd _) ?_
  unfold Cert.KerSpec.biasRow
  exact shapeCast_a_1a_apply _ _ _ _

/-- The three layers are the same function of real arguments with every source index on the node axis. -/
theorem result_eq (feat : FVec Ideal S100000x64 .f32) (nrm : FVec Ideal S100000 .f32) (src dst : IVec S1600000 32)
    (W0 : FVec Ideal S64x64 .f32) (b0 : FVec Ideal S64 .f32) (W1 : FVec Ideal S64x64 .f32) (b1 : FVec Ideal S64 .f32)
    (W2 : FVec Ideal S64x64 .f32) (b2 : FVec Ideal S64 .f32)
    (hf : IsReal feat) (hn : IsReal nrm) (hW0 : IsReal W0) (hb0 : IsReal b0) (hW1 : IsReal W1) (hb1 : IsReal b1)
    (hW2 : IsReal W2) (hsrc : ∀ i, 0 ≤ (src i).toInt ∧ (src i).toInt < 100000) :
    Cert.KerSpec.result feat nrm src dst W0 b0 W1 b1 W2 b2 = Cert.RefSpec.result feat nrm src dst W0 b0 W1 b1 W2 b2 := by
  have r1 := layerPre_real feat nrm src dst W0 b0 hf hn hW0 hb0 hsrc
  have a1 := relu_real _ r1
  have r2 := layerPre_real _ nrm src dst W1 b1 a1 hn hW1 hb1 hsrc
  have a2 := relu_real _ r2
  have e1 : Cert.KerSpec.relu (Cert.KerSpec.layerPre feat nrm src dst W0 b0)
      = Cert.RefSpec.relu (Cert.RefSpec.layerPre feat nrm src dst W0 b0) := by
    rw [layerPre_eq feat nrm src dst W0 b0 hf hn hW0 hsrc, relu_eq]
  have e2 : Cert.KerSpec.relu (Cert.KerSpec.layerPre (Cert.KerSpec.relu (Cert.KerSpec.layerPre feat nrm src dst W0 b0))
        nrm src dst W1 b1)
      = Cert.RefSpec.relu (Cert.RefSpec.layerPre (Cert.RefSpec.relu (Cert.RefSpec.layerPre feat nrm src dst W0 b0))
        nrm src dst W1 b1) := by
    rw [e1, layerPre_eq _ nrm src dst W1 b1 a1 hn hW1 hsrc, relu_eq]
  unfold Cert.KerSpec.result Cert.RefSpec.result
  rw [e2, layerPre_eq _ nrm src dst W2 b2 a2 hn hW2 hsrc]

end Cert.Bridge

end
-- ==== Proof.lean ====
/-
  A three-layer graph convolution: the program with the kernels against its plain reference, over the extended reals.

  Each layer scales the node features by a per-node coefficient, projects them by a weight matrix, sends along every edge
  the projected row of the edge's source node, sums the rows arriving at each destination node, scales the sum by the
  node's coefficient and adds a bias (the two hidden layers then take the maximum with zero). The reference scales the
  features BEFORE the projection; the program with the kernels projects first (a dense product per block of rows, in a
  kernel), scales each edge's row by the source node's coefficient afterwards, and does the final scaling, bias and
  maximum in a second kernel per layer. The two differ by one law: a factor moved across the sum of a matrix product,
  (the sum over k of (h (n, k) · c) · W (k, j)) = (the sum over k of h (n, k) · W (k, j)) · c, which holds for real numbers
  and fails at the infinities. So the claim is proved under the stated domain: every float argument finite, and every
  edge's source index on the node axis (outside it both gathers return the fill value, which the kernel side multiplies
  by itself and the reference does not). Under it every array met along the way holds real numbers only, layer after layer.

  The frames are the generated ones (the reference's is its run with the result dropped); no rewrite was applied to the
  program with the kernels, so nothing is owed for the idealization; the value claim puts together: the kernel program's
  run with the result array named, that array read back through the program's segments as three layers, the reference's
  run read back as three layers, what the precondition says of the arguments, and the equality of the layers.
-/
import proofs.«127511_j51393578664471_2_alg».proof.Defs
import proofs.«127511_j51393578664471_2_alg».proof.Proof.Gen.Kernel.Frame
import proofs.«127511_j51393578664471_2_alg».proof.Proof.Gen.KernelIdeal.Frame
import proofs.«127511_j51393578664471_2_alg».proof.Proof.Gen.ReferenceIdeal
import proofs.«127511_j51393578664471_2_alg».proof.Proof.Gen.Pre_finite_inputs
import proofs.«127511_j51393578664471_2_alg».proof.Proof.KerRun
import proofs.«127511_j51393578664471_2_alg».proof.Proof.RegionMatmul
import proofs.«127511_j51393578664471_2_alg».proof.Proof.RegionScale
import proofs.«127511_j51393578664471_2_alg».proof.Proof.FoldAll
import proofs.«127511_j51393578664471_2_alg».proof.Proof.RefRun
import proofs.«127511_j51393578664471_2_alg».proof.Proof.PreFacts
import proofs.«127511_j51393578664471_2_alg».proof.Proof.Bridge

noncomputable section

namespace Cert.Proof

open Idealize.ShloMosaic Idealize.SL.Sem

/-- The program with the kernels, as printed: it runs and leaves its arguments as they were. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference: its run, the result dropped. -/
theorem frame_reference : Cert.frame_ReferenceIdeal := fun m ρ _ =>
  (θ_run Cert.ReferenceIdeal.defs _ _).mono (fun _ h c => (h c).2) (Cert.RefRun.run m ρ)

/-- No operation of the program with the kernels was rewritten for the reading over the extended reals. -/
theorem preserves : Cert.preserves_Kernel_KernelIdeal := trivial

/-- From memories agreeing on the arguments both programs end with the same result array: the three layers of the
    kernel side at the arguments, which the reference's three layers equal under the precondition. -/
theorem algebraic : Cert.algebraic_KernelIdeal_ReferenceIdeal := by
  intro m ρ m' ρ' hpre hagree
  refine ⟨fun c => Cert.KerSpec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KerFold.result Cert.KerRegions.region0 Cert.KerRegions.region1
        Cert.KerRegions.region2 Cert.KerRegions.region3 Cert.KerRegions.region4 Cert.KerRegions.region5 m ρ c), (h c).2⟩)
      (Cert.KerRun.run_result (F := Ideal) m ρ)
  · refine (θ_run Cert.ReferenceIdeal.defs _ _).mono (fun r h c => ⟨(h c).1.trans ?_, (h c).2⟩)
      (Cert.RefRun.run m' ρ')
    obtain ⟨h0, h1, h4, h5, h6, h7, h8, _, hs⟩ := Cert.PreFacts.of_pre m hpre c
    obtain ⟨a0, a1, a2, a3, a4, a5, a6, a7, a8, a9⟩ := hagree c
    rw [a0, a1, a2, a3, a4, a5, a6, a7, a8, a9]
    exact (Cert.Bridge.result_eq _ _ _ _ _ _ _ _ _ _ h0 h1 h4 h5 h6 h7 h8 hs).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
